-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x30000x128 : Shape := ⟨3, ![4, 30000, 128]⟩
abbrev S3x2x480000 : Shape := ⟨3, ![3, 2, 480000]⟩
abbrev S128x128 : Shape := ⟨2, ![128, 128]⟩
abbrev S128 : Shape := ⟨1, ![128]⟩
abbrev S3 : Shape := ⟨1, ![3]⟩
abbrev S3x128x128 : Shape := ⟨3, ![3, 128, 128]⟩
abbrev S3x128 : Shape := ⟨2, ![3, 128]⟩
abbrev S_ : Shape := ⟨0, ![]⟩

class Facts : Prop where
  bcast_S_S4x30000x128 : S_.BroadcastsInDim S4x30000x128 (![] : Fin 0 → Fin S4x30000x128.rank)
  reducesTo_S4x30000x128_S_d0_1_2 : S4x30000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3 : S_.BroadcastsInDim S3 (![] : Fin 0 → Fin S3.rank)
  reducesTo_S3_S_d0 : S3.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part5 {F : FTy → Type} [FloatOps F] (main_v83 : IVec S_ 1) (main_v84 : FVec F S3x128 .f32) (main_cst_32 : FVec F S_ .f32) : IVec S_ 1 :=
  let main_v85 : FVec F S3x128 .f32 := broadcastInDim S3x128 ![] bcast_S_S3x128 main_cst_32
  let main_v86 : IVec S3x128 1 := cmpf .olt main_v84 main_v85
  let main_c_33 : IVec S_ 1 := constantI S_ 1 1#1
  let main_v87 : IVec S_ 1 := (fun x v => Host.reduce IntOp.andi x v reducesTo_S3x128_S_d0_1 h_S_) main_v86 main_c_33
  let main_v88 : IVec S_ 1 := andi main_v83 main_v87
  main_v88

def fn_part4 {F : FTy → Type} [FloatOps F] (main_arg15 : FVec F S3x128 .f32) (main_arg16 : FVec F S3x128 .f32) (main_arg17 : FVec F S3x128x128 .f32) (main_arg18 : FVec F S3x128 .f32) (main_v63 : IVec S_ 1) (main_v67 : IVec S_ 1) : IVec S_ 1 :=
  let main_v68 : IVec S_ 1 := andi main_v63 main_v67
  let main_v69 : FVec F S3x128 .f32 := Host.absf main_arg15
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_v74 : FVec F S3x128 .f32 := Host.absf main_arg16
  let main_cst_28 : FVec F S_ .f32 := constant S_ .f32 0x7F800000#32
  let main_v75 : FVec F S3x128 .f32 := broadcastInDim S3x128 ![] bcast_S_S3x128 main_cst_28
  let main_v76 : IVec S3x128 1 := cmpf .olt main_v74 main_v75
  let main_c_29 : IVec S_ 1 := constantI S_ 1 1#1
  let main_v77 : IVec S_ 1 := (fun x v => Host.reduce IntOp.andi x v reducesTo_S3x128_S_d0_1 h_S_) main_v76 main_c_29
  let main_v78 : IVec S_ 1 := andi main_v73 main_v77
  let main_v79 : FVec F S3x128x128 .f32 := Host.absf main_arg17
  let main_cst_30 : FVec F S_ .f32 := constant S_ .f32 0x7F800000#32
  let main_v80 : FVec F S3x128x128 .f32 := broadcastInDim S3x128x128 ![] bcast_S_S3x128x128 main_cst_30
  let main_v81 : IVec S3x128x128 1 := cmpf .olt main_v79 main_v80
  let main_c_31 : IVec S_ 1 := constantI S_ 1 1#1
  let main_v82 : IVec S_ 1 := (fun x v => Host.reduce IntOp.andi x v reducesTo_S3x128x128_S_d0_1_2 h_S_) main_v81 main_c_31
  let main_v83 : IVec S_ 1 := andi main_v78 main_v82
  let main_v84 : FVec F S3x128 .f32 := Host.absf main_arg18
  let main_cst_32 : FVec F S_ .f32 := constant S_ .f32 0x7F800000#32
  fn_part5 (F := F) main_v83 main_v84 main_cst_32

def fn_part3 {F : FTy → Type} [FloatOps F] (main_arg12 : FVec F S3x128 .f32) (main_arg13 : FVec F S3x128 .f32) (main_arg14 : FVec F S3x128 .f32) (main_arg15 : FVec F S3x128 .f32) (main_arg16 : FVec F S3x128 .f32) (main_arg17 : FVec F S3x128x128 .f32) (main_arg18 : FVec F S3x128 .f32) (main_v48 : IVec S_ 1) (main_v49 : FVec F S3x128x128 .f32) (main_v50 : FVec F S3x128x128 .f32) : IVec S_ 1 :=
  let main_v51 : IVec S3x128x128 1 := cmpf .olt main_v49 main_v50
  let main_c_19 : IVec S_ 1 := constantI S_ 1 1#1
  let main_v52 : IVec S_ 1 := (fun x v => Host.reduce IntOp.andi x v reducesTo_S3x128x128_S_d0_1_2 h_S_) main_v51 main_c_19
  let main_v53 : IVec S_ 1 := andi main_v48 main_v52
  let main_v54 : FVec F S3x128 .f32 := Host.absf main_arg12
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128 .f32 := Host.absf main_arg13
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S3x128 .f32 := Host.absf main_arg14
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg15 main_arg16 main_arg17 main_arg18 main_v63 main_v67

def fn_part2 {F : FTy → Type} [FloatOps F] (main_arg8 : FVec F S128x128 .f32) (main_arg9 : FVec F S128 .f32) (main_arg10 : FVec F S3 .f32) (main_arg11 : FVec F S3x128x128 .f32) (main_arg12 : FVec F S3x128 .f32) (main_arg13 : FVec F S3x128 .f32) (main_arg14 : FVec F S3x128 .f32) (main_arg15 : FVec F S3x128 .f32) (main_arg16 : FVec F S3x128 .f32) (main_arg17 : FVec F S3x128x128 .f32) (main_arg18 : FVec F S3x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S3 .f32 := Host.absf main_arg10
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  let main_v49 : FVec F S3x128x128 .f32 := Host.absf main_arg11
  let main_cst_18 : FVec F S_ .f32 := constant S_ .f32 0x7F800000#32
  let main_v50 : FVec F S3x128x128 .f32 := broadcastInDim S3x128x128 ![] bcast_S_S3x128x128 main_cst_18
  fn_part3 (F := F) main_arg12 main_arg13 main_arg14 main_arg15 main_arg16 main_arg17 main_arg18 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S3 .f32) (main_arg11 : FVec F S3x128x128 .f32) (main_arg12 : FVec F S3x128 .f32) (main_arg13 : FVec F S3x128 .f32) (main_arg14 : FVec F S3x128 .f32) (main_arg15 : FVec F S3x128 .f32) (main_arg16 : FVec F S3x128 .f32) (main_arg17 : FVec F S3x128x128 .f32) (main_arg18 : FVec F S3x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S4x30000x128 .f32) (main_arg1 : IVec S3x2x480000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S3 .f32) (main_arg11 : FVec F S3x128x128 .f32) (main_arg12 : FVec F S3x128 .f32) (main_arg13 : FVec F S3x128 .f32) (main_arg14 : FVec F S3x128 .f32) (main_arg15 : FVec F S3x128 .f32) (main_arg16 : FVec F S3x128 .f32) (main_arg17 : FVec F S3x128x128 .f32) (main_arg18 : FVec F S3x128 .f32) : IVec S_ 1 :=
  let main_v0 : FVec F S4x30000x128 .f32 := Host.absf main_arg0
  let main_cst : FVec F S_ .f32 := constant S_ .f32 0x7F800000#32
  let main_v1 : FVec F S4x30000x128 .f32 := broadcastInDim S4x30000x128 ![] bcast_S_S4x30000x128 main_cst
  let main_v2 : IVec S4x30000x128 1 := cmpf .olt main_v0 main_v1
  let main_c : IVec S_ 1 := constantI S_ 1 1#1
  let main_v3 : IVec S_ 1 := (fun x v => Host.reduce IntOp.andi x v reducesTo_S4x30000x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S4x30000x128 : Shape := ⟨3, ![4, 30000, 128]⟩
abbrev S3x2x480000 : Shape := ⟨3, ![3, 2, 480000]⟩
abbrev S128x128 : Shape := ⟨2, ![128, 128]⟩
abbrev S128 : Shape := ⟨1, ![128]⟩
abbrev S3 : Shape := ⟨1, ![3]⟩
abbrev S3x128x128 : Shape := ⟨3, ![3, 128, 128]⟩
abbrev S3x128 : Shape := ⟨2, ![3, 128]⟩
abbrev S1x1x480000 : Shape := ⟨3, ![1, 1, 480000]⟩
abbrev S480000 : Shape := ⟨1, ![480000]⟩
abbrev S1x30000x128 : Shape := ⟨3, ![1, 30000, 128]⟩
abbrev S30000x128 : Shape := ⟨2, ![30000, 128]⟩
abbrev S_ : Shape := ⟨0, ![]⟩
abbrev S480000x1 : Shape := ⟨2, ![480000, 1]⟩
abbrev S480000x128 : Shape := ⟨2, ![480000, 128]⟩
abbrev S1 : Shape := ⟨1, ![1]⟩
abbrev S3x30000x128 : Shape := ⟨3, ![3, 30000, 128]⟩
abbrev S2000x128 : Shape := ⟨2, ![2000, 128]⟩
abbrev S3x2000x128 : Shape := ⟨3, ![3, 2000, 128]⟩
abbrev S1x128 : Shape := ⟨2, ![1, 128]⟩
abbrev S1x2000x128 : Shape := ⟨3, ![1, 2000, 128]⟩
abbrev S1x128x128 : Shape := ⟨3, ![1, 128, 128]⟩

abbrev nBuf : Space → Nat
  | .hbm => 110
  | .vmem => 22
  | .smem => 0
  | _ => 0

abbrev bufTy : (tb : Table) → Fin (tcTables nBuf tb) → BufTy
  | .hbm, ⟨0, _⟩ => ⟨S4x30000x128, .f32⟩
  | .hbm, ⟨1, _⟩ => ⟨S3x2x480000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S3, .f32⟩
  | .hbm, ⟨11, _⟩ => ⟨S3x128x128, .f32⟩
  | .hbm, ⟨12, _⟩ => ⟨S3x128, .f32⟩
  | .hbm, ⟨13, _⟩ => ⟨S3x128, .f32⟩
  | .hbm, ⟨14, _⟩ => ⟨S3x128, .f32⟩
  | .hbm, ⟨15, _⟩ => ⟨S3x128, .f32⟩
  | .hbm, ⟨16, _⟩ => ⟨S3x128, .f32⟩
  | .hbm, ⟨17, _⟩ => ⟨S3x128x128, .f32⟩
  | .hbm, ⟨18, _⟩ => ⟨S3x128, .f32⟩
  | .hbm, ⟨19, _⟩ => ⟨S1x1x480000, .i32⟩
  | .hbm, ⟨20, _⟩ => ⟨S480000, .i32⟩
  | .hbm, ⟨21, _⟩ => ⟨S1x1x480000, .i32⟩
  | .hbm, ⟨22, _⟩ => ⟨S480000, .i32⟩
  | .hbm, ⟨23, _⟩ => ⟨S1x30000x128, .f32⟩
  | .hbm, ⟨24, _⟩ => ⟨S30000x128, .f32⟩
  | .hbm, ⟨25, _⟩ => ⟨S_, .i32⟩
  | .hbm, ⟨26, _⟩ => ⟨S480000, .i32⟩
  | .hbm, ⟨27, _⟩ => ⟨S480000, .i1⟩
  | .hbm, ⟨28, _⟩ => ⟨S_, .i32⟩
  | .hbm, ⟨29, _⟩ => ⟨S480000, .i32⟩
  | .hbm, ⟨30, _⟩ => ⟨S480000, .i32⟩
  | .hbm, ⟨31, _⟩ => ⟨S480000, .i32⟩
  | .hbm, ⟨32, _⟩ => ⟨S480000x1, .i32⟩
  | .hbm, ⟨33, _⟩ => ⟨S480000x128, .f32⟩
  | .hbm, ⟨34, _⟩ => ⟨S_, .f32⟩
  | .hbm, ⟨35, _⟩ => ⟨S30000x128, .f32⟩
  | .hbm, ⟨36, _⟩ => ⟨S480000x1, .i32⟩
  | .hbm, ⟨37, _⟩ => ⟨S30000x128, .f32⟩
  | .hbm, ⟨38, _⟩ => ⟨S1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S30000x128, .f32⟩
  | .hbm, ⟨43, _⟩ => ⟨S30000x128, .f32⟩
  | .hbm, ⟨44, _⟩ => ⟨S30000x128, .f32⟩
  | .hbm, ⟨45, _⟩ => ⟨S1x1x480000, .i32⟩
  | .hbm, ⟨46, _⟩ => ⟨S480000, .i32⟩
  | .hbm, ⟨47, _⟩ => ⟨S1x1x480000, .i32⟩
  | .hbm, ⟨48, _⟩ => ⟨S480000, .i32⟩
  | .hbm, ⟨49, _⟩ => ⟨S1x30000x128, .f32⟩
  | .hbm, ⟨50, _⟩ => ⟨S30000x128, .f32⟩
  | .hbm, ⟨51, _⟩ => ⟨S_, .i32⟩
  | .hbm, ⟨52, _⟩ => ⟨S480000, .i32⟩
  | .hbm, ⟨53, _⟩ => ⟨S480000, .i1⟩
  | .hbm, ⟨54, _⟩ => ⟨S_, .i32⟩
  | .hbm, ⟨55, _⟩ => ⟨S480000, .i32⟩
  | .hbm, ⟨56, _⟩ => ⟨S480000, .i32⟩
  | .hbm, ⟨57, _⟩ => ⟨S480000, .i32⟩
  | .hbm, ⟨58, _⟩ => ⟨S480000x1, .i32⟩
  | .hbm, ⟨59, _⟩ => ⟨S480000x128, .f32⟩
  | .hbm, ⟨60, _⟩ => ⟨S_, .f32⟩
  | .hbm, ⟨61, _⟩ => ⟨S30000x128, .f32⟩
  | .hbm, ⟨62, _⟩ => ⟨S480000x1, .i32⟩
  | .hbm, ⟨63, _⟩ => ⟨S30000x128, .f32⟩
  | .hbm, ⟨64, _⟩ => ⟨S1, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S30000x128, .f32⟩
  | .hbm, ⟨69, _⟩ => ⟨S30000x128, .f32⟩
  | .hbm, ⟨70, _⟩ => ⟨S30000x128, .f32⟩
  | .hbm, ⟨71, _⟩ => ⟨S1x1x480000, .i32⟩
  | .hbm, ⟨72, _⟩ => ⟨S480000, .i32⟩
  | .hbm, ⟨73, _⟩ => ⟨S1x1x480000, .i32⟩
  | .hbm, ⟨74, _⟩ => ⟨S480000, .i32⟩
  | .hbm, ⟨75, _⟩ => ⟨S1x30000x128, .f32⟩
  | .hbm, ⟨76, _⟩ => ⟨S30000x128, .f32⟩
  | .hbm, ⟨77, _⟩ => ⟨S_, .i32⟩
  | .hbm, ⟨78, _⟩ => ⟨S480000, .i32⟩
  | .hbm, ⟨79, _⟩ => ⟨S480000, .i1⟩
  | .hbm, ⟨80, _⟩ => ⟨S_, .i32⟩
  | .hbm, ⟨81, _⟩ => ⟨S480000, .i32⟩
  | .hbm, ⟨82, _⟩ => ⟨S480000, .i32⟩
  | .hbm, ⟨83, _⟩ => ⟨S480000, .i32⟩
  | .hbm, ⟨84, _⟩ => ⟨S480000x1, .i32⟩
  | .hbm, ⟨85, _⟩ => ⟨S480000x128, .f32⟩
  | .hbm, ⟨86, _⟩ => ⟨S_, .f32⟩
  | .hbm, ⟨87, _⟩ => ⟨S30000x128, .f32⟩
  | .hbm, ⟨88, _⟩ => ⟨S480000x1, .i32⟩
  | .hbm, ⟨89, _⟩ => ⟨S30000x128, .f32⟩
  | .hbm, ⟨90, _⟩ => ⟨S1, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S30000x128, .f32⟩
  | .hbm, ⟨95, _⟩ => ⟨S30000x128, .f32⟩
  | .hbm, ⟨96, _⟩ => ⟨S30000x128, .f32⟩
  | .hbm, ⟨97, _⟩ => ⟨S1x30000x128, .f32⟩
  | .hbm, ⟨98, _⟩ => ⟨S1x30000x128, .f32⟩
  | .hbm, ⟨99, _⟩ => ⟨S1x30000x128, .f32⟩
  | .hbm, ⟨100, _⟩ => ⟨S3x30000x128, .f32⟩
  | .hbm, ⟨101, _⟩ => ⟨S1x30000x128, .f32⟩
  | .hbm, ⟨102, _⟩ => ⟨S30000x128, .f32⟩
  | .hbm, ⟨103, _⟩ => ⟨S30000x128, .bf16⟩
  | .hbm, ⟨104, _⟩ => ⟨S3x30000x128, .bf16⟩
  | .hbm, ⟨105, _⟩ => ⟨S128x128, .bf16⟩
  | .hbm, ⟨106, _⟩ => ⟨S128x128, .bf16⟩
  | .hbm, ⟨107, _⟩ => ⟨S3x128x128, .bf16⟩
  | .hbm, ⟨108, _⟩ => ⟨S3x128x128, .bf16⟩
  | .hbm, ⟨109, _⟩ => ⟨S30000x128, .f32⟩
  | .local _ .vmem, ⟨0, _⟩ => ⟨S2000x128, .bf16⟩
  | .local _ .vmem, ⟨1, _⟩ => ⟨S2000x128, .bf16⟩
  | .local _ .vmem, ⟨2, _⟩ => ⟨S3x2000x128, .bf16⟩
  | .local _ .vmem, ⟨3, _⟩ => ⟨S3x2000x128, .bf16⟩
  | .local _ .vmem, ⟨4, _⟩ => ⟨S128x128, .bf16⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S3x128x128, .bf16⟩
  | .local _ .vmem, ⟨13, _⟩ => ⟨S3x128, .f32⟩
  | .local _ .vmem, ⟨14, _⟩ => ⟨S3x128, .f32⟩
  | .local _ .vmem, ⟨15, _⟩ => ⟨S3x128, .f32⟩
  | .local _ .vmem, ⟨16, _⟩ => ⟨S3x128, .f32⟩
  | .local _ .vmem, ⟨17, _⟩ => ⟨S3x128, .f32⟩
  | .local _ .vmem, ⟨18, _⟩ => ⟨S3x128x128, .bf16⟩
  | .local _ .vmem, ⟨19, _⟩ => ⟨S3x128, .f32⟩
  | .local _ .vmem, ⟨20, _⟩ => ⟨S2000x128, .f32⟩
  | .local _ .vmem, ⟨21, _⟩ => ⟨S2000x128, .f32⟩
  | _, _ => ⟨S4x30000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_2 : Ref sig .tc := ⟨.hbm, 51, rfl⟩
abbrev main_v28 : Ref sig .tc := ⟨.hbm, 52, rfl⟩
abbrev main_v29 : Ref sig .tc := ⟨.hbm, 53, rfl⟩
abbrev main_c_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_6 : Ref sig .tc := ⟨.hbm, 77, rfl⟩
abbrev main_v50 : Ref sig .tc := ⟨.hbm, 78, rfl⟩
abbrev main_v51 : Ref sig .tc := ⟨.hbm, 79, rfl⟩
abbrev main_c_7 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_9 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2000x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  slices_S3x2x480000_S1x1x480000_0_0_0 : S3x2x480000.Slices ![0, 0, 0] S1x1x480000
  shapeCasts_S1x1x480000_S480000 : S1x1x480000.ShapeCasts S480000
  slices_S3x2x480000_S1x1x480000_0_1_0 : S3x2x480000.Slices ![0, 1, 0] S1x1x480000
  slices_S4x30000x128_S1x30000x128_1_0_0 : S4x30000x128.Slices ![1, 0, 0] S1x30000x128
  shapeCasts_S1x30000x128_S30000x128 : S1x30000x128.ShapeCasts S30000x128
  bcast_S_S480000 : S_.BroadcastsInDim S480000 (![] : Fin 0 → Fin S480000.rank)
  bcast_S480000_S480000x1_0 : S480000.BroadcastsInDim S480000x1 (![0] : Fin 1 → Fin S480000x1.rank)
  bcast_S_S30000x128 : S_.BroadcastsInDim S30000x128 (![] : Fin 0 → Fin S30000x128.rank)
  slices_S3_S1_0 : S3.Slices ![0] S1
  shapeCasts_S1_S_ : S1.ShapeCasts S_
  slices_S3x2x480000_S1x1x480000_1_0_0 : S3x2x480000.Slices ![1, 0, 0] S1x1x480000
  slices_S3x2x480000_S1x1x480000_1_1_0 : S3x2x480000.Slices ![1, 1, 0] S1x1x480000
  slices_S4x30000x128_S1x30000x128_2_0_0 : S4x30000x128.Slices ![2, 0, 0] S1x30000x128
  slices_S3_S1_1 : S3.Slices ![1] S1
  slices_S3x2x480000_S1x1x480000_2_0_0 : S3x2x480000.Slices ![2, 0, 0] S1x1x480000
  slices_S3x2x480000_S1x1x480000_2_1_0 : S3x2x480000.Slices ![2, 1, 0] S1x1x480000
  slices_S4x30000x128_S1x30000x128_3_0_0 : S4x30000x128.Slices ![3, 0, 0] S1x30000x128
  slices_S3_S1_2 : S3.Slices ![2] S1
  bcast_S30000x128_S1x30000x128_1_2 : S30000x128.BroadcastsInDim S1x30000x128 (![1, 2] : Fin 2 → Fin S1x30000x128.rank)
  concatenates_S1x30000x128_S1x30000x128_S1x30000x128_S3x30000x128_d0 : Shape.Concatenates [S1x30000x128, S1x30000x128, S1x30000x128] S3x30000x128 0
  slices_S4x30000x128_S1x30000x128_0_0_0 : S4x30000x128.Slices ![0, 0, 0] S1x30000x128
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S3x2000x128_S1x2000x128_0_0_0 : ∀ a, (![0, 0, 0] : Fin 3 → Nat) a + S1x2000x128.size a ≤ S3x2000x128.size a
  h_S1x2000x128 : 0 < S1x2000x128.numel
  shapeCasts_S1x2000x128_S2000x128 : S1x2000x128.ShapeCasts S2000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  inb_S3x2000x128_S1x2000x128_1_0_0 : ∀ a, (![1, 0, 0] : Fin 3 → Nat) a + S1x2000x128.size a ≤ S3x2000x128.size a
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x2000x128_S1x2000x128_2_0_0 : ∀ a, (![2, 0, 0] : Fin 3 → Nat) a + S1x2000x128.size a ≤ S3x2000x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  gather_S30000x128_S480000x1_S480000x128_1_0_n_n_0_1_1128_wf : GatherDims.WF S30000x128 S480000x1 S480000x128 [1] [0] [] [0] [] 1 ![1, 128]
  scatter_S30000x128_S480000x1_S480000x128_1_0_0_1_wf : ScatterDims.WF S30000x128 S480000x1 S480000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S30000x128.size a
  hwx0_0 : ∀ i : grid0.Coords, EltTy.bits .bf16 = 32 ∨ (Rect.block (s := S30000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2000x128.size a ≤ S3x30000x128.size a
  hwx0_1 : ∀ i : grid0.Coords, EltTy.bits .bf16 = 32 ∨ (Rect.block (s := S3x30000x128) S3x2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x128x128.size a ≤ S3x128x128.size a
  hwx0_10 : ∀ i : grid0.Coords, EltTy.bits .bf16 = 32 ∨ (Rect.block (s := S3x128x128) S3x128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3x128.size a ≤ S3x128.size a
  hwx0_11 : ∀ i : grid0.Coords, EltTy.bits .f32 = 32 ∨ (Rect.block (s := S3x128) S3x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S3x128.size a ≤ S3x128.size a
  hwx0_12 : ∀ i : grid0.Coords, EltTy.bits .f32 = 32 ∨ (Rect.block (s := S3x128) S3x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S3x128.size a ≤ S3x128.size a
  hwx0_13 : ∀ i : grid0.Coords, EltTy.bits .f32 = 32 ∨ (Rect.block (s := S3x128) S3x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S3x128.size a ≤ S3x128.size a
  hwx0_14 : ∀ i : grid0.Coords, EltTy.bits .f32 = 32 ∨ (Rect.block (s := S3x128) S3x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S3x128.size a ≤ S3x128.size a
  hwx0_15 : ∀ i : grid0.Coords, EltTy.bits .f32 = 32 ∨ (Rect.block (s := S3x128) S3x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S3x128x128.size a ≤ S3x128x128.size a
  hwx0_16 : ∀ i : grid0.Coords, EltTy.bits .bf16 = 32 ∨ (Rect.block (s := S3x128x128) S3x128x128.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S3x128.size a ≤ S3x128.size a
  hwx0_17 : ∀ i : grid0.Coords, EltTy.bits .f32 = 32 ∨ (Rect.block (s := S3x128) S3x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2000x128.size a ≤ S30000x128.size a
  hwx0_18 : ∀ i : grid0.Coords, EltTy.bits .f32 = 32 ∨ (Rect.block (s := S30000x128) S2000x128.size (cc0_transform_18 i) (hinb0_18 i)).WholeWords (EltTy.packing .f32)

variable [Facts₀]

def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v72) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v73) S3x2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v74) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v75) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v76) S3x128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S3x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S3x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S3x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S3x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S3x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v77) S3x128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg18) S3x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v78) S2000x128.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S4x30000x128 : Shape := ⟨3, ![4, 30000, 128]⟩
abbrev S3x2x480000 : Shape := ⟨3, ![3, 2, 480000]⟩
abbrev S128x128 : Shape := ⟨2, ![128, 128]⟩
abbrev S128 : Shape := ⟨1, ![128]⟩
abbrev S3 : Shape := ⟨1, ![3]⟩
abbrev S3x128x128 : Shape := ⟨3, ![3, 128, 128]⟩
abbrev S3x128 : Shape := ⟨2, ![3, 128]⟩
abbrev S1x30000x128 : Shape := ⟨3, ![1, 30000, 128]⟩
abbrev S30000x128 : Shape := ⟨2, ![30000, 128]⟩
abbrev S1x128 : Shape := ⟨2, ![1, 128]⟩
abbrev S_ : Shape := ⟨0, ![]⟩
abbrev S1x1x480000 : Shape := ⟨3, ![1, 1, 480000]⟩
abbrev S480000 : Shape := ⟨1, ![480000]⟩
abbrev S480000x1 : Shape := ⟨2, ![480000, 1]⟩
abbrev S480000x128 : Shape := ⟨2, ![480000, 128]⟩
abbrev S1 : Shape := ⟨1, ![1]⟩
abbrev S1x128x128 : Shape := ⟨3, ![1, 128, 128]⟩

abbrev nBuf : Space → Nat
  | .hbm => 258
  | .vmem => 0
  | .smem => 0
  | _ => 0

abbrev hbmTy0_0 (i : Nat) : BufTy := match i % 128 with
  | 0 => ⟨S4x30000x128, .f32⟩
  | 1 => ⟨S3x2x480000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S3, .f32⟩
  | 11 => ⟨S3x128x128, .f32⟩
  | 12 => ⟨S3x128, .f32⟩
  | 13 => ⟨S3x128, .f32⟩
  | 14 => ⟨S3x128, .f32⟩
  | 15 => ⟨S3x128, .f32⟩
  | 16 => ⟨S3x128, .f32⟩
  | 17 => ⟨S3x128x128, .f32⟩
  | 18 => ⟨S3x128, .f32⟩
  | 19 => ⟨S1x30000x128, .f32⟩
  | 20 => ⟨S30000x128, .f32⟩
  | 21 => ⟨S30000x128, .f32⟩
  | 22 => ⟨S1x128, .f32⟩
  | 23 => ⟨S30000x128, .f32⟩
  | 24 => ⟨S30000x128, .f32⟩
  | 25 => ⟨S1x128, .f32⟩
  | 26 => ⟨S30000x128, .f32⟩
  | 27 => ⟨S30000x128, .f32⟩
  | 28 => ⟨S_, .f32⟩
  | 29 => ⟨S128, .f32⟩
  | 30 => ⟨S128, .f32⟩
  | 31 => ⟨S128, .f32⟩
  | 32 => ⟨S1x128, .f32⟩
  | 33 => ⟨S30000x128, .f32⟩
  | 34 => ⟨S30000x128, .f32⟩
  | 35 => ⟨S1x128, .f32⟩
  | 36 => ⟨S30000x128, .f32⟩
  | 37 => ⟨S30000x128, .f32⟩
  | 38 => ⟨S1x128, .f32⟩
  | 39 => ⟨S30000x128, .f32⟩
  | 40 => ⟨S30000x128, .f32⟩
  | 41 => ⟨S_, .f32⟩
  | 42 => ⟨S30000x128, .f32⟩
  | 43 => ⟨S30000x128, .f32⟩
  | 44 => ⟨S30000x128, .f32⟩
  | 45 => ⟨S1x128, .f32⟩
  | 46 => ⟨S30000x128, .f32⟩
  | 47 => ⟨S30000x128, .f32⟩
  | 48 => ⟨S1x30000x128, .f32⟩
  | 49 => ⟨S30000x128, .f32⟩
  | 50 => ⟨S1x1x480000, .i32⟩
  | 51 => ⟨S480000, .i32⟩
  | 52 => ⟨S1x1x480000, .i32⟩
  | 53 => ⟨S480000, .i32⟩
  | 54 => ⟨S_, .i32⟩
  | 55 => ⟨S480000, .i32⟩
  | 56 => ⟨S480000, .i1⟩
  | 57 => ⟨S_, .i32⟩
  | 58 => ⟨S480000, .i32⟩
  | 59 => ⟨S480000, .i32⟩
  | 60 => ⟨S480000, .i32⟩
  | 61 => ⟨S480000x1, .i32⟩
  | 62 => ⟨S480000x128, .f32⟩
  | 63 => ⟨S_, .f32⟩
  | 64 => ⟨S30000x128, .f32⟩
  | 65 => ⟨S480000x1, .i32⟩
  | 66 => ⟨S30000x128, .f32⟩
  | 67 => ⟨S1, .f32⟩
  | 68 => ⟨S_, .f32⟩
  | 69 => ⟨S_, .f32⟩
  | 70 => ⟨S_, .f32⟩
  | 71 => ⟨S30000x128, .f32⟩
  | 72 => ⟨S30000x128, .f32⟩
  | 73 => ⟨S30000x128, .f32⟩
  | 74 => ⟨S1x128x128, .f32⟩
  | 75 => ⟨S128x128, .f32⟩
  | 76 => ⟨S30000x128, .f32⟩
  | 77 => ⟨S1x128, .f32⟩
  | 78 => ⟨S128, .f32⟩
  | 79 => ⟨S1x128, .f32⟩
  | 80 => ⟨S30000x128, .f32⟩
  | 81 => ⟨S30000x128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S30000x128, .f32⟩
  | 92 => ⟨S30000x128, .f32⟩
  | 93 => ⟨S_, .f32⟩
  | 94 => ⟨S128, .f32⟩
  | 95 => ⟨S128, .f32⟩
  | 96 => ⟨S128, .f32⟩
  | 97 => ⟨S1x128, .f32⟩
  | 98 => ⟨S30000x128, .f32⟩
  | 99 => ⟨S30000x128, .f32⟩
  | 100 => ⟨S1x128, .f32⟩
  | 101 => ⟨S30000x128, .f32⟩
  | 102 => ⟨S30000x128, .f32⟩
  | 103 => ⟨S1x128, .f32⟩
  | 104 => ⟨S30000x128, .f32⟩
  | 105 => ⟨S30000x128, .f32⟩
  | 106 => ⟨S_, .f32⟩
  | 107 => ⟨S30000x128, .f32⟩
  | 108 => ⟨S30000x128, .f32⟩
  | 109 => ⟨S1x128x128, .f32⟩
  | 110 => ⟨S128x128, .f32⟩
  | 111 => ⟨S30000x128, .f32⟩
  | 112 => ⟨S1x128, .f32⟩
  | 113 => ⟨S128, .f32⟩
  | 114 => ⟨S1x128, .f32⟩
  | 115 => ⟨S30000x128, .f32⟩
  | 116 => ⟨S30000x128, .f32⟩
  | 117 => ⟨S30000x128, .f32⟩
  | 118 => ⟨S1x30000x128, .f32⟩
  | 119 => ⟨S30000x128, .f32⟩
  | 120 => ⟨S1x1x480000, .i32⟩
  | 121 => ⟨S480000, .i32⟩
  | 122 => ⟨S1x1x480000, .i32⟩
  | 123 => ⟨S480000, .i32⟩
  | 124 => ⟨S_, .i32⟩
  | 125 => ⟨S480000, .i32⟩
  | 126 => ⟨S480000, .i1⟩
  | 127 => ⟨S_, .i32⟩
  | _ => ⟨S4x30000x128, .f32⟩

abbrev hbmTy0_1 (i : Nat) : BufTy := match i % 128 with
  | 0 => ⟨S480000, .i32⟩
  | 1 => ⟨S480000, .i32⟩
  | 2 => ⟨S480000, .i32⟩
  | 3 => ⟨S480000x1, .i32⟩
  | 4 => ⟨S480000x128, .f32⟩
  | 5 => ⟨S_, .f32⟩
  | 6 => ⟨S30000x128, .f32⟩
  | 7 => ⟨S480000x1, .i32⟩
  | 8 => ⟨S30000x128, .f32⟩
  | 9 => ⟨S1, .f32⟩
  | 10 => ⟨S_, .f32⟩
  | 11 => ⟨S_, .f32⟩
  | 12 => ⟨S_, .f32⟩
  | 13 => ⟨S30000x128, .f32⟩
  | 14 => ⟨S30000x128, .f32⟩
  | 15 => ⟨S30000x128, .f32⟩
  | 16 => ⟨S1x128x128, .f32⟩
  | 17 => ⟨S128x128, .f32⟩
  | 18 => ⟨S30000x128, .f32⟩
  | 19 => ⟨S1x128, .f32⟩
  | 20 => ⟨S128, .f32⟩
  | 21 => ⟨S1x128, .f32⟩
  | 22 => ⟨S30000x128, .f32⟩
  | 23 => ⟨S30000x128, .f32⟩
  | 24 => ⟨S1x128, .f32⟩
  | 25 => ⟨S128, .f32⟩
  | 26 => ⟨S1x128, .f32⟩
  | 27 => ⟨S128, .f32⟩
  | 28 => ⟨S1x128, .f32⟩
  | 29 => ⟨S128, .f32⟩
  | 30 => ⟨S1x128, .f32⟩
  | 31 => ⟨S128, .f32⟩
  | 32 => ⟨S1x128, .f32⟩
  | 33 => ⟨S30000x128, .f32⟩
  | 34 => ⟨S30000x128, .f32⟩
  | 35 => ⟨S_, .f32⟩
  | 36 => ⟨S128, .f32⟩
  | 37 => ⟨S128, .f32⟩
  | 38 => ⟨S128, .f32⟩
  | 39 => ⟨S1x128, .f32⟩
  | 40 => ⟨S30000x128, .f32⟩
  | 41 => ⟨S30000x128, .f32⟩
  | 42 => ⟨S1x128, .f32⟩
  | 43 => ⟨S30000x128, .f32⟩
  | 44 => ⟨S30000x128, .f32⟩
  | 45 => ⟨S1x128, .f32⟩
  | 46 => ⟨S30000x128, .f32⟩
  | 47 => ⟨S30000x128, .f32⟩
  | 48 => ⟨S_, .f32⟩
  | 49 => ⟨S30000x128, .f32⟩
  | 50 => ⟨S30000x128, .f32⟩
  | 51 => ⟨S1x128x128, .f32⟩
  | 52 => ⟨S128x128, .f32⟩
  | 53 => ⟨S30000x128, .f32⟩
  | 54 => ⟨S1x128, .f32⟩
  | 55 => ⟨S128, .f32⟩
  | 56 => ⟨S1x128, .f32⟩
  | 57 => ⟨S30000x128, .f32⟩
  | 58 => ⟨S30000x128, .f32⟩
  | 59 => ⟨S30000x128, .f32⟩
  | 60 => ⟨S1x30000x128, .f32⟩
  | 61 => ⟨S30000x128, .f32⟩
  | 62 => ⟨S1x1x480000, .i32⟩
  | 63 => ⟨S480000, .i32⟩
  | 64 => ⟨S1x1x480000, .i32⟩
  | 65 => ⟨S480000, .i32⟩
  | 66 => ⟨S_, .i32⟩
  | 67 => ⟨S480000, .i32⟩
  | 68 => ⟨S480000, .i1⟩
  | 69 => ⟨S_, .i32⟩
  | 70 => ⟨S480000, .i32⟩
  | 71 => ⟨S480000, .i32⟩
  | 72 => ⟨S480000, .i32⟩
  | 73 => ⟨S480000x1, .i32⟩
  | 74 => ⟨S480000x128, .f32⟩
  | 75 => ⟨S_, .f32⟩
  | 76 => ⟨S30000x128, .f32⟩
  | 77 => ⟨S480000x1, .i32⟩
  | 78 => ⟨S30000x128, .f32⟩
  | 79 => ⟨S1, .f32⟩
  | 80 => ⟨S_, .f32⟩
  | 81 => ⟨S_, .f32⟩
  | 82 => ⟨S_, .f32⟩
  | 83 => ⟨S30000x128, .f32⟩
  | 84 => ⟨S30000x128, .f32⟩
  | 85 => ⟨S30000x128, .f32⟩
  | 86 => ⟨S1x128x128, .f32⟩
  | 87 => ⟨S128x128, .f32⟩
  | 88 => ⟨S30000x128, .f32⟩
  | 89 => ⟨S1x128, .f32⟩
  | 90 => ⟨S128, .f32⟩
  | 91 => ⟨S1x128, .f32⟩
  | 92 => ⟨S30000x128, .f32⟩
  | 93 => ⟨S30000x128, .f32⟩
  | 94 => ⟨S1x128, .f32⟩
  | 95 => ⟨S128, .f32⟩
  | 96 => ⟨S1x128, .f32⟩
  | 97 => ⟨S128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S30000x128, .f32⟩
  | 104 => ⟨S30000x128, .f32⟩
  | 105 => ⟨S_, .f32⟩
  | 106 => ⟨S128, .f32⟩
  | 107 => ⟨S128, .f32⟩
  | 108 => ⟨S128, .f32⟩
  | 109 => ⟨S1x128, .f32⟩
  | 110 => ⟨S30000x128, .f32⟩
  | 111 => ⟨S30000x128, .f32⟩
  | 112 => ⟨S1x128, .f32⟩
  | 113 => ⟨S30000x128, .f32⟩
  | 114 => ⟨S30000x128, .f32⟩
  | 115 => ⟨S1x128, .f32⟩
  | 116 => ⟨S30000x128, .f32⟩
  | 117 => ⟨S30000x128, .f32⟩
  | 118 => ⟨S_, .f32⟩
  | 119 => ⟨S30000x128, .f32⟩
  | 120 => ⟨S30000x128, .f32⟩
  | 121 => ⟨S1x128x128, .f32⟩
  | 122 => ⟨S128x128, .f32⟩
  | 123 => ⟨S30000x128, .f32⟩
  | 124 => ⟨S1x128, .f32⟩
  | 125 => ⟨S128, .f32⟩
  | 126 => ⟨S1x128, .f32⟩
  | 127 => ⟨S30000x128, .f32⟩
  | _ => ⟨S4x30000x128, .f32⟩

abbrev hbmTy0_2 (i : Nat) : BufTy := match i % 128 with
  | 0 => ⟨S30000x128, .f32⟩
  | 1 => ⟨S30000x128, .f32⟩
  | _ => ⟨S4x30000x128, .f32⟩

abbrev hbmTy (i : Nat) : BufTy := match i / 128 with
  | 0 => hbmTy0_0 i
  | 1 => hbmTy0_1 i
  | 2 => hbmTy0_2 i
  | _ => ⟨S4x30000x128, .f32⟩

abbrev bufTy : (tb : Table) → Fin (tcTables nBuf tb) → BufTy
  | .hbm, ⟨i, _⟩ => hbmTy i
  | _, _ => ⟨S4x30000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call0_cst : Ref sig .tc := ⟨.hbm, 41, rfl⟩
abbrev main_call0_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c : Ref sig .tc := ⟨.hbm, 54, rfl⟩
abbrev main_v32 : Ref sig .tc := ⟨.hbm, 55, rfl⟩
abbrev main_v33 : Ref sig .tc := ⟨.hbm, 56, rfl⟩
abbrev main_c_0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_1 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_2 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_3 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_call1_cst : Ref sig .tc := ⟨.hbm, 106, rfl⟩
abbrev main_call1_v0 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_4 : Ref sig .tc := ⟨.hbm, 124, rfl⟩
abbrev main_v95 : Ref sig .tc := ⟨.hbm, 125, rfl⟩
abbrev main_v96 : Ref sig .tc := ⟨.hbm, 126, rfl⟩
abbrev main_c_5 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_6 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_7 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_8 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_call2_cst : Ref sig .tc := ⟨.hbm, 176, rfl⟩
abbrev main_call2_v0 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_c_9 : Ref sig .tc := ⟨.hbm, 194, rfl⟩
abbrev main_v158 : Ref sig .tc := ⟨.hbm, 195, rfl⟩
abbrev main_v159 : Ref sig .tc := ⟨.hbm, 196, rfl⟩
abbrev main_c_10 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_cst_11 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_cst_12 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_cst_13 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_call3_cst : Ref sig .tc := ⟨.hbm, 246, rfl⟩
abbrev main_call3_v0 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩

abbrev nD : Nat := 1
abbrev τ : Topo := Topo.v7x

variable {F : FTy → Type} [FloatOps F]

class Facts₀ : Prop where
  slices_S4x30000x128_S1x30000x128_0_0_0 : S4x30000x128.Slices ![0, 0, 0] S1x30000x128
  shapeCasts_S1x30000x128_S30000x128 : S1x30000x128.ShapeCasts S30000x128
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  bcast_S_S128 : S_.BroadcastsInDim S128 (![] : Fin 0 → Fin S128.rank)
  bcast_S_S30000x128 : S_.BroadcastsInDim S30000x128 (![] : Fin 0 → Fin S30000x128.rank)
  slices_S4x30000x128_S1x30000x128_1_0_0 : S4x30000x128.Slices ![1, 0, 0] S1x30000x128
  slices_S3x2x480000_S1x1x480000_0_0_0 : S3x2x480000.Slices ![0, 0, 0] S1x1x480000
  shapeCasts_S1x1x480000_S480000 : S1x1x480000.ShapeCasts S480000
  slices_S3x2x480000_S1x1x480000_0_1_0 : S3x2x480000.Slices ![0, 1, 0] S1x1x480000
  bcast_S_S480000 : S_.BroadcastsInDim S480000 (![] : Fin 0 → Fin S480000.rank)
  bcast_S480000_S480000x1_0 : S480000.BroadcastsInDim S480000x1 (![0] : Fin 1 → Fin S480000x1.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S4x30000x128_S1x30000x128_2_0_0 : S4x30000x128.Slices ![2, 0, 0] S1x30000x128
  slices_S3x2x480000_S1x1x480000_1_0_0 : S3x2x480000.Slices ![1, 0, 0] S1x1x480000
  slices_S3x2x480000_S1x1x480000_1_1_0 : S3x2x480000.Slices ![1, 1, 0] S1x1x480000
  slices_S3_S1_1 : S3.Slices ![1] S1
  slices_S3x128x128_S1x128x128_1_0_0 : S3x128x128.Slices ![1, 0, 0] S1x128x128
  slices_S3x128_S1x128_1_0 : S3x128.Slices ![1, 0] S1x128
  slices_S4x30000x128_S1x30000x128_3_0_0 : S4x30000x128.Slices ![3, 0, 0] S1x30000x128
  slices_S3x2x480000_S1x1x480000_2_0_0 : S3x2x480000.Slices ![2, 0, 0] S1x1x480000
  slices_S3x2x480000_S1x1x480000_2_1_0 : S3x2x480000.Slices ![2, 1, 0] S1x1x480000
  slices_S3_S1_2 : S3.Slices ![2] S1
  slices_S3x128x128_S1x128x128_2_0_0 : S3x128x128.Slices ![2, 0, 0] S1x128x128
  slices_S3x128_S1x128_2_0 : S3x128.Slices ![2, 0] S1x128
  dot_S30000x128_S128x128_S30000x128_1_0_0_1_n_n_wf : DotDims.WF S30000x128 S128x128 S30000x128 [1] [0] [0] [1] [] []
  gather_S30000x128_S480000x1_S480000x128_1_0_n_n_0_1_1128_wf : GatherDims.WF S30000x128 S480000x1 S480000x128 [1] [0] [] [0] [] 1 ![1, 128]
  scatter_S30000x128_S480000x1_S480000x128_1_0_0_1_wf : ScatterDims.WF S30000x128 S480000x1 S480000x128 [1] [0] [0] 1

variable [Facts₀]

def dot_S30000x128_S128x128_S30000x128_1_0_0_1_n_n : DotDims S30000x128 S128x128 S30000x128 where
  lhsContracting := [1]
  rhsContracting := [0]
  lhsNonContracting := [0]
  rhsNonContracting := [1]
  lhsBatch := []
  rhsBatch := []
  wf := dot_S30000x128_S128x128_S30000x128_1_0_0_1_n_n_wf
def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf

class Facts : Prop extends Facts₀ where

variable [Facts]
-- ==== Proof.KernelFrameMain.lean ====
/-
  The program up to its one launch, read as mathematics.

  Before the launch the program runs ninety array operations on the host: per hop a row gather, a scatter-add and the
  affine combination that make the aggregated features, their stacking into one [3, 30000, 128] array, and the
  changes of number format of the matrices. None of them writes an argument array, so the launch finds every
  argument as it was given (`V_main_argK`). `V` names every array as the launch finds it; `iblk` is the block of a
  window's array that grid point `t` works on; an input window's buffer holds that block at every point, whether the
  point fetched it or kept it from the point before (`before_of`: the sixteen parameter windows are fetched once, their
  block index never moves). `frame_of` reads the launch's final memory at the nineteen argument arrays: those a window
  stages keep their entry contents, the others are untouched.
-/
import proofs.«116947_j70188355551847_2_alg».proof.Proof.Gen.Kernel.Launch
import proofs.«116947_j70188355551847_2_alg».proof.Proof.Gen.Kernel.Skeleton
import proofs.«116947_j70188355551847_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- Core `c`'s arrays when the launch begins: the given memory after the ninety host operations. -/
abbrev V (c : Dev nD) (b : Ref sig .tc) : Buf (Elt F) ((c : Thread nD τ).loc b) :=
  StableHlo.after hostOps0 (fun b => m (c, b)) b

set_option maxHeartbeats 4000000 in
/-- No host operation allocates. -/
theorem hostOps0_fresh : (hostOps0 : List (HloOp τ sig (Elt F))).Forall fun op => op.fresh = ∅ := by
  simp only [List.Forall]; repeat' constructor

/-- The program is its host operations followed by the launch, and the launch finds the arrays at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 7: the launch finds it as given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 8: the launch finds it as given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 9: the launch finds it as given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 10: the launch finds it as given. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 11: the launch finds it as given. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 12: the launch finds it as given. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 13: the launch finds it as given. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 14: the launch finds it as given. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 15: the launch finds it as given. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 16: the launch finds it as given. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 17: the launch finds it as given. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 18: the launch finds it as given. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or kept from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or kept from the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, fetched there or kept from the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, fetched there or kept from the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, fetched there or kept from the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, fetched there or kept from the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, fetched there or kept from the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, fetched there or kept from the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point, fetched there or kept from the point before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds its block at every point, fetched there or kept from the point before. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds its block at every point, fetched there or kept from the point before. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's buffer holds its block at every point, fetched there or kept from the point before. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's buffer holds its block at every point, fetched there or kept from the point before. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's buffer holds its block at every point, fetched there or kept from the point before. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's buffer holds its block at every point, fetched there or kept from the point before. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's buffer holds its block at every point, fetched there or kept from the point before. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's buffer holds its block at every point, fetched there or kept from the point before. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's buffer holds its block at every point, fetched there or kept from the point before. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the launch -/

set_option maxHeartbeats 4000000 in
/-- In a final state where every window's array is at what the proof data computes and every other array as the
    launch found it, the nineteen argument arrays are as given: those a window stages keep their entry contents,
    the others are untouched, and no host operation wrote either kind. -/
theorem args_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).2 main_arg8 (Pipeline.mem_restRefs_of main_arg8 (by decide) (by decide))).trans (V_main_arg8 m c),
      ((h c).1 9).trans (((dats 0 c).arrAt_in 9 rfl _).trans ((hA c 9).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 11).trans (((dats 0 c).arrAt_in 11 rfl _).trans ((hA c 11).trans (V_main_arg12 m c))),
      ((h c).1 12).trans (((dats 0 c).arrAt_in 12 rfl _).trans ((hA c 12).trans (V_main_arg13 m c))),
      ((h c).1 13).trans (((dats 0 c).arrAt_in 13 rfl _).trans ((hA c 13).trans (V_main_arg14 m c))),
      ((h c).1 14).trans (((dats 0 c).arrAt_in 14 rfl _).trans ((hA c 14).trans (V_main_arg15 m c))),
      ((h c).1 15).trans (((dats 0 c).arrAt_in 15 rfl _).trans ((hA c 15).trans (V_main_arg16 m c))),
      ((h c).2 main_arg17 (Pipeline.mem_restRefs_of main_arg17 (by decide) (by decide))).trans (V_main_arg17 m c),
      ((h c).1 17).trans (((dats 0 c).arrAt_in 17 rfl _).trans ((hA c 17).trans (V_main_arg18 m c)))⟩

/-- From a run that ends in such a state, the run with the argument arrays as given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_of_post m dats hA r h c) h

end Cert.Kernel.Frame

end
-- ==== Proof.KernelFrameBody.lean ====
/-
  The launch itself: what one grid point computes, and the run.

  At grid point `t` the body reads the tile of 2000 rows of the plain features, the three tiles of the aggregated
  hop features (the slabs 0, 1, 2 of one [3, 2000, 128] block), and the parameters of the four blocks — the first
  block's whole, each hop's as slab `k` of a stacked array —, and stores ONE value over the whole output tile:
  the first block of the plain tile plus, one after the other, the blocks of the three hop tiles (`stored`: the
  body's arithmetic as one term over those reads). So after the body the output window's buffer holds `out0_18`,
  that value on every cell (`cover0_18`: the one stored rectangle is the whole tile). `sound_kernel` runs the body's
  thirty-eight reads and one store; `dats` records, per window and point, what the buffer holds after the body
  (an input its block, the output `out0_18` of the point's input blocks); `run_main` is the launch over the fifteen
  points, and `frame` its consequence that the argument arrays end as given.
-/
import proofs.«116947_j70188355551847_2_alg».proof.Proof.KernelFrameMain

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The whole [2000, 128] tile. -/
abbrev rTile : Rect S2000x128 := Rect.unit (s := S2000x128) ![0, 0] S2000x128.size inb_S2000x128_S2000x128_0_0
/-- A whole [128, 128] matrix. -/
abbrev rMat : Rect S128x128 := Rect.unit (s := S128x128) ![0, 0] S128x128.size inb_S128x128_S128x128_0_0
/-- A whole vector of 128. -/
abbrev rVec : Rect S128 := Rect.unit (s := S128) ![0] S128.size inb_S128_S128_0
/-- Slab 0 of the stacked hop tiles. -/
abbrev rHop0 : Rect S3x2000x128 := Rect.unit (s := S3x2000x128) ![0, 0, 0] S1x2000x128.size inb_S3x2000x128_S1x2000x128_0_0_0
/-- Slab 0 of a stack of three matrices. -/
abbrev rMat3_0 : Rect S3x128x128 := Rect.unit (s := S3x128x128) ![0, 0, 0] S1x128x128.size inb_S3x128x128_S1x128x128_0_0_0
/-- Row 0 of a stack of three vectors. -/
abbrev rVec3_0 : Rect S3x128 := Rect.unit (s := S3x128) ![0, 0] S1x128.size inb_S3x128_S1x128_0_0
/-- Slab 1 of the stacked hop tiles. -/
abbrev rHop1 : Rect S3x2000x128 := Rect.unit (s := S3x2000x128) ![1, 0, 0] S1x2000x128.size inb_S3x2000x128_S1x2000x128_1_0_0
/-- Slab 1 of a stack of three matrices. -/
abbrev rMat3_1 : Rect S3x128x128 := Rect.unit (s := S3x128x128) ![1, 0, 0] S1x128x128.size inb_S3x128x128_S1x128x128_1_0_0
/-- Row 1 of a stack of three vectors. -/
abbrev rVec3_1 : Rect S3x128 := Rect.unit (s := S3x128) ![1, 0] S1x128.size inb_S3x128_S1x128_1_0
/-- Slab 2 of the stacked hop tiles. -/
abbrev rHop2 : Rect S3x2000x128 := Rect.unit (s := S3x2000x128) ![2, 0, 0] S1x2000x128.size inb_S3x2000x128_S1x2000x128_2_0_0
/-- Slab 2 of a stack of three matrices. -/
abbrev rMat3_2 : Rect S3x128x128 := Rect.unit (s := S3x128x128) ![2, 0, 0] S1x128x128.size inb_S3x128x128_S1x128x128_2_0_0
/-- Row 2 of a stack of three vectors. -/
abbrev rVec3_2 : Rect S3x128 := Rect.unit (s := S3x128) ![2, 0] S1x128.size inb_S3x128_S1x128_2_0

/-! ## What the body stores -/

/-- The value the body stores over the output tile, as one term over its reads of the input buffers: the first
    block of the plain tile, then each hop's block added in turn. -/
def stored (x0 : Vec F S2000x128 .bf16) (x1 : Vec F S3x2000x128 .bf16) (x2 : Vec F S128x128 .bf16) (x3 : Vec F S128 .f32) (x4 : Vec F S128 .f32) (x5 : Vec F S128 .f32) (x6 : Vec F S128 .f32) (x7 : Vec F S128 .f32) (x8 : Vec F S128x128 .bf16) (x9 : Vec F S128 .f32) (x10 : Vec F S3x128x128 .bf16) (x11 : Vec F S3x128 .f32) (x12 : Vec F S3x128 .f32) (x13 : Vec F S3x128 .f32) (x14 : Vec F S3x128 .f32) (x15 : Vec F S3x128 .f32) (x16 : Vec F S3x128x128 .bf16) (x17 : Vec F S3x128 .f32) : Vec F S2000x128 .f32 :=
  k0_pay1
    (k0_pay13
      (k0_pay7
        (k0_pay2 (View.ld x0 rTile) (View.ld x2 rMat) (View.ld x3 rVec) (View.ld x4 rVec) (View.ld x5 rVec) (View.ld x6 rVec) (View.ld x7 rVec) (View.ld x8 rMat) (View.ld x9 rVec))
        (k0_pay4 (View.ld x16 rMat3_0)) (k0_pay5 (View.ld x17 rVec3_0))
        (k0_pay6 (k0_pay3 (View.ld x1 rHop0)) (View.ld x10 rMat3_0) (View.ld x11 rVec3_0) (View.ld x12 rVec3_0) (View.ld x13 rVec3_0) (View.ld x14 rVec3_0) (View.ld x15 rVec3_0))
        (constant S2000x128 .f32 0x00000000#32))
      (k0_pay8 (View.ld x13 rVec3_1)) (k0_pay9 (View.ld x16 rMat3_1)) (k0_pay10 (View.ld x17 rVec3_1))
      (k0_pay11 (View.ld x1 rHop1) (View.ld x10 rMat3_1) (View.ld x11 rVec3_1) (View.ld x14 rVec3_1) (View.ld x15 rVec3_1))
      (k0_pay12 (View.ld x12 rVec3_1)))
    (k0_pay14 (View.ld x12 rVec3_2)) (k0_pay15 (View.ld x13 rVec3_2)) (k0_pay16 (View.ld x15 rVec3_2)) (k0_pay17 (View.ld x16 rMat3_2)) (k0_pay18 (View.ld x17 rVec3_2))
    (k0_pay19 (View.ld x1 rHop2) (View.ld x10 rMat3_2) (View.ld x11 rVec3_2))
    (k0_pay20 (View.ld x14 rVec3_2))

/-- The output window's buffer after the body: its one store, over the whole tile. -/
def out0_18 (x0 : Vec F S2000x128 .bf16) (x1 : Vec F S3x2000x128 .bf16) (x2 : Vec F S128x128 .bf16) (x3 : Vec F S128 .f32) (x4 : Vec F S128 .f32) (x5 : Vec F S128 .f32) (x6 : Vec F S128 .f32) (x7 : Vec F S128 .f32) (x8 : Vec F S128x128 .bf16) (x9 : Vec F S128 .f32) (x10 : Vec F S3x128x128 .bf16) (x11 : Vec F S3x128 .f32) (x12 : Vec F S3x128 .f32) (x13 : Vec F S3x128 .f32) (x14 : Vec F S3x128 .f32) (x15 : Vec F S3x128 .f32) (x16 : Vec F S3x128x128 .bf16) (x17 : Vec F S3x128 .f32) : Vec F S2000x128 .f32 :=
  View.canon [⟨rTile, stored x0 x1 x2 x3 x4 x5 x6 x7 x8 x9 x10 x11 x12 x13 x14 x15 x16 x17⟩]

/-- The one stored rectangle is the whole tile, so it covers the buffer. -/
theorem cover0_18 (p0 : Vec F S2000x128 .f32) (y : S2000x128.Idx) :
    ∃ pc ∈ ([⟨rTile, p0⟩] : List (View.Piece (Elt F) S2000x128 .f32)), y ∈ pc.1.set :=
  View.cover_of_tiled [⟨rTile, p0⟩] S2000x128.size (by rfl) y

/-! ## The body's triple -/

set_option maxHeartbeats 4000000 in
/-- The body on whole buffers, the inputs' at contents `xW` and the output's at anything, runs to the end with the
    inputs' as they were and the output's at `out0_18` of the inputs'. -/
theorem sound_kernel (i : grid0.Coords) (c : Dev nD) (E : Set ℕ) (arg0 : Memref sig .tc .vmem S2000x128 .bf16) (harg0 : arg0.IsWhole) (arg1 : Memref sig .tc .vmem S3x2000x128 .bf16) (harg1 : arg1.IsWhole) (arg2 : Memref sig .tc .vmem S128x128 .bf16) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S3x128x128 .bf16) (harg10 : arg10.IsWhole) (arg11 : Memref sig .tc .vmem S3x128 .f32) (harg11 : arg11.IsWhole) (arg12 : Memref sig .tc .vmem S3x128 .f32) (harg12 : arg12.IsWhole) (arg13 : Memref sig .tc .vmem S3x128 .f32) (harg13 : arg13.IsWhole) (arg14 : Memref sig .tc .vmem S3x128 .f32) (harg14 : arg14.IsWhole) (arg15 : Memref sig .tc .vmem S3x128 .f32) (harg15 : arg15.IsWhole) (arg16 : Memref sig .tc .vmem S3x128x128 .bf16) (harg16 : arg16.IsWhole) (arg17 : Memref sig .tc .vmem S3x128 .f32) (harg17 : arg17.IsWhole) (arg18 : Memref sig .tc .vmem S2000x128 .f32) (harg18 : arg18.IsWhole)
    (x0 : Vec F S2000x128 .bf16) (x1 : Vec F S3x2000x128 .bf16) (x2 : Vec F S128x128 .bf16) (x3 : Vec F S128 .f32) (x4 : Vec F S128 .f32) (x5 : Vec F S128 .f32) (x6 : Vec F S128 .f32) (x7 : Vec F S128 .f32) (x8 : Vec F S128x128 .bf16) (x9 : Vec F S128 .f32) (x10 : Vec F S3x128x128 .bf16) (x11 : Vec F S3x128 .f32) (x12 : Vec F S3x128 .f32) (x13 : Vec F S3x128 .f32) (x14 : Vec F S3x128 .f32) (x15 : Vec F S3x128 .f32) (x16 : Vec F S3x128x128 .bf16) (x17 : Vec F S3x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare (out0_18 x0 x1 x2 x3 x4 x5 x6 x7 x8 x9 x10 x11 x12 x13 x14 x15 x16 x17)) -∗ K ⟨⟩))
      ⊢ wp frame (wpE (defs₀ (F := F)) Variants.none c none) E (cc0__gin_kernel i arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__gin_kernel_eq_skeleton]; unfold cc0__gin_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  iexists _; isplitr
  swap; · iexact H18
  ipureintro
  try dsimp only
  exact View.read_writes_eq_canon _ _ _ (cover0_18 _)

/-! ## The proof data -/

/-- Per core: the arrays as the launch finds them; after the body at point `t` each input's buffer at its block
    and the output's at `out0_18` of the point's input blocks; nothing else is held or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 4000000 in
/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel _ c Set.univ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every window's array
    ending at what the proof data computes and every other array as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end without a fault and its argument arrays end as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Frame

end
-- ==== Proof.KernelIdealFrameMain.lean ====
/-
  The program up to its one launch, read as mathematics.

  Before the launch the program runs ninety array operations on the host: per hop a row gather, a scatter-add and the
  affine combination that make the aggregated features, their stacking into one [3, 30000, 128] array, and the
  changes of number format of the matrices. None of them writes an argument array, so the launch finds every
  argument as it was given (`V_main_argK`). `V` names every array as the launch finds it; `iblk` is the block of a
  window's array that grid point `t` works on; an input window's buffer holds that block at every point, whether the
  point fetched it or kept it from the point before (`before_of`: the sixteen parameter windows are fetched once, their
  block index never moves). `frame_of` reads the launch's final memory at the nineteen argument arrays: those a window
  stages keep their entry contents, the others are untouched.
-/
import proofs.«116947_j70188355551847_2_alg».proof.Proof.Gen.KernelIdeal.Launch
import proofs.«116947_j70188355551847_2_alg».proof.Proof.Gen.KernelIdeal.Skeleton
import proofs.«116947_j70188355551847_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- Core `c`'s arrays when the launch begins: the given memory after the ninety host operations. -/
abbrev V (c : Dev nD) (b : Ref sig .tc) : Buf (Elt F) ((c : Thread nD τ).loc b) :=
  StableHlo.after hostOps0 (fun b => m (c, b)) b

set_option maxHeartbeats 4000000 in
/-- No host operation allocates. -/
theorem hostOps0_fresh : (hostOps0 : List (HloOp τ sig (Elt F))).Forall fun op => op.fresh = ∅ := by
  simp only [List.Forall]; repeat' constructor

/-- The program is its host operations followed by the launch, and the launch finds the arrays at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 7: the launch finds it as given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 8: the launch finds it as given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 9: the launch finds it as given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 10: the launch finds it as given. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 11: the launch finds it as given. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 12: the launch finds it as given. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 13: the launch finds it as given. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 14: the launch finds it as given. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 15: the launch finds it as given. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 16: the launch finds it as given. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 17: the launch finds it as given. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation writes argument 18: the launch finds it as given. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or kept from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or kept from the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, fetched there or kept from the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, fetched there or kept from the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, fetched there or kept from the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, fetched there or kept from the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, fetched there or kept from the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, fetched there or kept from the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point, fetched there or kept from the point before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds its block at every point, fetched there or kept from the point before. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds its block at every point, fetched there or kept from the point before. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's buffer holds its block at every point, fetched there or kept from the point before. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's buffer holds its block at every point, fetched there or kept from the point before. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's buffer holds its block at every point, fetched there or kept from the point before. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's buffer holds its block at every point, fetched there or kept from the point before. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's buffer holds its block at every point, fetched there or kept from the point before. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's buffer holds its block at every point, fetched there or kept from the point before. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's buffer holds its block at every point, fetched there or kept from the point before. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after the launch -/

set_option maxHeartbeats 4000000 in
/-- In a final state where every window's array is at what the proof data computes and every other array as the
    launch found it, the nineteen argument arrays are as given: those a window stages keep their entry contents,
    the others are untouched, and no host operation wrote either kind. -/
theorem args_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).2 main_arg8 (Pipeline.mem_restRefs_of main_arg8 (by decide) (by decide))).trans (V_main_arg8 m c),
      ((h c).1 9).trans (((dats 0 c).arrAt_in 9 rfl _).trans ((hA c 9).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 11).trans (((dats 0 c).arrAt_in 11 rfl _).trans ((hA c 11).trans (V_main_arg12 m c))),
      ((h c).1 12).trans (((dats 0 c).arrAt_in 12 rfl _).trans ((hA c 12).trans (V_main_arg13 m c))),
      ((h c).1 13).trans (((dats 0 c).arrAt_in 13 rfl _).trans ((hA c 13).trans (V_main_arg14 m c))),
      ((h c).1 14).trans (((dats 0 c).arrAt_in 14 rfl _).trans ((hA c 14).trans (V_main_arg15 m c))),
      ((h c).1 15).trans (((dats 0 c).arrAt_in 15 rfl _).trans ((hA c 15).trans (V_main_arg16 m c))),
      ((h c).2 main_arg17 (Pipeline.mem_restRefs_of main_arg17 (by decide) (by decide))).trans (V_main_arg17 m c),
      ((h c).1 17).trans (((dats 0 c).arrAt_in 17 rfl _).trans ((hA c 17).trans (V_main_arg18 m c)))⟩

/-- From a run that ends in such a state, the run with the argument arrays as given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_of_post m dats hA r h c) h

end Cert.KernelIdeal.Frame

end
-- ==== Proof.KernelIdealFrameBody.lean ====
/-
  The launch itself: what one grid point computes, and the run.

  At grid point `t` the body reads the tile of 2000 rows of the plain features, the three tiles of the aggregated
  hop features (the slabs 0, 1, 2 of one [3, 2000, 128] block), and the parameters of the four blocks — the first
  block's whole, each hop's as slab `k` of a stacked array —, and stores ONE value over the whole output tile:
  the first block of the plain tile plus, one after the other, the blocks of the three hop tiles (`stored`: the
  body's arithmetic as one term over those reads). So after the body the output window's buffer holds `out0_18`,
  that value on every cell (`cover0_18`: the one stored rectangle is the whole tile). `sound_kernel` runs the body's
  thirty-eight reads and one store; `dats` records, per window and point, what the buffer holds after the body
  (an input its block, the output `out0_18` of the point's input blocks); `run_main` is the launch over the fifteen
  points, and `frame` its consequence that the argument arrays end as given.
-/
import proofs.«116947_j70188355551847_2_alg».proof.Proof.KernelIdealFrameMain

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The whole [2000, 128] tile. -/
abbrev rTile : Rect S2000x128 := Rect.unit (s := S2000x128) ![0, 0] S2000x128.size inb_S2000x128_S2000x128_0_0
/-- A whole [128, 128] matrix. -/
abbrev rMat : Rect S128x128 := Rect.unit (s := S128x128) ![0, 0] S128x128.size inb_S128x128_S128x128_0_0
/-- A whole vector of 128. -/
abbrev rVec : Rect S128 := Rect.unit (s := S128) ![0] S128.size inb_S128_S128_0
/-- Slab 0 of the stacked hop tiles. -/
abbrev rHop0 : Rect S3x2000x128 := Rect.unit (s := S3x2000x128) ![0, 0, 0] S1x2000x128.size inb_S3x2000x128_S1x2000x128_0_0_0
/-- Slab 0 of a stack of three matrices. -/
abbrev rMat3_0 : Rect S3x128x128 := Rect.unit (s := S3x128x128) ![0, 0, 0] S1x128x128.size inb_S3x128x128_S1x128x128_0_0_0
/-- Row 0 of a stack of three vectors. -/
abbrev rVec3_0 : Rect S3x128 := Rect.unit (s := S3x128) ![0, 0] S1x128.size inb_S3x128_S1x128_0_0
/-- Slab 1 of the stacked hop tiles. -/
abbrev rHop1 : Rect S3x2000x128 := Rect.unit (s := S3x2000x128) ![1, 0, 0] S1x2000x128.size inb_S3x2000x128_S1x2000x128_1_0_0
/-- Slab 1 of a stack of three matrices. -/
abbrev rMat3_1 : Rect S3x128x128 := Rect.unit (s := S3x128x128) ![1, 0, 0] S1x128x128.size inb_S3x128x128_S1x128x128_1_0_0
/-- Row 1 of a stack of three vectors. -/
abbrev rVec3_1 : Rect S3x128 := Rect.unit (s := S3x128) ![1, 0] S1x128.size inb_S3x128_S1x128_1_0
/-- Slab 2 of the stacked hop tiles. -/
abbrev rHop2 : Rect S3x2000x128 := Rect.unit (s := S3x2000x128) ![2, 0, 0] S1x2000x128.size inb_S3x2000x128_S1x2000x128_2_0_0
/-- Slab 2 of a stack of three matrices. -/
abbrev rMat3_2 : Rect S3x128x128 := Rect.unit (s := S3x128x128) ![2, 0, 0] S1x128x128.size inb_S3x128x128_S1x128x128_2_0_0
/-- Row 2 of a stack of three vectors. -/
abbrev rVec3_2 : Rect S3x128 := Rect.unit (s := S3x128) ![2, 0] S1x128.size inb_S3x128_S1x128_2_0

/-! ## What the body stores -/

/-- The value the body stores over the output tile, as one term over its reads of the input buffers: the first
    block of the plain tile, then each hop's block added in turn. -/
def stored (x0 : Vec F S2000x128 .bf16) (x1 : Vec F S3x2000x128 .bf16) (x2 : Vec F S128x128 .bf16) (x3 : Vec F S128 .f32) (x4 : Vec F S128 .f32) (x5 : Vec F S128 .f32) (x6 : Vec F S128 .f32) (x7 : Vec F S128 .f32) (x8 : Vec F S128x128 .bf16) (x9 : Vec F S128 .f32) (x10 : Vec F S3x128x128 .bf16) (x11 : Vec F S3x128 .f32) (x12 : Vec F S3x128 .f32) (x13 : Vec F S3x128 .f32) (x14 : Vec F S3x128 .f32) (x15 : Vec F S3x128 .f32) (x16 : Vec F S3x128x128 .bf16) (x17 : Vec F S3x128 .f32) : Vec F S2000x128 .f32 :=
  k0_pay1
    (k0_pay13
      (k0_pay7
        (k0_pay2 (View.ld x0 rTile) (View.ld x2 rMat) (View.ld x3 rVec) (View.ld x4 rVec) (View.ld x5 rVec) (View.ld x6 rVec) (View.ld x7 rVec) (View.ld x8 rMat) (View.ld x9 rVec))
        (k0_pay4 (View.ld x16 rMat3_0)) (k0_pay5 (View.ld x17 rVec3_0))
        (k0_pay6 (k0_pay3 (View.ld x1 rHop0)) (View.ld x10 rMat3_0) (View.ld x11 rVec3_0) (View.ld x12 rVec3_0) (View.ld x13 rVec3_0) (View.ld x14 rVec3_0) (View.ld x15 rVec3_0))
        (constant S2000x128 .f32 0x00000000#32))
      (k0_pay8 (View.ld x13 rVec3_1)) (k0_pay9 (View.ld x16 rMat3_1)) (k0_pay10 (View.ld x17 rVec3_1))
      (k0_pay11 (View.ld x1 rHop1) (View.ld x10 rMat3_1) (View.ld x11 rVec3_1) (View.ld x14 rVec3_1) (View.ld x15 rVec3_1))
      (k0_pay12 (View.ld x12 rVec3_1)))
    (k0_pay14 (View.ld x12 rVec3_2)) (k0_pay15 (View.ld x13 rVec3_2)) (k0_pay16 (View.ld x15 rVec3_2)) (k0_pay17 (View.ld x16 rMat3_2)) (k0_pay18 (View.ld x17 rVec3_2))
    (k0_pay19 (View.ld x1 rHop2) (View.ld x10 rMat3_2) (View.ld x11 rVec3_2))
    (k0_pay20 (View.ld x14 rVec3_2))

/-- The output window's buffer after the body: its one store, over the whole tile. -/
def out0_18 (x0 : Vec F S2000x128 .bf16) (x1 : Vec F S3x2000x128 .bf16) (x2 : Vec F S128x128 .bf16) (x3 : Vec F S128 .f32) (x4 : Vec F S128 .f32) (x5 : Vec F S128 .f32) (x6 : Vec F S128 .f32) (x7 : Vec F S128 .f32) (x8 : Vec F S128x128 .bf16) (x9 : Vec F S128 .f32) (x10 : Vec F S3x128x128 .bf16) (x11 : Vec F S3x128 .f32) (x12 : Vec F S3x128 .f32) (x13 : Vec F S3x128 .f32) (x14 : Vec F S3x128 .f32) (x15 : Vec F S3x128 .f32) (x16 : Vec F S3x128x128 .bf16) (x17 : Vec F S3x128 .f32) : Vec F S2000x128 .f32 :=
  View.canon [⟨rTile, stored x0 x1 x2 x3 x4 x5 x6 x7 x8 x9 x10 x11 x12 x13 x14 x15 x16 x17⟩]

/-- The one stored rectangle is the whole tile, so it covers the buffer. -/
theorem cover0_18 (p0 : Vec F S2000x128 .f32) (y : S2000x128.Idx) :
    ∃ pc ∈ ([⟨rTile, p0⟩] : List (View.Piece (Elt F) S2000x128 .f32)), y ∈ pc.1.set :=
  View.cover_of_tiled [⟨rTile, p0⟩] S2000x128.size (by rfl) y

/-! ## The body's triple -/

set_option maxHeartbeats 4000000 in
/-- The body on whole buffers, the inputs' at contents `xW` and the output's at anything, runs to the end with the
    inputs' as they were and the output's at `out0_18` of the inputs'. -/
theorem sound_kernel (i : grid0.Coords) (c : Dev nD) (E : Set ℕ) (arg0 : Memref sig .tc .vmem S2000x128 .bf16) (harg0 : arg0.IsWhole) (arg1 : Memref sig .tc .vmem S3x2000x128 .bf16) (harg1 : arg1.IsWhole) (arg2 : Memref sig .tc .vmem S128x128 .bf16) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128 .f32) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S3x128x128 .bf16) (harg10 : arg10.IsWhole) (arg11 : Memref sig .tc .vmem S3x128 .f32) (harg11 : arg11.IsWhole) (arg12 : Memref sig .tc .vmem S3x128 .f32) (harg12 : arg12.IsWhole) (arg13 : Memref sig .tc .vmem S3x128 .f32) (harg13 : arg13.IsWhole) (arg14 : Memref sig .tc .vmem S3x128 .f32) (harg14 : arg14.IsWhole) (arg15 : Memref sig .tc .vmem S3x128 .f32) (harg15 : arg15.IsWhole) (arg16 : Memref sig .tc .vmem S3x128x128 .bf16) (harg16 : arg16.IsWhole) (arg17 : Memref sig .tc .vmem S3x128 .f32) (harg17 : arg17.IsWhole) (arg18 : Memref sig .tc .vmem S2000x128 .f32) (harg18 : arg18.IsWhole)
    (x0 : Vec F S2000x128 .bf16) (x1 : Vec F S3x2000x128 .bf16) (x2 : Vec F S128x128 .bf16) (x3 : Vec F S128 .f32) (x4 : Vec F S128 .f32) (x5 : Vec F S128 .f32) (x6 : Vec F S128 .f32) (x7 : Vec F S128 .f32) (x8 : Vec F S128x128 .bf16) (x9 : Vec F S128 .f32) (x10 : Vec F S3x128x128 .bf16) (x11 : Vec F S3x128 .f32) (x12 : Vec F S3x128 .f32) (x13 : Vec F S3x128 .f32) (x14 : Vec F S3x128 .f32) (x15 : Vec F S3x128 .f32) (x16 : Vec F S3x128x128 .bf16) (x17 : Vec F S3x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare (out0_18 x0 x1 x2 x3 x4 x5 x6 x7 x8 x9 x10 x11 x12 x13 x14 x15 x16 x17)) -∗ K ⟨⟩))
      ⊢ wp frame (wpE (defs₀ (F := F)) Variants.none c none) E (cc0__gin_kernel i arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__gin_kernel_eq_skeleton]; unfold cc0__gin_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  iexists _; isplitr
  swap; · iexact H18
  ipureintro
  try dsimp only
  exact View.read_writes_eq_canon _ _ _ (cover0_18 _)

/-! ## The proof data -/

/-- Per core: the arrays as the launch finds them; after the body at point `t` each input's buffer at its block
    and the output's at `out0_18` of the point's input blocks; nothing else is held or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 4000000 in
/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel _ c Set.univ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every window's array
    ending at what the proof data computes and every other array as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end without a fault and its argument arrays end as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Frame

end
-- ==== Proof.LibNary3.lean ====
/-
  A host operation with THREE operands, read at its result buffer.

  An operation whose operands are given as a family of references leaves in its result buffer its function of the
  family of the operands' contents. For a family written out as three references the contents can be written out too,
  each AT ITS OWN REFERENCE (`Fin.cons` of the three), instead of under a binder over the family's index: only in that
  form can the contents of the operands in turn be rewritten to what the operations before them computed. This is the
  three-operand case of that statement — a stacking of three arrays is such an operation.
-/
import Idealize.ShloMosaic.Lib.StableHlo.Run

noncomputable section

namespace Idealize.ShloMosaic.StableHlo.Nary3

open Idealize.ShloMosaic Idealize.ShloMosaic.StableHlo

variable {nD : Nat} {τ : Topo} {sig : RefSig} {Val : EltTy → Type}
variable {x a b y : Ref sig .tc}

/-- The result of a three-operand operation is its function of the three operands' contents, each read at its own
    reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference left out of the rewriting index, for use as a simplification rule. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo.Nary3

end
-- ==== Proof.KEntry.lean ====
/-
  What the launch finds in the plain-feature and matrix windows, read at an index, at the extended reals.

  The window of the plain features is slab 0 of the feature argument with its leading unit axis dropped, and the
  four matrix windows are the matrix arguments themselves: a change of number format is the identity on the
  extended reals.
-/
import proofs.«116947_j70188355551847_2_alg».proof.Proof.KernelIdealFrameMain
import proofs.«116947_j70188355551847_2_alg».proof.Proof.LibNary3
import Idealize.ShloMosaic.Lib.ValueIdx
import Idealize.ShloMosaic.Lib.ValueLayout
import Idealize.ShloMosaic.Lib.Pipeline.Value

set_option maxRecDepth 16384

noncomputable section

namespace Cert.KernelIdeal.Entry

open Cert.KernelIdeal Cert.KernelIdeal.Gen Cert.KernelIdeal.Frame
open Idealize.ShloMosaic Idealize.ShloMosaic.TcCoe Idealize.SL.Sem Idealize.ShloMosaic.StableHlo Idealize.ShloMosaic.ValueIdx

variable (m : (ℓ : Loc nD τ sig) → Buf (Elt Ideal) ℓ)

/-- Each host operation's result at its own buffer is its function of its operands' contents, and at any other
    buffer what was there: one pass over the list. -/
local macro "host_results" : tactic =>
  `(tactic| (simp (disch := decide) only [after_cons, after_nil,
      nullary_result', unary_result', binary_result', ternary_result', quaternary_result', reshape_result',
      Nary3.nary3_result', nary_result',
      nullary_result_ne', unary_result_ne', binary_result_ne', ternary_result_ne', quaternary_result_ne', reshape_result_ne',
      nary_result_ne']))

/-! ## The arrays as terms of the arguments -/

set_option maxHeartbeats 40000000 in
/-- The plain features' window: slab 0 of the feature argument, its unit axis dropped. -/
theorem V72_eq (c : Dev nD) : @Eq ((⟨S30000x128, .bf16⟩ : BufTy).Contents (Elt Ideal)) (V m c main_v72)
    (truncf (F := Ideal) .bf16 (shapeCast S30000x128 (extractStridedSlice S1x30000x128 ![0, 0, 0] (m ((c : Thread nD τ).loc main_arg0)) slices_S4x30000x128_S1x30000x128_0_0_0) shapeCasts_S1x30000x128_S30000x128) bitsLt_bf16_f32) := by
  dsimp only [V, hostOps0]; host_results; rfl

set_option maxHeartbeats 40000000 in
/-- A matrix window is its matrix argument in another number format. -/
theorem V74_eq (c : Dev nD) : @Eq ((⟨S128x128, .bf16⟩ : BufTy).Contents (Elt Ideal)) (V m c main_v74)
    (truncf (F := Ideal) (s := S128x128) (φ := .f32) .bf16 (m ((c : Thread nD τ).loc main_arg2)) bitsLt_bf16_f32) := by
  dsimp only [V, hostOps0]; host_results

set_option maxHeartbeats 40000000 in
/-- A matrix window is its matrix argument in another number format. -/
theorem V75_eq (c : Dev nD) : @Eq ((⟨S128x128, .bf16⟩ : BufTy).Contents (Elt Ideal)) (V m c main_v75)
    (truncf (F := Ideal) (s := S128x128) (φ := .f32) .bf16 (m ((c : Thread nD τ).loc main_arg8)) bitsLt_bf16_f32) := by
  dsimp only [V, hostOps0]; host_results

set_option maxHeartbeats 40000000 in
/-- A matrix window is its matrix argument in another number format. -/
theorem V76_eq (c : Dev nD) : @Eq ((⟨S3x128x128, .bf16⟩ : BufTy).Contents (Elt Ideal)) (V m c main_v76)
    (truncf (F := Ideal) (s := S3x128x128) (φ := .f32) .bf16 (m ((c : Thread nD τ).loc main_arg11)) bitsLt_bf16_f32) := by
  dsimp only [V, hostOps0]; host_results

set_option maxHeartbeats 40000000 in
/-- A matrix window is its matrix argument in another number format. -/
theorem V77_eq (c : Dev nD) : @Eq ((⟨S3x128x128, .bf16⟩ : BufTy).Contents (Elt Ideal)) (V m c main_v77)
    (truncf (F := Ideal) (s := S3x128x128) (φ := .f32) .bf16 (m ((c : Thread nD τ).loc main_arg17)) bitsLt_bf16_f32) := by
  dsimp only [V, hostOps0]; host_results

/-! ## The arrays at an index -/

/-- Entry `(r, k)` of the plain features' window is entry `(0, r, k)` of the feature argument. -/
theorem V72_apply (c : Dev nD) (r : Fin 30000) (k : Fin 128) :
    V m c main_v72 (ix2 r k) = (m ((c : Thread nD τ).loc main_arg0)) (ix3 (0 : Fin 4) r k) := by
  refine (congrFun (V72_eq m c) (ix2 r k)).trans ?_
  show shapeCast S30000x128 (extractStridedSlice S1x30000x128 ![0, 0, 0] (m ((c : Thread nD τ).loc main_arg0)) slices_S4x30000x128_S1x30000x128_0_0_0) shapeCasts_S1x30000x128_S30000x128 (ix2 r k) = _
  rw [shapeCast_1ab_ab_apply]
  exact extractStridedSlice_apply ![0, 0, 0] _ slices_S4x30000x128_S1x30000x128_0_0_0 (ix3 (0 : Fin 1) r k) (ix3 (0 : Fin 4) r k) (fun a => match a with
    | ⟨0, _⟩ => rfl
    | ⟨1, _⟩ => by show r.val = 0 + r.val; omega
    | ⟨2, _⟩ => by show k.val = 0 + k.val; omega)

/-- A matrix window holds its matrix argument's entries. -/
theorem V74_apply (c : Dev nD) (i : S128x128.Idx) : V m c main_v74 i = (m ((c : Thread nD τ).loc main_arg2)) i :=
  (congrFun (V74_eq m c) i).trans rfl

/-- A matrix window holds its matrix argument's entries. -/
theorem V75_apply (c : Dev nD) (i : S128x128.Idx) : V m c main_v75 i = (m ((c : Thread nD τ).loc main_arg8)) i :=
  (congrFun (V75_eq m c) i).trans rfl

/-- A matrix window holds its matrix argument's entries. -/
theorem V76_apply (c : Dev nD) (i : S3x128x128.Idx) : V m c main_v76 i = (m ((c : Thread nD τ).loc main_arg11)) i :=
  (congrFun (V76_eq m c) i).trans rfl

/-- A matrix window holds its matrix argument's entries. -/
theorem V77_apply (c : Dev nD) (i : S3x128x128.Idx) : V m c main_v77 i = (m ((c : Thread nD τ).loc main_arg17)) i :=
  (congrFun (V77_eq m c) i).trans rfl

end Cert.KernelIdeal.Entry

end
-- ==== Proof.LibStack3.lean ====
/-
  A stack of three arrays, read at an index.

  Three `[a, b]` arrays, each given a leading axis of extent one and laid one after the other along that axis, make
  one `[3, a, b]` array whose entry `(h, r, c)` is entry `(r, c)` of the `h`-th of the three: the leading coordinate
  names the piece (every piece has extent one there), and the added unit axis carries no information.
-/
import Idealize.ShloMosaic.Lib.Pipeline.Value
import Idealize.ShloMosaic.Lib.ValueIdx

noncomputable section

namespace Idealize.ShloMosaic.Stack3

open Idealize.ShloMosaic Idealize.ShloMosaic.ValueIdx

/-- Entry `(h, r, c)` of the stack of `Z 0`, `Z 1`, `Z 2` is entry `(r, c)` of `Z h`. -/
theorem stack3_apply {α : Type} {a b : ℕ} (Z : Fin 3 → (⟨2, ![a, b]⟩ : Shape).Idx → α)
    (wb : (⟨2, ![a, b]⟩ : Shape).BroadcastsInDim ⟨3, ![1, a, b]⟩ (![1, 2] : Fin 2 → Fin 3))
    (wc : Shape.Concatenates [⟨3, ![1, a, b]⟩, ⟨3, ![1, a, b]⟩, ⟨3, ![1, a, b]⟩] ⟨3, ![3, a, b]⟩ 0)
    (h : Fin 3) (r : Fin a) (c : Fin b) :
    concatenate ⟨3, ![3, a, b]⟩ 0
        [⟨⟨3, ![1, a, b]⟩, broadcastInDim ⟨3, ![1, a, b]⟩ ![1, 2] wb (Z 0)⟩,
         ⟨⟨3, ![1, a, b]⟩, broadcastInDim ⟨3, ![1, a, b]⟩ ![1, 2] wb (Z 1)⟩,
         ⟨⟨3, ![1, a, b]⟩, broadcastInDim ⟨3, ![1, a, b]⟩ ![1, 2] wb (Z 2)⟩] wc (ix3 h r c)
      = Z h (ix2 r c) := by
  refine (concatenate_ofFn_unit_apply (t := ⟨3, ![3, a, b]⟩) (s₁ := ⟨3, ![1, a, b]⟩) (0 : Fin 3)
    (fun n : Fin 3 => broadcastInDim ⟨3, ![1, a, b]⟩ ![1, 2] wb (Z n)) wc rfl rfl (ix3 h r c) h rfl
    (ix3 (0 : Fin 1) r c) ?_).trans ?_
  · intro b' hb'
    match b' with
    | ⟨0, _⟩ => exact absurd rfl hb'
    | ⟨1, _⟩ => rfl
    | ⟨2, _⟩ => rfl
  · exact broadcastInDim_apply _ wb (Z h) _ (ix2 r c) (fun ax => match ax with
      | ⟨0, _⟩ => by
        show r.val = if a = 1 then 0 else r.val
        split
        · have := r.isLt; omega
        · rfl
      | ⟨1, _⟩ => by
        show c.val = if b = 1 then 0 else c.val
        split
        · have := c.isLt; omega
        · rfl)

end Idealize.ShloMosaic.Stack3

end
-- ==== Proof.LibAfterAppend.lean ====
/-
  Host operations run in two stretches.

  The contents the buffers hold after a list of host operations, run in order from given contents, is a fold: the empty
  list leaves the contents, and an operation followed by a list is the list run from the operation's result. So a
  list that is one stretch followed by another is run by running the second stretch from what the first leaves.
-/
import Idealize.ShloMosaic.Lib.StableHlo.Run

noncomputable section

namespace Idealize.ShloMosaic.StableHlo.AfterAppend

open Idealize.ShloMosaic Idealize.ShloMosaic.StableHlo

variable {τ : Topo} {sig : RefSig} {Val : EltTy → Type}

/-- Running `l₁ ++ l₂` is running `l₂` from what `l₁` leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A list run from given contents is its last stretch run from what the stretch before it leaves. -/
theorem after_take_drop (n : Nat) (l : List (HloOp τ sig Val)) (V : Valuation τ sig Val) :
    after l V = after (l.drop n) (after (l.take n) V) := by
  rw [← after_append, List.take_append_drop]

end Idealize.ShloMosaic.StableHlo.AfterAppend

end
-- ==== Proof.KEntryHops.lean ====
/-
  The hop features the launch finds, at the extended reals.

  The window of the hop features is the stack of three arrays, the `h`-th being
  `(1 + ε_h) · x_{h+1} + (rows of x_{h+1} gathered along the edges' sources and summed into the edges' targets)` —
  exactly the array the reference forms for hop `h` before its block, operation for operation. So entry
  `(h, r, c)` of the stacked window is entry `(r, c)` of the reference's `h`-th aggregated array of the same
  arguments.
-/
import proofs.«116947_j70188355551847_2_alg».proof.Proof.KernelIdealFrameMain
import proofs.«116947_j70188355551847_2_alg».proof.Proof.RefRead
import proofs.«116947_j70188355551847_2_alg».proof.Proof.LibNary3
import proofs.«116947_j70188355551847_2_alg».proof.Proof.LibStack3
import proofs.«116947_j70188355551847_2_alg».proof.Proof.LibAfterAppend
import Idealize.ShloMosaic.Lib.ValueIdx
import Idealize.ShloMosaic.Lib.ValueLayout
import Idealize.ShloMosaic.Lib.Pipeline.Value

set_option maxRecDepth 16384

noncomputable section

namespace Cert.KernelIdeal.Entry

open Cert.KernelIdeal Cert.KernelIdeal.Gen Cert.KernelIdeal.Frame
open Idealize.ShloMosaic Idealize.ShloMosaic.TcCoe Idealize.SL.Sem Idealize.ShloMosaic.StableHlo Idealize.ShloMosaic.ValueIdx

variable (m : (ℓ : Loc nD τ sig) → Buf (Elt Ideal) ℓ)

/-- Each host operation's result at its own buffer is its function of its operands' contents, and at any other
    buffer what was there: one pass over the list. -/
local macro "host_results" : tactic =>
  `(tactic| (simp (disch := decide) only [after_cons, after_nil,
      nullary_result', unary_result', binary_result', ternary_result', quaternary_result', reshape_result',
      Nary3.nary3_result', nary_result',
      nullary_result_ne', unary_result_ne', binary_result_ne', ternary_result_ne', quaternary_result_ne', reshape_result_ne',
      nary_result_ne']))

/-! ## The last stretch of host operations -/

set_option maxHeartbeats 40000000 in
/-- From any contents, the last twelve host operations leave in the hop features' window the stack of the three
    aggregated arrays found there, in the window's number format. -/
theorem tail_v73 (W : Valuation τ sig (Elt Ideal)) :
    @Eq ((⟨S3x30000x128, .bf16⟩ : BufTy).Contents (Elt Ideal)) (after (List.drop 78 (hostOps0 (F := Ideal))) W main_v73)
      (truncf (F := Ideal) (φ := .f32) .bf16 (concatenate S3x30000x128 0
        [⟨S1x30000x128, broadcastInDim S1x30000x128 ![1, 2] bcast_S30000x128_S1x30000x128_1_2 (W main_v21 : (⟨S30000x128, .f32⟩ : BufTy).Contents (Elt Ideal))⟩,
         ⟨S1x30000x128, broadcastInDim S1x30000x128 ![1, 2] bcast_S30000x128_S1x30000x128_1_2 (W main_v43 : (⟨S30000x128, .f32⟩ : BufTy).Contents (Elt Ideal))⟩,
         ⟨S1x30000x128, broadcastInDim S1x30000x128 ![1, 2] bcast_S30000x128_S1x30000x128_1_2 (W main_v65 : (⟨S30000x128, .f32⟩ : BufTy).Contents (Elt Ideal))⟩]
        concatenates_S1x30000x128_S1x30000x128_S1x30000x128_S3x30000x128_d0) bitsLt_bf16_f32) := by
  dsimp only [hostOps0, List.drop]; host_results; rfl

set_option maxHeartbeats 40000000 in
/-- None of the last twelve host operations writes the aggregated array of hop 0. -/
theorem tail_v21 (W : Valuation τ sig (Elt Ideal)) : after (List.drop 78 (hostOps0 (F := Ideal))) W main_v21 = W main_v21 := by
  dsimp only [hostOps0, List.drop]; host_results

set_option maxHeartbeats 40000000 in
/-- None of the last twelve host operations writes the aggregated array of hop 1. -/
theorem tail_v43 (W : Valuation τ sig (Elt Ideal)) : after (List.drop 78 (hostOps0 (F := Ideal))) W main_v43 = W main_v43 := by
  dsimp only [hostOps0, List.drop]; host_results

set_option maxHeartbeats 40000000 in
/-- None of the last twelve host operations writes the aggregated array of hop 2. -/
theorem tail_v65 (W : Valuation τ sig (Elt Ideal)) : after (List.drop 78 (hostOps0 (F := Ideal))) W main_v65 = W main_v65 := by
  dsimp only [hostOps0, List.drop]; host_results

/-! ## The three aggregated arrays, one hop at a time -/

set_option maxHeartbeats 400000000 in
/-- The aggregated array of hop 0 the launch finds is the reference's own term for that hop, operation for operation. -/
theorem V21_eq (c : Dev nD) : @Eq ((⟨S30000x128, .f32⟩ : BufTy).Contents (Elt Ideal)) (V m c main_v21)
    (Cert.ReferenceIdeal.ReadP.val_main_v47 (F := Ideal) (m ((c : Thread nD τ).loc main_arg0)) (m ((c : Thread nD τ).loc main_arg1)) (m ((c : Thread nD τ).loc main_arg10))) := by
  dsimp only [V, hostOps0]; host_results; rfl

set_option maxHeartbeats 400000000 in
/-- The aggregated array of hop 1 the launch finds is the reference's own term for that hop, operation for operation. -/
theorem V43_eq (c : Dev nD) : @Eq ((⟨S30000x128, .f32⟩ : BufTy).Contents (Elt Ideal)) (V m c main_v43)
    (Cert.ReferenceIdeal.ReadP.val_main_v110 (F := Ideal) (m ((c : Thread nD τ).loc main_arg0)) (m ((c : Thread nD τ).loc main_arg1)) (m ((c : Thread nD τ).loc main_arg10))) := by
  dsimp only [V, hostOps0]; host_results; rfl

set_option maxHeartbeats 400000000 in
/-- The aggregated array of hop 2 the launch finds is the reference's own term for that hop, operation for operation. -/
theorem V65_eq (c : Dev nD) : @Eq ((⟨S30000x128, .f32⟩ : BufTy).Contents (Elt Ideal)) (V m c main_v65)
    (Cert.ReferenceIdeal.ReadP.val_main_v173 (F := Ideal) (m ((c : Thread nD τ).loc main_arg0)) (m ((c : Thread nD τ).loc main_arg1)) (m ((c : Thread nD τ).loc main_arg10))) := by
  dsimp only [V, hostOps0]; host_results; rfl

/-! ## The stacked array as a term of the arguments -/

/-- The hop features' window: the stack of the three aggregated arrays, each the reference's own term for that hop.
    The host operations are run in two stretches: the first seventy-eight leave the three aggregated arrays, the last
    twelve stack them and touch none of the three. -/
theorem V73_eq (c : Dev nD) : @Eq ((⟨S3x30000x128, .bf16⟩ : BufTy).Contents (Elt Ideal)) (V m c main_v73)
    (truncf (F := Ideal) (φ := .f32) .bf16 (concatenate S3x30000x128 0
        [⟨S1x30000x128, broadcastInDim S1x30000x128 ![1, 2] bcast_S30000x128_S1x30000x128_1_2 (Cert.ReferenceIdeal.ReadP.val_main_v47 (F := Ideal) (m ((c : Thread nD τ).loc main_arg0)) (m ((c : Thread nD τ).loc main_arg1)) (m ((c : Thread nD τ).loc main_arg10)))⟩,
         ⟨S1x30000x128, broadcastInDim S1x30000x128 ![1, 2] bcast_S30000x128_S1x30000x128_1_2 (Cert.ReferenceIdeal.ReadP.val_main_v110 (F := Ideal) (m ((c : Thread nD τ).loc main_arg0)) (m ((c : Thread nD τ).loc main_arg1)) (m ((c : Thread nD τ).loc main_arg10)))⟩,
         ⟨S1x30000x128, broadcastInDim S1x30000x128 ![1, 2] bcast_S30000x128_S1x30000x128_1_2 (Cert.ReferenceIdeal.ReadP.val_main_v173 (F := Ideal) (m ((c : Thread nD τ).loc main_arg0)) (m ((c : Thread nD τ).loc main_arg1)) (m ((c : Thread nD τ).loc main_arg10)))⟩]
        concatenates_S1x30000x128_S1x30000x128_S1x30000x128_S3x30000x128_d0) bitsLt_bf16_f32) := by
  have h := AfterAppend.after_take_drop 78 (hostOps0 (F := Ideal)) (fun b => m (c, b))
  have w21 := ((congrFun h main_v21).trans (tail_v21 _)).symm.trans (V21_eq m c)
  have w43 := ((congrFun h main_v43).trans (tail_v43 _)).symm.trans (V43_eq m c)
  have w65 := ((congrFun h main_v65).trans (tail_v65 _)).symm.trans (V65_eq m c)
  refine ((congrFun h main_v73).trans (tail_v73 _)).trans ?_
  rw [w21, w43, w65]

/-! ## The stacked array at an index -/

/-- Entry `(0, r, k)` of the hop features' window is entry `(r, k)` of the reference's aggregated array of hop 0. -/
theorem V73_apply0 (c : Dev nD) (r : Fin 30000) (k : Fin 128) :
    V m c main_v73 (ix3 (0 : Fin 3) r k) = Cert.ReferenceIdeal.ReadP.val_main_v47 (F := Ideal) (m ((c : Thread nD τ).loc main_arg0)) (m ((c : Thread nD τ).loc main_arg1)) (m ((c : Thread nD τ).loc main_arg10)) (ix2 r k) := by
  refine (congrFun (V73_eq m c) (ix3 (0 : Fin 3) r k)).trans ?_
  exact Stack3.stack3_apply (a := 30000) (b := 128)
    ![Cert.ReferenceIdeal.ReadP.val_main_v47 (F := Ideal) (m ((c : Thread nD τ).loc main_arg0)) (m ((c : Thread nD τ).loc main_arg1)) (m ((c : Thread nD τ).loc main_arg10)), Cert.ReferenceIdeal.ReadP.val_main_v110 (F := Ideal) (m ((c : Thread nD τ).loc main_arg0)) (m ((c : Thread nD τ).loc main_arg1)) (m ((c : Thread nD τ).loc main_arg10)), Cert.ReferenceIdeal.ReadP.val_main_v173 (F := Ideal) (m ((c : Thread nD τ).loc main_arg0)) (m ((c : Thread nD τ).loc main_arg1)) (m ((c : Thread nD τ).loc main_arg10))]
    bcast_S30000x128_S1x30000x128_1_2 concatenates_S1x30000x128_S1x30000x128_S1x30000x128_S3x30000x128_d0 (0 : Fin 3) r k

/-- Entry `(1, r, k)` of the hop features' window is entry `(r, k)` of the reference's aggregated array of hop 1. -/
theorem V73_apply1 (c : Dev nD) (r : Fin 30000) (k : Fin 128) :
    V m c main_v73 (ix3 (1 : Fin 3) r k) = Cert.ReferenceIdeal.ReadP.val_main_v110 (F := Ideal) (m ((c : Thread nD τ).loc main_arg0)) (m ((c : Thread nD τ).loc main_arg1)) (m ((c : Thread nD τ).loc main_arg10)) (ix2 r k) := by
  refine (congrFun (V73_eq m c) (ix3 (1 : Fin 3) r k)).trans ?_
  exact Stack3.stack3_apply (a := 30000) (b := 128)
    ![Cert.ReferenceIdeal.ReadP.val_main_v47 (F := Ideal) (m ((c : Thread nD τ).loc main_arg0)) (m ((c : Thread nD τ).loc main_arg1)) (m ((c : Thread nD τ).loc main_arg10)), Cert.ReferenceIdeal.ReadP.val_main_v110 (F := Ideal) (m ((c : Thread nD τ).loc main_arg0)) (m ((c : Thread nD τ).loc main_arg1)) (m ((c : Thread nD τ).loc main_arg10)), Cert.ReferenceIdeal.ReadP.val_main_v173 (F := Ideal) (m ((c : Thread nD τ).loc main_arg0)) (m ((c : Thread nD τ).loc main_arg1)) (m ((c : Thread nD τ).loc main_arg10))]
    bcast_S30000x128_S1x30000x128_1_2 concatenates_S1x30000x128_S1x30000x128_S1x30000x128_S3x30000x128_d0 (1 : Fin 3) r k

/-- Entry `(2, r, k)` of the hop features' window is entry `(r, k)` of the reference's aggregated array of hop 2. -/
theorem V73_apply2 (c : Dev nD) (r : Fin 30000) (k : Fin 128) :
    V m c main_v73 (ix3 (2 : Fin 3) r k) = Cert.ReferenceIdeal.ReadP.val_main_v173 (F := Ideal) (m ((c : Thread nD τ).loc main_arg0)) (m ((c : Thread nD τ).loc main_arg1)) (m ((c : Thread nD τ).loc main_arg10)) (ix2 r k) := by
  refine (congrFun (V73_eq m c) (ix3 (2 : Fin 3) r k)).trans ?_
  exact Stack3.stack3_apply (a := 30000) (b := 128)
    ![Cert.ReferenceIdeal.ReadP.val_main_v47 (F := Ideal) (m ((c : Thread nD τ).loc main_arg0)) (m ((c : Thread nD τ).loc main_arg1)) (m ((c : Thread nD τ).loc main_arg10)), Cert.ReferenceIdeal.ReadP.val_main_v110 (F := Ideal) (m ((c : Thread nD τ).loc main_arg0)) (m ((c : Thread nD τ).loc main_arg1)) (m ((c : Thread nD τ).loc main_arg10)), Cert.ReferenceIdeal.ReadP.val_main_v173 (F := Ideal) (m ((c : Thread nD τ).loc main_arg0)) (m ((c : Thread nD τ).loc main_arg1)) (m ((c : Thread nD τ).loc main_arg10))]
    bcast_S30000x128_S1x30000x128_1_2 concatenates_S1x30000x128_S1x30000x128_S1x30000x128_S3x30000x128_d0 (2 : Fin 3) r k

end Cert.KernelIdeal.Entry

end
-- ==== Proof.Spec.lean ====
/-
  The function both programs compute, index by index, on the extended reals.

  One block is Linear → BatchNorm (inference form) → ReLU → Linear applied to a ROW `z` of 128 features:
  the first product `Σ_{k₁} z k₁ · W₁ k₁ k₂` plus the bias `b₁ k₂`, normalised as
  `((· − μ k₂) · rsqrt (σ² k₂ + ε)) · γ k₂ + β k₂`, clamped below at zero, and then the second product
  `Σ_{k₂} · W₂ k₂ j` plus the bias `b₂ j`. The result at row `r`, column `j` is the first block of row `r` of
  the plain features plus, one after the other, the blocks of row `r` of the three aggregated hop features.
  Every row depends on its own row only, so a tiling of the rows computes the same entries.
-/
import Idealize.ShloMosaic.PureOps.Ideal
import Idealize.ShloMosaic.Lib.ValueIdx

noncomputable section

open scoped BigOperators

namespace Cert.GinSpec

open Idealize.ShloMosaic

/-- The normalisation's ε, as the binary32 word both programs carry. -/
def bnEps : EReal := Ideal.ofBits .f32 0x3727C5AC#32

/-- The ReLU's zero, as the binary32 zero word. -/
def zeroW : EReal := Ideal.ofBits .f32 0x00000000#32

/-- The hidden activation of one row at hidden unit `k₂`:
    `max (((Σ_{k₁} z k₁ · W₁ k₁ k₂ + b₁ k₂ − μ k₂) · rsqrt (σ² k₂ + ε)) · γ k₂ + β k₂) 0`. -/
def hiddenRow (z : Fin 128 → EReal) (W1 : Fin 128 → Fin 128 → EReal) (b1 g bt mu var : Fin 128 → EReal)
    (k2 : Fin 128) : EReal :=
  max ((((∑ k1 : Fin 128, z k1 * W1 k1 k2) + b1 k2 - mu k2) * Ideal.rsqrt (var k2 + bnEps)) * g k2 + bt k2) zeroW

/-- One block on one row, at output column `j`: `Σ_{k₂} hidden k₂ · W₂ k₂ j + b₂ j`. -/
def mlpRow (z : Fin 128 → EReal) (W1 : Fin 128 → Fin 128 → EReal) (b1 g bt mu var : Fin 128 → EReal)
    (W2 : Fin 128 → Fin 128 → EReal) (b2 : Fin 128 → EReal) (j : Fin 128) : EReal :=
  (∑ k2 : Fin 128, hiddenRow z W1 b1 g bt mu var k2 * W2 k2 j) + b2 j

end Cert.GinSpec

end
-- ==== Proof.SpecOut.lean ====
/-
  The whole result as one function of the arguments.

  `out` at row `r`, column `j`: the first block on row `r` of slab 0 of the features with the first block's parameters,
  plus — added one after the other, in this order — the block of hop `h` on row `r` of the aggregated array `Z0`, `Z1`, `Z2`
  with the `h`-th slabs of the stacked hop parameters, for `h = 0, 1, 2`.
-/
import proofs.«116947_j70188355551847_2_alg».proof.Proof.Spec

noncomputable section

namespace Cert.GinSpec

open Idealize.ShloMosaic Idealize.ShloMosaic.ValueIdx

/-- The block of hop `h` on row `r` of the aggregated array `Z`, at column `j`. -/
def hopRow (Z : (⟨2, ![30000, 128]⟩ : Shape).Idx → EReal) (h : Fin 3)
    (W1 : (⟨3, ![3, 128, 128]⟩ : Shape).Idx → EReal) (b1 g bt mu var : (⟨2, ![3, 128]⟩ : Shape).Idx → EReal)
    (W2 : (⟨3, ![3, 128, 128]⟩ : Shape).Idx → EReal) (b2 : (⟨2, ![3, 128]⟩ : Shape).Idx → EReal)
    (r : Fin 30000) (j : Fin 128) : EReal :=
  mlpRow (fun k => Z (ix2 r k)) (fun a b => W1 (ix3 h a b)) (fun k => b1 (ix2 h k)) (fun k => g (ix2 h k))
    (fun k => bt (ix2 h k)) (fun k => mu (ix2 h k)) (fun k => var (ix2 h k)) (fun a b => W2 (ix3 h a b))
    (fun k => b2 (ix2 h k)) j

/-- The first block on row `r` of slab 0 of the features, at column `j`. -/
def linRow (x : (⟨3, ![4, 30000, 128]⟩ : Shape).Idx → EReal)
    (W1 : (⟨2, ![128, 128]⟩ : Shape).Idx → EReal) (b1 g bt mu var : (⟨1, ![128]⟩ : Shape).Idx → EReal)
    (W2 : (⟨2, ![128, 128]⟩ : Shape).Idx → EReal) (b2 : (⟨1, ![128]⟩ : Shape).Idx → EReal)
    (r : Fin 30000) (j : Fin 128) : EReal :=
  mlpRow (fun k => x (ix3 (0 : Fin 4) r k)) (fun a b => W1 (ix2 a b)) (fun k => b1 (ix1 k)) (fun k => g (ix1 k))
    (fun k => bt (ix1 k)) (fun k => mu (ix1 k)) (fun k => var (ix1 k)) (fun a b => W2 (ix2 a b))
    (fun k => b2 (ix1 k)) j

/-- The result at row `r`, column `j`. -/
def outAt (x : (⟨3, ![4, 30000, 128]⟩ : Shape).Idx → EReal) (Z0 Z1 Z2 : (⟨2, ![30000, 128]⟩ : Shape).Idx → EReal)
    (lW1 : (⟨2, ![128, 128]⟩ : Shape).Idx → EReal) (lb1 lg lbt lm lv : (⟨1, ![128]⟩ : Shape).Idx → EReal)
    (lW2 : (⟨2, ![128, 128]⟩ : Shape).Idx → EReal) (lb2 : (⟨1, ![128]⟩ : Shape).Idx → EReal)
    (cW1 : (⟨3, ![3, 128, 128]⟩ : Shape).Idx → EReal) (cb1 cg cbt cm cv : (⟨2, ![3, 128]⟩ : Shape).Idx → EReal)
    (cW2 : (⟨3, ![3, 128, 128]⟩ : Shape).Idx → EReal) (cb2 : (⟨2, ![3, 128]⟩ : Shape).Idx → EReal)
    (r : Fin 30000) (j : Fin 128) : EReal :=
  ((linRow x lW1 lb1 lg lbt lm lv lW2 lb2 r j
      + hopRow Z0 0 cW1 cb1 cg cbt cm cv cW2 cb2 r j)
      + hopRow Z1 1 cW1 cb1 cg cbt cm cv cW2 cb2 r j)
      + hopRow Z2 2 cW1 cb1 cg cbt cm cv cW2 cb2 r j

/-- The whole result array. -/
def out (x : (⟨3, ![4, 30000, 128]⟩ : Shape).Idx → EReal) (Z0 Z1 Z2 : (⟨2, ![30000, 128]⟩ : Shape).Idx → EReal)
    (lW1 : (⟨2, ![128, 128]⟩ : Shape).Idx → EReal) (lb1 lg lbt lm lv : (⟨1, ![128]⟩ : Shape).Idx → EReal)
    (lW2 : (⟨2, ![128, 128]⟩ : Shape).Idx → EReal) (lb2 : (⟨1, ![128]⟩ : Shape).Idx → EReal)
    (cW1 : (⟨3, ![3, 128, 128]⟩ : Shape).Idx → EReal) (cb1 cg cbt cm cv : (⟨2, ![3, 128]⟩ : Shape).Idx → EReal)
    (cW2 : (⟨3, ![3, 128, 128]⟩ : Shape).Idx → EReal) (cb2 : (⟨2, ![3, 128]⟩ : Shape).Idx → EReal) :
    (⟨2, ![30000, 128]⟩ : Shape).Idx → EReal :=
  fun i => outAt x Z0 Z1 Z2 lW1 lb1 lg lbt lm lv lW2 lb2 cW1 cb1 cg cbt cm cv cW2 cb2 (i 0) (i 1)

end Cert.GinSpec

end
-- ==== Proof.KReadsBase.lean ====
/-
  The grid's index maps and the specified result.

  Grid point `t` works on rows `2000 t … 2000 t + 1999`: its block of the plain features and of the output is block
  `t` along the rows, its block of the stacked hop features is rows `2000 t …` of all three slabs, and every
  parameter window's block is the whole parameter array (`idx_W`: the program's index maps, decided over the fifteen
  points). `Gfin` is the specified result of the arguments, the hop arrays being the reference's aggregated arrays.
-/
import proofs.«116947_j70188355551847_2_alg».proof.Proof.KernelIdealFrameBody
import proofs.«116947_j70188355551847_2_alg».proof.Proof.KEntry
import proofs.«116947_j70188355551847_2_alg».proof.Proof.KEntryHops
import proofs.«116947_j70188355551847_2_alg».proof.Proof.SpecOut

set_option maxRecDepth 16384

noncomputable section

namespace Cert.KernelIdeal.KReads

open Cert.KernelIdeal Cert.KernelIdeal.Gen Cert.KernelIdeal.Frame Cert.KernelIdeal.Entry Cert.GinSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-! ## The program's index maps, decided over the grid -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 3) = 0 ∧ win0_1.index t (1 : Fin 3) = t.val ∧ win0_1.index t (2 : Fin 3) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 1) = 0 :=
  (by decide +kernel : ∀ t : Fin grid0.N, _)
theorem idx_4 : ∀ t : Fin cfg0.N, win0_4.index t (0 : Fin 1) = 0 :=
  (by decide +kernel : ∀ t : Fin grid0.N, _)
theorem idx_5 : ∀ t : Fin cfg0.N, win0_5.index t (0 : Fin 1) = 0 :=
  (by decide +kernel : ∀ t : Fin grid0.N, _)
theorem idx_6 : ∀ t : Fin cfg0.N, win0_6.index t (0 : Fin 1) = 0 :=
  (by decide +kernel : ∀ t : Fin grid0.N, _)
theorem idx_7 : ∀ t : Fin cfg0.N, win0_7.index t (0 : Fin 1) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 1) = 0 :=
  (by decide +kernel : ∀ t : Fin grid0.N, _)
theorem idx_10 : ∀ t : Fin cfg0.N, win0_10.index t (0 : Fin 3) = 0 ∧ win0_10.index t (1 : Fin 3) = 0 ∧ win0_10.index t (2 : Fin 3) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 3) = 0 ∧ win0_16.index t (1 : Fin 3) = 0 ∧ win0_16.index t (2 : Fin 3) = 0 :=
  (by decide +kernel : ∀ t : Fin grid0.N, _)
theorem idx_17 : ∀ t : Fin cfg0.N, win0_17.index t (0 : Fin 2) = 0 ∧ win0_17.index t (1 : Fin 2) = 0 :=
  (by decide +kernel : ∀ t : Fin grid0.N, _)
theorem idx_18 : ∀ t : Fin cfg0.N, win0_18.index t (0 : Fin 2) = t.val ∧ win0_18.index t (1 : Fin 2) = 0 :=
  (by decide +kernel : ∀ t : Fin grid0.N, _)

/-! ## The result as a function of the arguments -/

/-- The specified result of core `c`'s argument arrays: the hop arrays are the reference's aggregated arrays. -/
def Gfin (c : Dev nD) : (⟨2, ![30000, 128]⟩ : Shape).Idx → EReal :=
  GinSpec.out (m ((c : Thread nD τ).loc main_arg0)) (Cert.ReferenceIdeal.ReadP.val_main_v47 (F := Ideal) (m ((c : Thread nD τ).loc main_arg0)) (m ((c : Thread nD τ).loc main_arg1)) (m ((c : Thread nD τ).loc main_arg10))) (Cert.ReferenceIdeal.ReadP.val_main_v110 (F := Ideal) (m ((c : Thread nD τ).loc main_arg0)) (m ((c : Thread nD τ).loc main_arg1)) (m ((c : Thread nD τ).loc main_arg10))) (Cert.ReferenceIdeal.ReadP.val_main_v173 (F := Ideal) (m ((c : Thread nD τ).loc main_arg0)) (m ((c : Thread nD τ).loc main_arg1)) (m ((c : Thread nD τ).loc main_arg10)))
    (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

end Cert.KernelIdeal.KReads

end
-- ==== Proof.KReadsA.lean ====
/-
  Each value the body reads at a grid point is an entry of an argument: the plain tile, the three hop tiles, the first block's parameters.

  Row `p` of a tile at point `t` is row `2000 t + p` of its array, and slab `h` of a stacked parameter is its `h`-th
  matrix or vector; the arrays are the arguments or, for the hop features, the reference's aggregated arrays.
-/
import proofs.«116947_j70188355551847_2_alg».proof.Proof.KReadsBase
set_option Elab.async false
set_option maxRecDepth 16384

noncomputable section

namespace Cert.KernelIdeal.KReads

open Cert.KernelIdeal Cert.KernelIdeal.Gen Cert.KernelIdeal.Frame Cert.KernelIdeal.Entry Cert.GinSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The reads -/

set_option maxHeartbeats 4000000 in
/-- Row `p` of the plain tile at point `t` is row `2000 t + p` of slab 0 of the features. -/
theorem rd0 (c : Dev nD) (t : Fin cfg0.N) (p : Fin 2000) (R : Fin 30000) (hR : R.val = t.val * 2000 + p.val) (k : Fin 128) :
    View.ld (iblk m c 0 t) rTile (ix2 p k) = (m ((c : Thread nD τ).loc main_arg0)) (ix3 (0 : Fin 4) R k) := by
  refine Eq.trans ?_ (V72_apply m c R k)
  show iblk m c 0 t _ = _
  unfold iblk
  rw [View.read_apply]
  show V m c main_v72 _ = V m c main_v72 _
  congr 1
  funext x
  apply Fin.ext
  obtain ⟨e0, e1⟩ := idx_0 t
  match x with
  | ⟨0, _⟩ => show win0_0.index t (0 : Fin 2) * 2000 + 1 * (0 + 1 * p.val) = R.val; omega
  | ⟨1, _⟩ => show win0_0.index t (1 : Fin 2) * 128 + 1 * (0 + 1 * k.val) = k.val; omega

set_option maxHeartbeats 4000000 in
/-- Row `p` of slab 0 of the hop tile at point `t` is row `2000 t + p` of the aggregated array of hop 0. -/
theorem rd1_0 (c : Dev nD) (t : Fin cfg0.N) (p : Fin 2000) (R : Fin 30000) (hR : R.val = t.val * 2000 + p.val) (k : Fin 128) :
    View.ld (iblk m c 1 t) rHop0 (ix3 (0 : Fin 1) p k) = (Cert.ReferenceIdeal.ReadP.val_main_v47 (F := Ideal) (m ((c : Thread nD τ).loc main_arg0)) (m ((c : Thread nD τ).loc main_arg1)) (m ((c : Thread nD τ).loc main_arg10))) (ix2 R k) := by
  refine Eq.trans ?_ (V73_apply0 m c R k)
  show iblk m c 1 t _ = _
  unfold iblk
  rw [View.read_apply]
  show V m c main_v73 _ = V m c main_v73 _
  congr 1
  funext x
  apply Fin.ext
  obtain ⟨e0, e1, e2⟩ := idx_1 t
  match x with
  | ⟨0, _⟩ => show win0_1.index t (0 : Fin 3) * 3 + 1 * (0 + 1 * 0) = 0; omega
  | ⟨1, _⟩ => show win0_1.index t (1 : Fin 3) * 2000 + 1 * (0 + 1 * p.val) = R.val; omega
  | ⟨2, _⟩ => show win0_1.index t (2 : Fin 3) * 128 + 1 * (0 + 1 * k.val) = k.val; omega

set_option maxHeartbeats 4000000 in
/-- Row `p` of slab 1 of the hop tile at point `t` is row `2000 t + p` of the aggregated array of hop 1. -/
theorem rd1_1 (c : Dev nD) (t : Fin cfg0.N) (p : Fin 2000) (R : Fin 30000) (hR : R.val = t.val * 2000 + p.val) (k : Fin 128) :
    View.ld (iblk m c 1 t) rHop1 (ix3 (0 : Fin 1) p k) = (Cert.ReferenceIdeal.ReadP.val_main_v110 (F := Ideal) (m ((c : Thread nD τ).loc main_arg0)) (m ((c : Thread nD τ).loc main_arg1)) (m ((c : Thread nD τ).loc main_arg10))) (ix2 R k) := by
  refine Eq.trans ?_ (V73_apply1 m c R k)
  show iblk m c 1 t _ = _
  unfold iblk
  rw [View.read_apply]
  show V m c main_v73 _ = V m c main_v73 _
  congr 1
  funext x
  apply Fin.ext
  obtain ⟨e0, e1, e2⟩ := idx_1 t
  match x with
  | ⟨0, _⟩ => show win0_1.index t (0 : Fin 3) * 3 + 1 * (1 + 1 * 0) = 1; omega
  | ⟨1, _⟩ => show win0_1.index t (1 : Fin 3) * 2000 + 1 * (0 + 1 * p.val) = R.val; omega
  | ⟨2, _⟩ => show win0_1.index t (2 : Fin 3) * 128 + 1 * (0 + 1 * k.val) = k.val; omega

set_option maxHeartbeats 4000000 in
/-- Row `p` of slab 2 of the hop tile at point `t` is row `2000 t + p` of the aggregated array of hop 2. -/
theorem rd1_2 (c : Dev nD) (t : Fin cfg0.N) (p : Fin 2000) (R : Fin 30000) (hR : R.val = t.val * 2000 + p.val) (k : Fin 128) :
    View.ld (iblk m c 1 t) rHop2 (ix3 (0 : Fin 1) p k) = (Cert.ReferenceIdeal.ReadP.val_main_v173 (F := Ideal) (m ((c : Thread nD τ).loc main_arg0)) (m ((c : Thread nD τ).loc main_arg1)) (m ((c : Thread nD τ).loc main_arg10))) (ix2 R k) := by
  refine Eq.trans ?_ (V73_apply2 m c R k)
  show iblk m c 1 t _ = _
  unfold iblk
  rw [View.read_apply]
  show V m c main_v73 _ = V m c main_v73 _
  congr 1
  funext x
  apply Fin.ext
  obtain ⟨e0, e1, e2⟩ := idx_1 t
  match x with
  | ⟨0, _⟩ => show win0_1.index t (0 : Fin 3) * 3 + 1 * (2 + 1 * 0) = 2; omega
  | ⟨1, _⟩ => show win0_1.index t (1 : Fin 3) * 2000 + 1 * (0 + 1 * p.val) = R.val; omega
  | ⟨2, _⟩ => show win0_1.index t (2 : Fin 3) * 128 + 1 * (0 + 1 * k.val) = k.val; omega

set_option maxHeartbeats 4000000 in
/-- The first block's matrix window 2 holds its matrix argument. -/
theorem rd2 (c : Dev nD) (t : Fin cfg0.N) (a b : Fin 128) :
    View.ld (iblk m c 2 t) rMat (ix2 a b) = (m ((c : Thread nD τ).loc main_arg2)) (ix2 a b) := by
  refine Eq.trans ?_ (V74_apply m c (ix2 a b))
  show iblk m c 2 t _ = _
  unfold iblk
  rw [View.read_apply]
  show V m c main_v74 _ = V m c main_v74 _
  congr 1
  funext x
  apply Fin.ext
  obtain ⟨e0, e1⟩ := idx_2 t
  match x with
  | ⟨0, _⟩ => show win0_2.index t (0 : Fin 2) * 128 + 1 * (0 + 1 * a.val) = a.val; omega
  | ⟨1, _⟩ => show win0_2.index t (1 : Fin 2) * 128 + 1 * (0 + 1 * b.val) = b.val; omega

set_option maxHeartbeats 4000000 in
/-- The first block's matrix window 8 holds its matrix argument. -/
theorem rd8 (c : Dev nD) (t : Fin cfg0.N) (a b : Fin 128) :
    View.ld (iblk m c 8 t) rMat (ix2 a b) = (m ((c : Thread nD τ).loc main_arg8)) (ix2 a b) := by
  refine Eq.trans ?_ (V75_apply m c (ix2 a b))
  show iblk m c 8 t _ = _
  unfold iblk
  rw [View.read_apply]
  show V m c main_v75 _ = V m c main_v75 _
  congr 1
  funext x
  apply Fin.ext
  obtain ⟨e0, e1⟩ := idx_8 t
  match x with
  | ⟨0, _⟩ => show win0_8.index t (0 : Fin 2) * 128 + 1 * (0 + 1 * a.val) = a.val; omega
  | ⟨1, _⟩ => show win0_8.index t (1 : Fin 2) * 128 + 1 * (0 + 1 * b.val) = b.val; omega

set_option maxHeartbeats 4000000 in
/-- The first block's vector window 3 holds its vector argument. -/
theorem rd3 (c : Dev nD) (t : Fin cfg0.N) (k : Fin 128) :
    View.ld (iblk m c 3 t) rVec (ix1 k) = (m ((c : Thread nD τ).loc main_arg3)) (ix1 k) := by
  refine Eq.trans ?_ (congrFun (V_main_arg3 m c) (ix1 k))
  show iblk m c 3 t _ = _
  unfold iblk
  rw [View.read_apply]
  show V m c main_arg3 _ = V m c main_arg3 _
  congr 1
  funext x
  apply Fin.ext
  have e0 := idx_3 t
  match x with
  | ⟨0, _⟩ => show win0_3.index t (0 : Fin 1) * 128 + 1 * (0 + 1 * k.val) = k.val; omega

set_option maxHeartbeats 4000000 in
/-- The first block's vector window 4 holds its vector argument. -/
theorem rd4 (c : Dev nD) (t : Fin cfg0.N) (k : Fin 128) :
    View.ld (iblk m c 4 t) rVec (ix1 k) = (m ((c : Thread nD τ).loc main_arg4)) (ix1 k) := by
  refine Eq.trans ?_ (congrFun (V_main_arg4 m c) (ix1 k))
  show iblk m c 4 t _ = _
  unfold iblk
  rw [View.read_apply]
  show V m c main_arg4 _ = V m c main_arg4 _
  congr 1
  funext x
  apply Fin.ext
  have e0 := idx_4 t
  match x with
  | ⟨0, _⟩ => show win0_4.index t (0 : Fin 1) * 128 + 1 * (0 + 1 * k.val) = k.val; omega

set_option maxHeartbeats 4000000 in
/-- The first block's vector window 5 holds its vector argument. -/
theorem rd5 (c : Dev nD) (t : Fin cfg0.N) (k : Fin 128) :
    View.ld (iblk m c 5 t) rVec (ix1 k) = (m ((c : Thread nD τ).loc main_arg5)) (ix1 k) := by
  refine Eq.trans ?_ (congrFun (V_main_arg5 m c) (ix1 k))
  show iblk m c 5 t _ = _
  unfold iblk
  rw [View.read_apply]
  show V m c main_arg5 _ = V m c main_arg5 _
  congr 1
  funext x
  apply Fin.ext
  have e0 := idx_5 t
  match x with
  | ⟨0, _⟩ => show win0_5.index t (0 : Fin 1) * 128 + 1 * (0 + 1 * k.val) = k.val; omega

set_option maxHeartbeats 4000000 in
/-- The first block's vector window 6 holds its vector argument. -/
theorem rd6 (c : Dev nD) (t : Fin cfg0.N) (k : Fin 128) :
    View.ld (iblk m c 6 t) rVec (ix1 k) = (m ((c : Thread nD τ).loc main_arg6)) (ix1 k) := by
  refine Eq.trans ?_ (congrFun (V_main_arg6 m c) (ix1 k))
  show iblk m c 6 t _ = _
  unfold iblk
  rw [View.read_apply]
  show V m c main_arg6 _ = V m c main_arg6 _
  congr 1
  funext x
  apply Fin.ext
  have e0 := idx_6 t
  match x with
  | ⟨0, _⟩ => show win0_6.index t (0 : Fin 1) * 128 + 1 * (0 + 1 * k.val) = k.val; omega

set_option maxHeartbeats 4000000 in
/-- The first block's vector window 7 holds its vector argument. -/
theorem rd7 (c : Dev nD) (t : Fin cfg0.N) (k : Fin 128) :
    View.ld (iblk m c 7 t) rVec (ix1 k) = (m ((c : Thread nD τ).loc main_arg7)) (ix1 k) := by
  refine Eq.trans ?_ (congrFun (V_main_arg7 m c) (ix1 k))
  show iblk m c 7 t _ = _
  unfold iblk
  rw [View.read_apply]
  show V m c main_arg7 _ = V m c main_arg7 _
  congr 1
  funext x
  apply Fin.ext
  have e0 := idx_7 t
  match x with
  | ⟨0, _⟩ => show win0_7.index t (0 : Fin 1) * 128 + 1 * (0 + 1 * k.val) = k.val; omega

set_option maxHeartbeats 4000000 in
/-- The first block's vector window 9 holds its vector argument. -/
theorem rd9 (c : Dev nD) (t : Fin cfg0.N) (k : Fin 128) :
    View.ld (iblk m c 9 t) rVec (ix1 k) = (m ((c : Thread nD τ).loc main_arg9)) (ix1 k) := by
  refine Eq.trans ?_ (congrFun (V_main_arg9 m c) (ix1 k))
  show iblk m c 9 t _ = _
  unfold iblk
  rw [View.read_apply]
  show V m c main_arg9 _ = V m c main_arg9 _
  congr 1
  funext x
  apply Fin.ext
  have e0 := idx_9 t
  match x with
  | ⟨0, _⟩ => show win0_9.index t (0 : Fin 1) * 128 + 1 * (0 + 1 * k.val) = k.val; omega

end Cert.KernelIdeal.KReads

end
-- ==== Proof.KReadsB.lean ====
/-
  Each value the body reads at a grid point is an entry of an argument: the stacked matrices of the hop blocks and the first stacked vectors.

  Row `p` of a tile at point `t` is row `2000 t + p` of its array, and slab `h` of a stacked parameter is its `h`-th
  matrix or vector; the arrays are the arguments or, for the hop features, the reference's aggregated arrays.
-/
import proofs.«116947_j70188355551847_2_alg».proof.Proof.KReadsBase
set_option Elab.async false
set_option maxRecDepth 16384

noncomputable section

namespace Cert.KernelIdeal.KReads

open Cert.KernelIdeal Cert.KernelIdeal.Gen Cert.KernelIdeal.Frame Cert.KernelIdeal.Entry Cert.GinSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The reads -/

set_option maxHeartbeats 4000000 in
/-- Slab 0 of the stacked matrix window 10 is the first matrix of its argument. -/
theorem rd10_0 (c : Dev nD) (t : Fin cfg0.N) (a b : Fin 128) :
    View.ld (iblk m c 10 t) rMat3_0 (ix3 (0 : Fin 1) a b) = (m ((c : Thread nD τ).loc main_arg11)) (ix3 (0 : Fin 3) a b) := by
  refine Eq.trans ?_ (V76_apply m c (ix3 (0 : Fin 3) a b))
  show iblk m c 10 t _ = _
  unfold iblk
  rw [View.read_apply]
  show V m c main_v76 _ = V m c main_v76 _
  congr 1
  funext x
  apply Fin.ext
  obtain ⟨e0, e1, e2⟩ := idx_10 t
  match x with
  | ⟨0, _⟩ => show win0_10.index t (0 : Fin 3) * 3 + 1 * (0 + 1 * 0) = 0; omega
  | ⟨1, _⟩ => show win0_10.index t (1 : Fin 3) * 128 + 1 * (0 + 1 * a.val) = a.val; omega
  | ⟨2, _⟩ => show win0_10.index t (2 : Fin 3) * 128 + 1 * (0 + 1 * b.val) = b.val; omega

set_option maxHeartbeats 4000000 in
/-- Slab 1 of the stacked matrix window 10 is the second matrix of its argument. -/
theorem rd10_1 (c : Dev nD) (t : Fin cfg0.N) (a b : Fin 128) :
    View.ld (iblk m c 10 t) rMat3_1 (ix3 (0 : Fin 1) a b) = (m ((c : Thread nD τ).loc main_arg11)) (ix3 (1 : Fin 3) a b) := by
  refine Eq.trans ?_ (V76_apply m c (ix3 (1 : Fin 3) a b))
  show iblk m c 10 t _ = _
  unfold iblk
  rw [View.read_apply]
  show V m c main_v76 _ = V m c main_v76 _
  congr 1
  funext x
  apply Fin.ext
  obtain ⟨e0, e1, e2⟩ := idx_10 t
  match x with
  | ⟨0, _⟩ => show win0_10.index t (0 : Fin 3) * 3 + 1 * (1 + 1 * 0) = 1; omega
  | ⟨1, _⟩ => show win0_10.index t (1 : Fin 3) * 128 + 1 * (0 + 1 * a.val) = a.val; omega
  | ⟨2, _⟩ => show win0_10.index t (2 : Fin 3) * 128 + 1 * (0 + 1 * b.val) = b.val; omega

set_option maxHeartbeats 4000000 in
/-- Slab 2 of the stacked matrix window 10 is the third matrix of its argument. -/
theorem rd10_2 (c : Dev nD) (t : Fin cfg0.N) (a b : Fin 128) :
    View.ld (iblk m c 10 t) rMat3_2 (ix3 (0 : Fin 1) a b) = (m ((c : Thread nD τ).loc main_arg11)) (ix3 (2 : Fin 3) a b) := by
  refine Eq.trans ?_ (V76_apply m c (ix3 (2 : Fin 3) a b))
  show iblk m c 10 t _ = _
  unfold iblk
  rw [View.read_apply]
  show V m c main_v76 _ = V m c main_v76 _
  congr 1
  funext x
  apply Fin.ext
  obtain ⟨e0, e1, e2⟩ := idx_10 t
  match x with
  | ⟨0, _⟩ => show win0_10.index t (0 : Fin 3) * 3 + 1 * (2 + 1 * 0) = 2; omega
  | ⟨1, _⟩ => show win0_10.index t (1 : Fin 3) * 128 + 1 * (0 + 1 * a.val) = a.val; omega
  | ⟨2, _⟩ => show win0_10.index t (2 : Fin 3) * 128 + 1 * (0 + 1 * b.val) = b.val; omega

set_option maxHeartbeats 4000000 in
/-- Slab 0 of the stacked matrix window 16 is the first matrix of its argument. -/
theorem rd16_0 (c : Dev nD) (t : Fin cfg0.N) (a b : Fin 128) :
    View.ld (iblk m c 16 t) rMat3_0 (ix3 (0 : Fin 1) a b) = (m ((c : Thread nD τ).loc main_arg17)) (ix3 (0 : Fin 3) a b) := by
  refine Eq.trans ?_ (V77_apply m c (ix3 (0 : Fin 3) a b))
  show iblk m c 16 t _ = _
  unfold iblk
  rw [View.read_apply]
  show V m c main_v77 _ = V m c main_v77 _
  congr 1
  funext x
  apply Fin.ext
  obtain ⟨e0, e1, e2⟩ := idx_16 t
  match x with
  | ⟨0, _⟩ => show win0_16.index t (0 : Fin 3) * 3 + 1 * (0 + 1 * 0) = 0; omega
  | ⟨1, _⟩ => show win0_16.index t (1 : Fin 3) * 128 + 1 * (0 + 1 * a.val) = a.val; omega
  | ⟨2, _⟩ => show win0_16.index t (2 : Fin 3) * 128 + 1 * (0 + 1 * b.val) = b.val; omega

set_option maxHeartbeats 4000000 in
/-- Slab 1 of the stacked matrix window 16 is the second matrix of its argument. -/
theorem rd16_1 (c : Dev nD) (t : Fin cfg0.N) (a b : Fin 128) :
    View.ld (iblk m c 16 t) rMat3_1 (ix3 (0 : Fin 1) a b) = (m ((c : Thread nD τ).loc main_arg17)) (ix3 (1 : Fin 3) a b) := by
  refine Eq.trans ?_ (V77_apply m c (ix3 (1 : Fin 3) a b))
  show iblk m c 16 t _ = _
  unfold iblk
  rw [View.read_apply]
  show V m c main_v77 _ = V m c main_v77 _
  congr 1
  funext x
  apply Fin.ext
  obtain ⟨e0, e1, e2⟩ := idx_16 t
  match x with
  | ⟨0, _⟩ => show win0_16.index t (0 : Fin 3) * 3 + 1 * (1 + 1 * 0) = 1; omega
  | ⟨1, _⟩ => show win0_16.index t (1 : Fin 3) * 128 + 1 * (0 + 1 * a.val) = a.val; omega
  | ⟨2, _⟩ => show win0_16.index t (2 : Fin 3) * 128 + 1 * (0 + 1 * b.val) = b.val; omega

set_option maxHeartbeats 4000000 in
/-- Slab 2 of the stacked matrix window 16 is the third matrix of its argument. -/
theorem rd16_2 (c : Dev nD) (t : Fin cfg0.N) (a b : Fin 128) :
    View.ld (iblk m c 16 t) rMat3_2 (ix3 (0 : Fin 1) a b) = (m ((c : Thread nD τ).loc main_arg17)) (ix3 (2 : Fin 3) a b) := by
  refine Eq.trans ?_ (V77_apply m c (ix3 (2 : Fin 3) a b))
  show iblk m c 16 t _ = _
  unfold iblk
  rw [View.read_apply]
  show V m c main_v77 _ = V m c main_v77 _
  congr 1
  funext x
  apply Fin.ext
  obtain ⟨e0, e1, e2⟩ := idx_16 t
  match x with
  | ⟨0, _⟩ => show win0_16.index t (0 : Fin 3) * 3 + 1 * (2 + 1 * 0) = 2; omega
  | ⟨1, _⟩ => show win0_16.index t (1 : Fin 3) * 128 + 1 * (0 + 1 * a.val) = a.val; omega
  | ⟨2, _⟩ => show win0_16.index t (2 : Fin 3) * 128 + 1 * (0 + 1 * b.val) = b.val; omega

set_option maxHeartbeats 4000000 in
/-- Row 0 of the stacked vector window 11 is the first vector of its argument. -/
theorem rd11_0 (c : Dev nD) (t : Fin cfg0.N) (k : Fin 128) :
    View.ld (iblk m c 11 t) rVec3_0 (ix2 (0 : Fin 1) k) = (m ((c : Thread nD τ).loc main_arg12)) (ix2 (0 : Fin 3) k) := by
  refine Eq.trans ?_ (congrFun (V_main_arg12 m c) (ix2 (0 : Fin 3) k))
  show iblk m c 11 t _ = _
  unfold iblk
  rw [View.read_apply]
  show V m c main_arg12 _ = V m c main_arg12 _
  congr 1
  funext x
  apply Fin.ext
  obtain ⟨e0, e1⟩ := idx_11 t
  match x with
  | ⟨0, _⟩ => show win0_11.index t (0 : Fin 2) * 3 + 1 * (0 + 1 * 0) = 0; omega
  | ⟨1, _⟩ => show win0_11.index t (1 : Fin 2) * 128 + 1 * (0 + 1 * k.val) = k.val; omega

set_option maxHeartbeats 4000000 in
/-- Row 1 of the stacked vector window 11 is the second vector of its argument. -/
theorem rd11_1 (c : Dev nD) (t : Fin cfg0.N) (k : Fin 128) :
    View.ld (iblk m c 11 t) rVec3_1 (ix2 (0 : Fin 1) k) = (m ((c : Thread nD τ).loc main_arg12)) (ix2 (1 : Fin 3) k) := by
  refine Eq.trans ?_ (congrFun (V_main_arg12 m c) (ix2 (1 : Fin 3) k))
  show iblk m c 11 t _ = _
  unfold iblk
  rw [View.read_apply]
  show V m c main_arg12 _ = V m c main_arg12 _
  congr 1
  funext x
  apply Fin.ext
  obtain ⟨e0, e1⟩ := idx_11 t
  match x with
  | ⟨0, _⟩ => show win0_11.index t (0 : Fin 2) * 3 + 1 * (1 + 1 * 0) = 1; omega
  | ⟨1, _⟩ => show win0_11.index t (1 : Fin 2) * 128 + 1 * (0 + 1 * k.val) = k.val; omega

set_option maxHeartbeats 4000000 in
/-- Row 2 of the stacked vector window 11 is the third vector of its argument. -/
theorem rd11_2 (c : Dev nD) (t : Fin cfg0.N) (k : Fin 128) :
    View.ld (iblk m c 11 t) rVec3_2 (ix2 (0 : Fin 1) k) = (m ((c : Thread nD τ).loc main_arg12)) (ix2 (2 : Fin 3) k) := by
  refine Eq.trans ?_ (congrFun (V_main_arg12 m c) (ix2 (2 : Fin 3) k))
  show iblk m c 11 t _ = _
  unfold iblk
  rw [View.read_apply]
  show V m c main_arg12 _ = V m c main_arg12 _
  congr 1
  funext x
  apply Fin.ext
  obtain ⟨e0, e1⟩ := idx_11 t
  match x with
  | ⟨0, _⟩ => show win0_11.index t (0 : Fin 2) * 3 + 1 * (2 + 1 * 0) = 2; omega
  | ⟨1, _⟩ => show win0_11.index t (1 : Fin 2) * 128 + 1 * (0 + 1 * k.val) = k.val; omega

set_option maxHeartbeats 4000000 in
/-- Row 0 of the stacked vector window 12 is the first vector of its argument. -/
theorem rd12_0 (c : Dev nD) (t : Fin cfg0.N) (k : Fin 128) :
    View.ld (iblk m c 12 t) rVec3_0 (ix2 (0 : Fin 1) k) = (m ((c : Thread nD τ).loc main_arg13)) (ix2 (0 : Fin 3) k) := by
  refine Eq.trans ?_ (congrFun (V_main_arg13 m c) (ix2 (0 : Fin 3) k))
  show iblk m c 12 t _ = _
  unfold iblk
  rw [View.read_apply]
  show V m c main_arg13 _ = V m c main_arg13 _
  congr 1
  funext x
  apply Fin.ext
  obtain ⟨e0, e1⟩ := idx_12 t
  match x with
  | ⟨0, _⟩ => show win0_12.index t (0 : Fin 2) * 3 + 1 * (0 + 1 * 0) = 0; omega
  | ⟨1, _⟩ => show win0_12.index t (1 : Fin 2) * 128 + 1 * (0 + 1 * k.val) = k.val; omega

set_option maxHeartbeats 4000000 in
/-- Row 1 of the stacked vector window 12 is the second vector of its argument. -/
theorem rd12_1 (c : Dev nD) (t : Fin cfg0.N) (k : Fin 128) :
    View.ld (iblk m c 12 t) rVec3_1 (ix2 (0 : Fin 1) k) = (m ((c : Thread nD τ).loc main_arg13)) (ix2 (1 : Fin 3) k) := by
  refine Eq.trans ?_ (congrFun (V_main_arg13 m c) (ix2 (1 : Fin 3) k))
  show iblk m c 12 t _ = _
  unfold iblk
  rw [View.read_apply]
  show V m c main_arg13 _ = V m c main_arg13 _
  congr 1
  funext x
  apply Fin.ext
  obtain ⟨e0, e1⟩ := idx_12 t
  match x with
  | ⟨0, _⟩ => show win0_12.index t (0 : Fin 2) * 3 + 1 * (1 + 1 * 0) = 1; omega
  | ⟨1, _⟩ => show win0_12.index t (1 : Fin 2) * 128 + 1 * (0 + 1 * k.val) = k.val; omega

set_option maxHeartbeats 4000000 in
/-- Row 2 of the stacked vector window 12 is the third vector of its argument. -/
theorem rd12_2 (c : Dev nD) (t : Fin cfg0.N) (k : Fin 128) :
    View.ld (iblk m c 12 t) rVec3_2 (ix2 (0 : Fin 1) k) = (m ((c : Thread nD τ).loc main_arg13)) (ix2 (2 : Fin 3) k) := by
  refine Eq.trans ?_ (congrFun (V_main_arg13 m c) (ix2 (2 : Fin 3) k))
  show iblk m c 12 t _ = _
  unfold iblk
  rw [View.read_apply]
  show V m c main_arg13 _ = V m c main_arg13 _
  congr 1
  funext x
  apply Fin.ext
  obtain ⟨e0, e1⟩ := idx_12 t
  match x with
  | ⟨0, _⟩ => show win0_12.index t (0 : Fin 2) * 3 + 1 * (2 + 1 * 0) = 2; omega
  | ⟨1, _⟩ => show win0_12.index t (1 : Fin 2) * 128 + 1 * (0 + 1 * k.val) = k.val; omega

end Cert.KernelIdeal.KReads

end
-- ==== Proof.KReadsC.lean ====
/-
  Each value the body reads at a grid point is an entry of an argument: the remaining stacked vectors of the hop blocks.

  Row `p` of a tile at point `t` is row `2000 t + p` of its array, and slab `h` of a stacked parameter is its `h`-th
  matrix or vector; the arrays are the arguments or, for the hop features, the reference's aggregated arrays.
-/
import proofs.«116947_j70188355551847_2_alg».proof.Proof.KReadsBase
set_option Elab.async false
set_option maxRecDepth 16384

noncomputable section

namespace Cert.KernelIdeal.KReads

open Cert.KernelIdeal Cert.KernelIdeal.Gen Cert.KernelIdeal.Frame Cert.KernelIdeal.Entry Cert.GinSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The reads -/

set_option maxHeartbeats 4000000 in
/-- Row 0 of the stacked vector window 13 is the first vector of its argument. -/
theorem rd13_0 (c : Dev nD) (t : Fin cfg0.N) (k : Fin 128) :
    View.ld (iblk m c 13 t) rVec3_0 (ix2 (0 : Fin 1) k) = (m ((c : Thread nD τ).loc main_arg14)) (ix2 (0 : Fin 3) k) := by
  refine Eq.trans ?_ (congrFun (V_main_arg14 m c) (ix2 (0 : Fin 3) k))
  show iblk m c 13 t _ = _
  unfold iblk
  rw [View.read_apply]
  show V m c main_arg14 _ = V m c main_arg14 _
  congr 1
  funext x
  apply Fin.ext
  obtain ⟨e0, e1⟩ := idx_13 t
  match x with
  | ⟨0, _⟩ => show win0_13.index t (0 : Fin 2) * 3 + 1 * (0 + 1 * 0) = 0; omega
  | ⟨1, _⟩ => show win0_13.index t (1 : Fin 2) * 128 + 1 * (0 + 1 * k.val) = k.val; omega

set_option maxHeartbeats 4000000 in
/-- Row 1 of the stacked vector window 13 is the second vector of its argument. -/
theorem rd13_1 (c : Dev nD) (t : Fin cfg0.N) (k : Fin 128) :
    View.ld (iblk m c 13 t) rVec3_1 (ix2 (0 : Fin 1) k) = (m ((c : Thread nD τ).loc main_arg14)) (ix2 (1 : Fin 3) k) := by
  refine Eq.trans ?_ (congrFun (V_main_arg14 m c) (ix2 (1 : Fin 3) k))
  show iblk m c 13 t _ = _
  unfold iblk
  rw [View.read_apply]
  show V m c main_arg14 _ = V m c main_arg14 _
  congr 1
  funext x
  apply Fin.ext
  obtain ⟨e0, e1⟩ := idx_13 t
  match x with
  | ⟨0, _⟩ => show win0_13.index t (0 : Fin 2) * 3 + 1 * (1 + 1 * 0) = 1; omega
  | ⟨1, _⟩ => show win0_13.index t (1 : Fin 2) * 128 + 1 * (0 + 1 * k.val) = k.val; omega

set_option maxHeartbeats 4000000 in
/-- Row 2 of the stacked vector window 13 is the third vector of its argument. -/
theorem rd13_2 (c : Dev nD) (t : Fin cfg0.N) (k : Fin 128) :
    View.ld (iblk m c 13 t) rVec3_2 (ix2 (0 : Fin 1) k) = (m ((c : Thread nD τ).loc main_arg14)) (ix2 (2 : Fin 3) k) := by
  refine Eq.trans ?_ (congrFun (V_main_arg14 m c) (ix2 (2 : Fin 3) k))
  show iblk m c 13 t _ = _
  unfold iblk
  rw [View.read_apply]
  show V m c main_arg14 _ = V m c main_arg14 _
  congr 1
  funext x
  apply Fin.ext
  obtain ⟨e0, e1⟩ := idx_13 t
  match x with
  | ⟨0, _⟩ => show win0_13.index t (0 : Fin 2) * 3 + 1 * (2 + 1 * 0) = 2; omega
  | ⟨1, _⟩ => show win0_13.index t (1 : Fin 2) * 128 + 1 * (0 + 1 * k.val) = k.val; omega

set_option maxHeartbeats 4000000 in
/-- Row 0 of the stacked vector window 14 is the first vector of its argument. -/
theorem rd14_0 (c : Dev nD) (t : Fin cfg0.N) (k : Fin 128) :
    View.ld (iblk m c 14 t) rVec3_0 (ix2 (0 : Fin 1) k) = (m ((c : Thread nD τ).loc main_arg15)) (ix2 (0 : Fin 3) k) := by
  refine Eq.trans ?_ (congrFun (V_main_arg15 m c) (ix2 (0 : Fin 3) k))
  show iblk m c 14 t _ = _
  unfold iblk
  rw [View.read_apply]
  show V m c main_arg15 _ = V m c main_arg15 _
  congr 1
  funext x
  apply Fin.ext
  obtain ⟨e0, e1⟩ := idx_14 t
  match x with
  | ⟨0, _⟩ => show win0_14.index t (0 : Fin 2) * 3 + 1 * (0 + 1 * 0) = 0; omega
  | ⟨1, _⟩ => show win0_14.index t (1 : Fin 2) * 128 + 1 * (0 + 1 * k.val) = k.val; omega

set_option maxHeartbeats 4000000 in
/-- Row 1 of the stacked vector window 14 is the second vector of its argument. -/
theorem rd14_1 (c : Dev nD) (t : Fin cfg0.N) (k : Fin 128) :
    View.ld (iblk m c 14 t) rVec3_1 (ix2 (0 : Fin 1) k) = (m ((c : Thread nD τ).loc main_arg15)) (ix2 (1 : Fin 3) k) := by
  refine Eq.trans ?_ (congrFun (V_main_arg15 m c) (ix2 (1 : Fin 3) k))
  show iblk m c 14 t _ = _
  unfold iblk
  rw [View.read_apply]
  show V m c main_arg15 _ = V m c main_arg15 _
  congr 1
  funext x
  apply Fin.ext
  obtain ⟨e0, e1⟩ := idx_14 t
  match x with
  | ⟨0, _⟩ => show win0_14.index t (0 : Fin 2) * 3 + 1 * (1 + 1 * 0) = 1; omega
  | ⟨1, _⟩ => show win0_14.index t (1 : Fin 2) * 128 + 1 * (0 + 1 * k.val) = k.val; omega

set_option maxHeartbeats 4000000 in
/-- Row 2 of the stacked vector window 14 is the third vector of its argument. -/
theorem rd14_2 (c : Dev nD) (t : Fin cfg0.N) (k : Fin 128) :
    View.ld (iblk m c 14 t) rVec3_2 (ix2 (0 : Fin 1) k) = (m ((c : Thread nD τ).loc main_arg15)) (ix2 (2 : Fin 3) k) := by
  refine Eq.trans ?_ (congrFun (V_main_arg15 m c) (ix2 (2 : Fin 3) k))
  show iblk m c 14 t _ = _
  unfold iblk
  rw [View.read_apply]
  show V m c main_arg15 _ = V m c main_arg15 _
  congr 1
  funext x
  apply Fin.ext
  obtain ⟨e0, e1⟩ := idx_14 t
  match x with
  | ⟨0, _⟩ => show win0_14.index t (0 : Fin 2) * 3 + 1 * (2 + 1 * 0) = 2; omega
  | ⟨1, _⟩ => show win0_14.index t (1 : Fin 2) * 128 + 1 * (0 + 1 * k.val) = k.val; omega

set_option maxHeartbeats 4000000 in
/-- Row 0 of the stacked vector window 15 is the first vector of its argument. -/
theorem rd15_0 (c : Dev nD) (t : Fin cfg0.N) (k : Fin 128) :
    View.ld (iblk m c 15 t) rVec3_0 (ix2 (0 : Fin 1) k) = (m ((c : Thread nD τ).loc main_arg16)) (ix2 (0 : Fin 3) k) := by
  refine Eq.trans ?_ (congrFun (V_main_arg16 m c) (ix2 (0 : Fin 3) k))
  show iblk m c 15 t _ = _
  unfold iblk
  rw [View.read_apply]
  show V m c main_arg16 _ = V m c main_arg16 _
  congr 1
  funext x
  apply Fin.ext
  obtain ⟨e0, e1⟩ := idx_15 t
  match x with
  | ⟨0, _⟩ => show win0_15.index t (0 : Fin 2) * 3 + 1 * (0 + 1 * 0) = 0; omega
  | ⟨1, _⟩ => show win0_15.index t (1 : Fin 2) * 128 + 1 * (0 + 1 * k.val) = k.val; omega

set_option maxHeartbeats 4000000 in
/-- Row 1 of the stacked vector window 15 is the second vector of its argument. -/
theorem rd15_1 (c : Dev nD) (t : Fin cfg0.N) (k : Fin 128) :
    View.ld (iblk m c 15 t) rVec3_1 (ix2 (0 : Fin 1) k) = (m ((c : Thread nD τ).loc main_arg16)) (ix2 (1 : Fin 3) k) := by
  refine Eq.trans ?_ (congrFun (V_main_arg16 m c) (ix2 (1 : Fin 3) k))
  show iblk m c 15 t _ = _
  unfold iblk
  rw [View.read_apply]
  show V m c main_arg16 _ = V m c main_arg16 _
  congr 1
  funext x
  apply Fin.ext
  obtain ⟨e0, e1⟩ := idx_15 t
  match x with
  | ⟨0, _⟩ => show win0_15.index t (0 : Fin 2) * 3 + 1 * (1 + 1 * 0) = 1; omega
  | ⟨1, _⟩ => show win0_15.index t (1 : Fin 2) * 128 + 1 * (0 + 1 * k.val) = k.val; omega

set_option maxHeartbeats 4000000 in
/-- Row 2 of the stacked vector window 15 is the third vector of its argument. -/
theorem rd15_2 (c : Dev nD) (t : Fin cfg0.N) (k : Fin 128) :
    View.ld (iblk m c 15 t) rVec3_2 (ix2 (0 : Fin 1) k) = (m ((c : Thread nD τ).loc main_arg16)) (ix2 (2 : Fin 3) k) := by
  refine Eq.trans ?_ (congrFun (V_main_arg16 m c) (ix2 (2 : Fin 3) k))
  show iblk m c 15 t _ = _
  unfold iblk
  rw [View.read_apply]
  show V m c main_arg16 _ = V m c main_arg16 _
  congr 1
  funext x
  apply Fin.ext
  obtain ⟨e0, e1⟩ := idx_15 t
  match x with
  | ⟨0, _⟩ => show win0_15.index t (0 : Fin 2) * 3 + 1 * (2 + 1 * 0) = 2; omega
  | ⟨1, _⟩ => show win0_15.index t (1 : Fin 2) * 128 + 1 * (0 + 1 * k.val) = k.val; omega

set_option maxHeartbeats 4000000 in
/-- Row 0 of the stacked vector window 17 is the first vector of its argument. -/
theorem rd17_0 (c : Dev nD) (t : Fin cfg0.N) (k : Fin 128) :
    View.ld (iblk m c 17 t) rVec3_0 (ix2 (0 : Fin 1) k) = (m ((c : Thread nD τ).loc main_arg18)) (ix2 (0 : Fin 3) k) := by
  refine Eq.trans ?_ (congrFun (V_main_arg18 m c) (ix2 (0 : Fin 3) k))
  show iblk m c 17 t _ = _
  unfold iblk
  rw [View.read_apply]
  show V m c main_arg18 _ = V m c main_arg18 _
  congr 1
  funext x
  apply Fin.ext
  obtain ⟨e0, e1⟩ := idx_17 t
  match x with
  | ⟨0, _⟩ => show win0_17.index t (0 : Fin 2) * 3 + 1 * (0 + 1 * 0) = 0; omega
  | ⟨1, _⟩ => show win0_17.index t (1 : Fin 2) * 128 + 1 * (0 + 1 * k.val) = k.val; omega

set_option maxHeartbeats 4000000 in
/-- Row 1 of the stacked vector window 17 is the second vector of its argument. -/
theorem rd17_1 (c : Dev nD) (t : Fin cfg0.N) (k : Fin 128) :
    View.ld (iblk m c 17 t) rVec3_1 (ix2 (0 : Fin 1) k) = (m ((c : Thread nD τ).loc main_arg18)) (ix2 (1 : Fin 3) k) := by
  refine Eq.trans ?_ (congrFun (V_main_arg18 m c) (ix2 (1 : Fin 3) k))
  show iblk m c 17 t _ = _
  unfold iblk
  rw [View.read_apply]
  show V m c main_arg18 _ = V m c main_arg18 _
  congr 1
  funext x
  apply Fin.ext
  obtain ⟨e0, e1⟩ := idx_17 t
  match x with
  | ⟨0, _⟩ => show win0_17.index t (0 : Fin 2) * 3 + 1 * (1 + 1 * 0) = 1; omega
  | ⟨1, _⟩ => show win0_17.index t (1 : Fin 2) * 128 + 1 * (0 + 1 * k.val) = k.val; omega

set_option maxHeartbeats 4000000 in
/-- Row 2 of the stacked vector window 17 is the third vector of its argument. -/
theorem rd17_2 (c : Dev nD) (t : Fin cfg0.N) (k : Fin 128) :
    View.ld (iblk m c 17 t) rVec3_2 (ix2 (0 : Fin 1) k) = (m ((c : Thread nD τ).loc main_arg18)) (ix2 (2 : Fin 3) k) := by
  refine Eq.trans ?_ (congrFun (V_main_arg18 m c) (ix2 (2 : Fin 3) k))
  show iblk m c 17 t _ = _
  unfold iblk
  rw [View.read_apply]
  show V m c main_arg18 _ = V m c main_arg18 _
  congr 1
  funext x
  apply Fin.ext
  obtain ⟨e0, e1⟩ := idx_17 t
  match x with
  | ⟨0, _⟩ => show win0_17.index t (0 : Fin 2) * 3 + 1 * (2 + 1 * 0) = 2; omega
  | ⟨1, _⟩ => show win0_17.index t (1 : Fin 2) * 128 + 1 * (0 + 1 * k.val) = k.val; omega

end Cert.KernelIdeal.KReads

end
-- ==== Proof.LibPlainDot.lean ====
/-
  The plain matrix product read at an index.

  For a left operand `[M, K]`, a right operand `[K, N]` and a result `[M, N]` with the one contracted axis the left's
  columns and the right's rows, the operand indices at result index `(p, q)` and contraction position `k` are `(p, k)`
  and `(k, q)`; so the contraction's sum, taken over the contraction shape's indices, is the textbook
  `Σ_{k < K} lhs (p, k) · rhs (k, q)`. At the extended reals both a kernel's matrix unit product into a zero
  accumulator and the host's `dot_general` are that sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The left operand's row is the result's row … -/
theorem lhs_row (i : (⟨2, ![M, N]⟩ : Shape).Idx) (k : (DotDims.plain M K N).contr.Idx) :
    ((DotDims.plain M K N).lhsIdx i k (0 : Fin 2)).val = (i 0).val := by
  unfold DotDims.lhsIdx
  rw [dif_neg (show ¬ (0 : Fin 2) ∈ (DotDims.plain M K N).lhsBatch from List.not_mem_nil),
    dif_pos (show (0 : Fin 2) ∈ (DotDims.plain M K N).lhsNonContracting from List.mem_singleton.mpr rfl)]
  rfl

/-- … its column the contraction position; -/
theorem lhs_col (i : (⟨2, ![M, N]⟩ : Shape).Idx) (k : (DotDims.plain M K N).contr.Idx) :
    ((DotDims.plain M K N).lhsIdx i k (1 : Fin 2)).val = (k ⟨0, Nat.one_pos⟩).val :=
  (DotDims.plain M K N).lhsIdx_val_of_single rfl i k

/-- the right operand's row is the contraction position … -/
theorem rhs_row (i : (⟨2, ![M, N]⟩ : Shape).Idx) (k : (DotDims.plain M K N).contr.Idx) :
    ((DotDims.plain M K N).rhsIdx i k (0 : Fin 2)).val = (k ⟨0, Nat.one_pos⟩).val :=
  (DotDims.plain M K N).rhsIdx_val_of_single rfl i k

/-- … and its column the result's column. -/
theorem rhs_col (i : (⟨2, ![M, N]⟩ : Shape).Idx) (k : (DotDims.plain M K N).contr.Idx) :
    ((DotDims.plain M K N).rhsIdx i k (1 : Fin 2)).val = (i 1).val := by
  unfold DotDims.rhsIdx
  rw [dif_neg (show ¬ (1 : Fin 2) ∈ (DotDims.plain M K N).rhsBatch from List.not_mem_nil),
    dif_pos (show (1 : Fin 2) ∈ (DotDims.plain M K N).rhsNonContracting from List.mem_singleton.mpr rfl)]
  rfl

/-- The contraction's sum at result index `(p, q)` is `Σ_{k < K} lhs (p, k) · rhs (k, q)`. -/
theorem contraction_sum (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- A kernel's product into the zero accumulator, at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply _ prec lhs rhs (ix2 p q)).trans (contraction_sum lhs rhs p q)

/-- The host's `dot_general`, at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply _ prec sched lhs rhs (ix2 p q)).trans (contraction_sum lhs rhs p q)

end Idealize.ShloMosaic.PlainDot

end
-- ==== Proof.KPayload.lean ====
/-
  The value the body stores, read at an index.

  The body's arithmetic is a composition of entrywise operations, of views that add or drop a unit axis, of one row
  broadcast over all rows, and of matrix products into a zero accumulator. At the extended reals each of these reads at
  an index `(p, q)` as the corresponding scalar expression of the operands' entries: the entrywise ones entry by entry,
  the views and the broadcast by moving the index, a product as `Σ_k x (p, k) · W (k, q)`, and a change of format as the
  identity. Pushing `(p, q)` through the whole composition shows that the stored entry is the first block of row `p`
  of the plain features plus, one after the other, the blocks of row `p` of the three hop features, at column `q`:
  the specification's `mlpRow` four times, summed from the left.
-/
import proofs.«116947_j70188355551847_2_alg».proof.Proof.Gen.KernelIdeal.Skeleton
import proofs.«116947_j70188355551847_2_alg».proof.Proof.Spec
import proofs.«116947_j70188355551847_2_alg».proof.Proof.LibPlainDot
import Idealize.ShloMosaic.Lib.ValueIdx
import Idealize.ShloMosaic.Lib.ValueLayout
import Idealize.ShloMosaic.Lib.Pipeline.Value

noncomputable section

open scoped BigOperators

namespace Cert.KernelIdeal.PayloadAt

open Idealize.ShloMosaic Idealize.ShloMosaic.ValueIdx Cert.KernelIdeal Cert.KernelIdeal.Gen Cert.GinSpec

/-! ## Layout operations read at an index -/

/-- The contraction record of every product in the body is the plain `[2000, 128] · [128, 128]` one. -/
theorem dot_eq : dot_S2000x128_S128x128_S2000x128_1_0_0_1_n_n = DotDims.plain 2000 128 128 := rfl

/-- A product into the zero accumulator, at `(p, q)`: `Σ_k x (p, k) · W (k, q)`. -/
theorem mm_apply (x : FVec Ideal S2000x128 .bf16) (W : FVec Ideal S128x128 .bf16) (p : Fin 2000) (q : Fin 128) :
    matmul dot_S2000x128_S128x128_S2000x128_1_0_0_1_n_n none x W (constant S2000x128 .f32 0x00000000#32) (ix2 p q)
      = ∑ k : Fin 128, x (ix2 p k) * W (ix2 k q) := by
  rw [dot_eq]
  exact PlainDot.matmul_zero_apply none x W p q

/-- One row broadcast over the 2000 rows reads its entry of the column. -/
theorem bcast_row_apply {α : Type} (v : S1x128.Idx → α) (h : S1x128.Broadcasts S2000x128) (p : Fin 2000) (q : Fin 128) :
    broadcastTo S2000x128 v h (ix2 p q) = v (ix2 (0 : Fin 1) q) :=
  broadcastTo_1b_ab_apply v h p q

/-- A vector of 128 viewed as one row. -/
theorem unit_row_apply {α : Type} (b : S128.Idx → α) (h : S128.ShapeCasts S1x128) (u : Fin 1) (k : Fin 128) :
    shapeCast S1x128 b h (ix2 u k) = b (ix1 k) :=
  shapeCast_a_1a_apply b h u k

/-- One row viewed as a vector of 128. -/
theorem slab_row_apply {α : Type} (b : S1x128.Idx → α) (h : S1x128.ShapeCasts S128) (k : Fin 128) :
    shapeCast S128 b h (ix1 k) = b (ix2 (0 : Fin 1) k) :=
  shapeCast_1a_a_apply b h k

/-- A one-matrix slab viewed as its matrix. -/
theorem slab_mat_apply {α : Type} (w : S1x128x128.Idx → α) (h : S1x128x128.ShapeCasts S128x128) (a b : Fin 128) :
    shapeCast S128x128 w h (ix2 a b) = w (ix3 (0 : Fin 1) a b) :=
  shapeCast_1ab_ab_apply w h a b

/-- A one-tile slab of features viewed as its tile. -/
theorem slab_tile_apply {α : Type} (x : S1x2000x128.Idx → α) (h : S1x2000x128.ShapeCasts S2000x128) (p : Fin 2000) (k : Fin 128) :
    shapeCast S2000x128 x h (ix2 p k) = x (ix3 (0 : Fin 1) p k) :=
  shapeCast_1ab_ab_apply x h p k

/-- A cast to the same shape reads the same entry. -/
theorem cast_id_apply {α : Type} {s : Shape} (x : s.Idx → α) (h : s.ShapeCasts s) (j : s.Idx) : shapeCast s x h j = x j :=
  shapeCast_apply x h j j rfl

/-- The reciprocal square root of a vector is entrywise the extended reals' one. -/
theorem rsqrt_apply {s : Shape} {φ : FTy} (a : FVec Ideal s φ) (i : s.Idx) : rsqrt a i = Ideal.rsqrt (a i) := rfl

/-! ## The first block: the plain features -/

/-- The first block's value at `(p, q)` is the block of row `p` at column `q`. -/
theorem pay2_apply (v0 : Vec Ideal S2000x128 .bf16) (v2 : Vec Ideal S128x128 .bf16) (v4 v5 v6 v7 v8 : Vec Ideal S128 .f32)
    (v9 : Vec Ideal S128x128 .bf16) (v11 : Vec Ideal S128 .f32) (p : Fin 2000) (q : Fin 128) :
    k0_pay2 v0 v2 v4 v5 v6 v7 v8 v9 v11 (ix2 p q)
      = mlpRow (fun k => v0 (ix2 p k)) (fun a b => v2 (ix2 a b)) (fun k => v4 (ix1 k)) (fun k => v5 (ix1 k))
          (fun k => v6 (ix1 k)) (fun k => v7 (ix1 k)) (fun k => v8 (ix1 k)) (fun a b => v9 (ix2 a b)) (fun k => v11 (ix1 k)) q := by
  simp only [k0_pay2, mlpRow, hiddenRow, bnEps, zeroW, addf_apply, mulf_apply, subf_apply, maximumf_apply, truncf_apply,
    broadcast_apply, rsqrt_apply, mm_apply, bcast_row_apply, unit_row_apply, cast_id_apply, Ideal.ofBits_def]

/-! ## The slabs of the hop parameters, unwrapped -/

theorem pay3_apply (v38 : Vec Ideal S1x2000x128 .bf16) (p : Fin 2000) (k : Fin 128) :
    k0_pay3 v38 (ix2 p k) = v38 (ix3 (0 : Fin 1) p k) := by
  simp only [k0_pay3, slab_tile_apply]

theorem pay4_apply (v52 : Vec Ideal S1x128x128 .bf16) (a b : Fin 128) :
    k0_pay4 v52 (ix2 a b) = v52 (ix3 (0 : Fin 1) a b) := by
  simp only [k0_pay4, slab_mat_apply]

theorem pay5_apply (v54 : Vec Ideal S1x128 .f32) (k : Fin 128) : k0_pay5 v54 (ix1 k) = v54 (ix2 (0 : Fin 1) k) := by
  simp only [k0_pay5, slab_row_apply]

theorem pay8_apply (v91 : Vec Ideal S1x128 .f32) (k : Fin 128) : k0_pay8 v91 (ix1 k) = v91 (ix2 (0 : Fin 1) k) := by
  simp only [k0_pay8, slab_row_apply]

theorem pay9_apply (v97 : Vec Ideal S1x128x128 .bf16) (a b : Fin 128) :
    k0_pay9 v97 (ix2 a b) = v97 (ix3 (0 : Fin 1) a b) := by
  simp only [k0_pay9, slab_mat_apply]

theorem pay10_apply (v99 : Vec Ideal S1x128 .f32) (k : Fin 128) : k0_pay10 v99 (ix1 k) = v99 (ix2 (0 : Fin 1) k) := by
  simp only [k0_pay10, slab_row_apply]

theorem pay12_apply (v89 : Vec Ideal S1x128 .f32) (u : Fin 1) (k : Fin 128) :
    k0_pay12 v89 (ix2 u k) = v89 (ix2 (0 : Fin 1) k) := by
  simp only [k0_pay12, unit_row_apply, slab_row_apply]

theorem pay14_apply (v134 : Vec Ideal S1x128 .f32) (k : Fin 128) : k0_pay14 v134 (ix1 k) = v134 (ix2 (0 : Fin 1) k) := by
  simp only [k0_pay14, slab_row_apply]

theorem pay15_apply (v136 : Vec Ideal S1x128 .f32) (k : Fin 128) : k0_pay15 v136 (ix1 k) = v136 (ix2 (0 : Fin 1) k) := by
  simp only [k0_pay15, slab_row_apply]

theorem pay16_apply (v140 : Vec Ideal S1x128 .f32) (k : Fin 128) : k0_pay16 v140 (ix1 k) = v140 (ix2 (0 : Fin 1) k) := by
  simp only [k0_pay16, slab_row_apply]

theorem pay17_apply (v142 : Vec Ideal S1x128x128 .bf16) (a b : Fin 128) :
    k0_pay17 v142 (ix2 a b) = v142 (ix3 (0 : Fin 1) a b) := by
  simp only [k0_pay17, slab_mat_apply]

theorem pay18_apply (v144 : Vec Ideal S1x128 .f32) (k : Fin 128) : k0_pay18 v144 (ix1 k) = v144 (ix2 (0 : Fin 1) k) := by
  simp only [k0_pay18, slab_row_apply]

theorem pay20_apply (v138 : Vec Ideal S1x128 .f32) (u : Fin 1) (k : Fin 128) :
    k0_pay20 v138 (ix2 u k) = v138 (ix2 (0 : Fin 1) k) := by
  simp only [k0_pay20, unit_row_apply, slab_row_apply]

/-! ## Hop 0: the hidden activation, then the second product added to the running sum -/

/-- The hidden activation of hop 0 at `(p, k)`. -/
theorem pay6_apply (v39 : FVec Ideal S2000x128 .bf16) (v40 : Vec Ideal S1x128x128 .bf16) (v42 v44 v46 v48 v50 : Vec Ideal S1x128 .f32)
    (p : Fin 2000) (k : Fin 128) :
    k0_pay6 v39 v40 v42 v44 v46 v48 v50 (ix2 p k)
      = hiddenRow (fun k1 => v39 (ix2 p k1)) (fun a b => v40 (ix3 (0 : Fin 1) a b)) (fun j => v42 (ix2 (0 : Fin 1) j))
          (fun j => v44 (ix2 (0 : Fin 1) j)) (fun j => v46 (ix2 (0 : Fin 1) j)) (fun j => v48 (ix2 (0 : Fin 1) j))
          (fun j => v50 (ix2 (0 : Fin 1) j)) k := by
  simp only [k0_pay6, hiddenRow, bnEps, zeroW, addf_apply, mulf_apply, subf_apply, maximumf_apply, truncf_apply,
    broadcast_apply, rsqrt_apply, mm_apply, bcast_row_apply, unit_row_apply, slab_row_apply, slab_mat_apply, Ideal.ofBits_def]

/-- The running sum after hop 0 at `(p, q)`: the sum so far plus the second product and its bias. -/
theorem pay7_apply (v37 : FVec Ideal S2000x128 .f32) (v53 : FVec Ideal S128x128 .bf16) (v55 : FVec Ideal S128 .f32)
    (v77 : FVec Ideal S2000x128 .bf16) (p : Fin 2000) (q : Fin 128) :
    k0_pay7 v37 v53 v55 v77 (constant S2000x128 .f32 0x00000000#32) (ix2 p q)
      = v37 (ix2 p q) + ((∑ k : Fin 128, v77 (ix2 p k) * v53 (ix2 k q)) + v55 (ix1 q)) := by
  simp only [k0_pay7, addf_apply, mm_apply, bcast_row_apply, unit_row_apply]

/-! ## Hop 1: normalised up to the scale, then the rest -/

/-- Hop 1's first product, centred and scaled by the reciprocal deviation, at `(p, k)`. -/
theorem pay11_apply (v83 : Vec Ideal S1x2000x128 .bf16) (v85 : Vec Ideal S1x128x128 .bf16) (v87 v93 v95 : Vec Ideal S1x128 .f32)
    (p : Fin 2000) (k : Fin 128) :
    k0_pay11 v83 v85 v87 v93 v95 (ix2 p k)
      = ((∑ k1 : Fin 128, v83 (ix3 (0 : Fin 1) p k1) * v85 (ix3 (0 : Fin 1) k1 k)) + v87 (ix2 (0 : Fin 1) k) - v93 (ix2 (0 : Fin 1) k))
          * Ideal.rsqrt (v95 (ix2 (0 : Fin 1) k) + bnEps) := by
  simp only [k0_pay11, bnEps, addf_apply, mulf_apply, subf_apply, broadcast_apply, rsqrt_apply, mm_apply, bcast_row_apply,
    unit_row_apply, slab_row_apply, slab_mat_apply, slab_tile_apply, Ideal.ofBits_def]

/-- The running sum after hop 1 at `(p, q)`. -/
theorem pay13_apply (v82 : FVec Ideal S2000x128 .f32) (v92 : FVec Ideal S128 .f32) (v98 : FVec Ideal S128x128 .bf16)
    (v100 : FVec Ideal S128 .f32) (v113 : FVec Ideal S2000x128 .f32) (v114 : FVec Ideal S1x128 .f32) (p : Fin 2000) (q : Fin 128) :
    k0_pay13 v82 v92 v98 v100 v113 v114 (ix2 p q)
      = v82 (ix2 p q)
        + ((∑ k : Fin 128, max (v113 (ix2 p k) * v114 (ix2 (0 : Fin 1) k) + v92 (ix1 k)) zeroW * v98 (ix2 k q)) + v100 (ix1 q)) := by
  simp only [k0_pay13, zeroW, addf_apply, mulf_apply, maximumf_apply, truncf_apply, broadcast_apply, mm_apply, bcast_row_apply,
    unit_row_apply, Ideal.ofBits_def]

/-! ## Hop 2: the first product and bias, then the rest -/

/-- Hop 2's first product plus its bias at `(p, k)`. -/
theorem pay19_apply (v128 : Vec Ideal S1x2000x128 .bf16) (v130 : Vec Ideal S1x128x128 .bf16) (v132 : Vec Ideal S1x128 .f32)
    (p : Fin 2000) (k : Fin 128) :
    k0_pay19 v128 v130 v132 (ix2 p k)
      = (∑ k1 : Fin 128, v128 (ix3 (0 : Fin 1) p k1) * v130 (ix3 (0 : Fin 1) k1 k)) + v132 (ix2 (0 : Fin 1) k) := by
  simp only [k0_pay19, addf_apply, mm_apply, bcast_row_apply, unit_row_apply, slab_row_apply, slab_mat_apply, slab_tile_apply]

/-- The stored value at `(p, q)`: the running sum plus hop 2's block. -/
theorem pay1_apply (v127 : FVec Ideal S2000x128 .f32) (v135 v137 v141 : FVec Ideal S128 .f32) (v143 : FVec Ideal S128x128 .bf16)
    (v145 : FVec Ideal S128 .f32) (v149 : FVec Ideal S2000x128 .f32) (v150 : FVec Ideal S1x128 .f32) (p : Fin 2000) (q : Fin 128) :
    k0_pay1 v127 v135 v137 v141 v143 v145 v149 v150 (ix2 p q)
      = v127 (ix2 p q)
        + ((∑ k : Fin 128,
              max (((v149 (ix2 p k) - v150 (ix2 (0 : Fin 1) k)) * Ideal.rsqrt (v141 (ix1 k) + bnEps)) * v135 (ix1 k) + v137 (ix1 k)) zeroW
                * v143 (ix2 k q))
            + v145 (ix1 q)) := by
  simp only [k0_pay1, bnEps, zeroW, addf_apply, mulf_apply, subf_apply, maximumf_apply, truncf_apply, broadcast_apply, rsqrt_apply,
    mm_apply, bcast_row_apply, unit_row_apply, Ideal.ofBits_def]

/-! ## The stored value -/

/-- The value the body stores, at `(p, q)`: the block of row `p` of the plain features plus, one after the other, the blocks of
    row `p` of the three hop features, each at column `q`. -/
theorem stored_apply
    (v0 : Vec Ideal S2000x128 .bf16) (v2 : Vec Ideal S128x128 .bf16) (v4 v5 v6 v7 v8 : Vec Ideal S128 .f32)
    (v9 : Vec Ideal S128x128 .bf16) (v11 : Vec Ideal S128 .f32)
    (v38 : Vec Ideal S1x2000x128 .bf16) (v40 : Vec Ideal S1x128x128 .bf16) (v42 v44 v46 v48 v50 : Vec Ideal S1x128 .f32)
    (v52 : Vec Ideal S1x128x128 .bf16) (v54 : Vec Ideal S1x128 .f32)
    (v83 : Vec Ideal S1x2000x128 .bf16) (v85 : Vec Ideal S1x128x128 .bf16) (v87 v89 v91 v93 v95 : Vec Ideal S1x128 .f32)
    (v97 : Vec Ideal S1x128x128 .bf16) (v99 : Vec Ideal S1x128 .f32)
    (v128 : Vec Ideal S1x2000x128 .bf16) (v130 : Vec Ideal S1x128x128 .bf16) (v132 v134 v136 v138 v140 : Vec Ideal S1x128 .f32)
    (v142 : Vec Ideal S1x128x128 .bf16) (v144 : Vec Ideal S1x128 .f32)
    (p : Fin 2000) (q : Fin 128) :
    k0_pay1
        (k0_pay13
          (k0_pay7 (k0_pay2 v0 v2 v4 v5 v6 v7 v8 v9 v11) (k0_pay4 v52) (k0_pay5 v54)
            (k0_pay6 (k0_pay3 v38) v40 v42 v44 v46 v48 v50) (constant S2000x128 .f32 0x00000000#32))
          (k0_pay8 v91) (k0_pay9 v97) (k0_pay10 v99) (k0_pay11 v83 v85 v87 v93 v95) (k0_pay12 v89))
        (k0_pay14 v134) (k0_pay15 v136) (k0_pay16 v140) (k0_pay17 v142) (k0_pay18 v144) (k0_pay19 v128 v130 v132)
        (k0_pay20 v138) (ix2 p q)
      = ((mlpRow (fun k => v0 (ix2 p k)) (fun a b => v2 (ix2 a b)) (fun k => v4 (ix1 k)) (fun k => v5 (ix1 k))
            (fun k => v6 (ix1 k)) (fun k => v7 (ix1 k)) (fun k => v8 (ix1 k)) (fun a b => v9 (ix2 a b)) (fun k => v11 (ix1 k)) q
          + mlpRow (fun k => v38 (ix3 (0 : Fin 1) p k)) (fun a b => v40 (ix3 (0 : Fin 1) a b)) (fun k => v42 (ix2 (0 : Fin 1) k))
              (fun k => v44 (ix2 (0 : Fin 1) k)) (fun k => v46 (ix2 (0 : Fin 1) k)) (fun k => v48 (ix2 (0 : Fin 1) k))
              (fun k => v50 (ix2 (0 : Fin 1) k)) (fun a b => v52 (ix3 (0 : Fin 1) a b)) (fun k => v54 (ix2 (0 : Fin 1) k)) q)
          + mlpRow (fun k => v83 (ix3 (0 : Fin 1) p k)) (fun a b => v85 (ix3 (0 : Fin 1) a b)) (fun k => v87 (ix2 (0 : Fin 1) k))
              (fun k => v89 (ix2 (0 : Fin 1) k)) (fun k => v91 (ix2 (0 : Fin 1) k)) (fun k => v93 (ix2 (0 : Fin 1) k))
              (fun k => v95 (ix2 (0 : Fin 1) k)) (fun a b => v97 (ix3 (0 : Fin 1) a b)) (fun k => v99 (ix2 (0 : Fin 1) k)) q)
        + mlpRow (fun k => v128 (ix3 (0 : Fin 1) p k)) (fun a b => v130 (ix3 (0 : Fin 1) a b)) (fun k => v132 (ix2 (0 : Fin 1) k))
            (fun k => v134 (ix2 (0 : Fin 1) k)) (fun k => v136 (ix2 (0 : Fin 1) k)) (fun k => v138 (ix2 (0 : Fin 1) k))
            (fun k => v140 (ix2 (0 : Fin 1) k)) (fun a b => v142 (ix3 (0 : Fin 1) a b)) (fun k => v144 (ix2 (0 : Fin 1) k)) q := by
  simp only [pay1_apply, pay13_apply, pay7_apply, pay2_apply, pay6_apply, pay11_apply, pay19_apply, pay3_apply, pay4_apply,
    pay5_apply, pay8_apply, pay9_apply, pay10_apply, pay12_apply, pay14_apply, pay15_apply, pay16_apply, pay17_apply,
    pay18_apply, pay20_apply, mlpRow, hiddenRow]

end Cert.KernelIdeal.PayloadAt

end
-- ==== Proof.KValue.lean ====
/-
  The result array after the launch, as one function of the arguments.

  With the body's stored value read at an index and each of its reads identified with an entry of an argument, what
  point `t` writes back is block `t` of `Gfin`, the specified result of the arguments (`flushed_eq`); every row lies in
  the block of point `row / 2000` (`cover`); so the output array ends at `Gfin` (`final`), and `run` is the launch's run
  re-posted with that and the arguments kept.
-/
import proofs.«116947_j70188355551847_2_alg».proof.Proof.KReadsA
import proofs.«116947_j70188355551847_2_alg».proof.Proof.KReadsB
import proofs.«116947_j70188355551847_2_alg».proof.Proof.KReadsC
import proofs.«116947_j70188355551847_2_alg».proof.Proof.KPayload

set_option Elab.async false
set_option maxRecDepth 16384

noncomputable section

namespace Cert.KernelIdeal.KValue

open Cert.KernelIdeal Cert.KernelIdeal.Gen Cert.KernelIdeal.Frame Cert.KernelIdeal.KReads Cert.GinSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## What a point writes back -/

set_option maxHeartbeats 4000000 in
/-- Any array read through point `t`'s block of the output at `(p, q)` is its entry at row `2000 t + p`, column `q`. -/
theorem out_read (t : Fin cfg0.N) (G : S30000x128.Idx → EReal) (p : Fin 2000) (q : Fin 128) (i : S30000x128.Idx)
    (h0 : (i 0).val = t.val * 2000 + p.val) (h1 : (i 1).val = q.val) :
    ((cfg0.win 18).blk t).view.read (Elt Ideal) G (ix2 p q) = G i := by
  rw [View.read_apply]
  obtain ⟨e0, e1⟩ := idx_18 t
  refine congrArg G (funext fun x => Fin.ext ?_)
  match x with
  | ⟨0, _⟩ => show win0_18.index t (0 : Fin 2) * 2000 + 1 * p.val = (i 0).val; omega
  | ⟨1, _⟩ => show win0_18.index t (1 : Fin 2) * 128 + 1 * q.val = (i 1).val; omega

set_option maxHeartbeats 4000000 in
/-- What point `t` writes back is block `t` of the specified result. -/
theorem flushed_eq (c : Dev nD) (t : Fin cfg0.N) :
    (dats m 0 c).flushed 18 t = ((cfg0.win 18).blk t).view.read (Elt Ideal) (Gfin m c) := by
  show (cfg0.win 18).cut (grid0.coords t) ((dats m 0 c).after 18 t) = _
  rw [after0_18]
  unfold out0_18
  rw [View.canon_unit_zero hz2]
  funext j
  obtain ⟨p, q, rfl⟩ : ∃ (p : Fin 2000) (q : Fin 128), j = ix2 p q := ⟨j 0, j 1, eq_ix2 j⟩
  have ht : t.val < 15 := by have h := t.isLt; have hN : cfg0.N = 15 := N_0; omega
  have hRlt : t.val * 2000 + p.val < 30000 := by have := p.isLt; omega
  rw [out_read t (Gfin m c) p q (ix2 ⟨t.val * 2000 + p.val, hRlt⟩ q) rfl rfl]
  unfold stored
  refine (PayloadAt.stored_apply _ _ _ _ _ _ _ _ _ _ _ _ _ _ _ _ _ _ _ _ _ _ _ _ _ _ _ _ _ _ _ _ _ _ _ _ p q).trans ?_
  show _ = GinSpec.outAt _ _ _ _ _ _ _ _ _ _ _ _ _ _ _ _ _ _ _ _ (⟨t.val * 2000 + p.val, hRlt⟩ : Fin 30000) q
  unfold GinSpec.outAt GinSpec.linRow GinSpec.hopRow
  simp only [rd0 m c t p ⟨t.val * 2000 + p.val, hRlt⟩ rfl, rd1_0 m c t p ⟨t.val * 2000 + p.val, hRlt⟩ rfl, rd1_1 m c t p ⟨t.val * 2000 + p.val, hRlt⟩ rfl, rd1_2 m c t p ⟨t.val * 2000 + p.val, hRlt⟩ rfl, rd2 m c t, rd8 m c t, rd3 m c t, rd4 m c t, rd5 m c t, rd6 m c t, rd7 m c t, rd9 m c t,
    rd10_0 m c t, rd10_1 m c t, rd10_2 m c t, rd16_0 m c t, rd16_1 m c t, rd16_2 m c t,
    rd11_0 m c t, rd11_1 m c t, rd11_2 m c t, rd12_0 m c t, rd12_1 m c t, rd12_2 m c t, rd13_0 m c t, rd13_1 m c t, rd13_2 m c t, rd14_0 m c t, rd14_1 m c t, rd14_2 m c t, rd15_0 m c t, rd15_1 m c t, rd15_2 m c t, rd17_0 m c t, rd17_1 m c t, rd17_2 m c t]

/-! ## The cover -/

/-- An index is in point `t`'s block iff each coordinate is in the block's range on its axis. -/
theorem mem_blk (t : Fin cfg0.N) (i : S30000x128.Idx) :
    i ∈ ((cfg0.win 18).blk t).view.set ↔ ∀ a : Fin 2, win0_18.index t a * S2000x128.size a ≤ (i a).val ∧ (i a).val < win0_18.index t a * S2000x128.size a + S2000x128.size a := by
  show i ∈ ((View.whole main_v78).slice (win0_18.rect t)).set ↔ _
  rw [View.set_slice_whole, Rect.mem_set_unit]
  exact Iff.rfl

/-- Every index lies in the block of the point its row names: row `r` in block `r / 2000`. -/
theorem cover (i : S30000x128.Idx) :
    ∃ t : Fin cfg0.N, (cfg0.win 18).flush t = true ∧ i ∈ ((cfg0.win 18).blk t).view.set := by
  have h0 : (i 0).val < 30000 := (i 0).isLt
  have h1 : (i 1).val < 128 := (i 1).isLt
  have hN : (i 0).val / 2000 < cfg0.N := by show (i 0).val / 2000 < grid0.N; rw [N_0]; omega
  obtain ⟨e0, e1⟩ := idx_18 ⟨(i 0).val / 2000, hN⟩
  have et : (⟨(i 0).val / 2000, hN⟩ : Fin cfg0.N).val = (i 0).val / 2000 := rfl
  refine ⟨⟨(i 0).val / 2000, hN⟩, flush0_18 _, ?_⟩
  rw [mem_blk]
  intro a
  match a with
  | ⟨0, _⟩ => show win0_18.index ⟨(i 0).val / 2000, hN⟩ (0 : Fin 2) * 2000 ≤ (i 0).val ∧ (i 0).val < win0_18.index ⟨(i 0).val / 2000, hN⟩ (0 : Fin 2) * 2000 + 2000; omega
  | ⟨1, _⟩ => show win0_18.index ⟨(i 0).val / 2000, hN⟩ (1 : Fin 2) * 128 ≤ (i 1).val ∧ (i 1).val < win0_18.index ⟨(i 0).val / 2000, hN⟩ (1 : Fin 2) * 128 + 128; omega

/-! ## The array after the run, and the run -/

/-- The output array after the launch is the specified result of the arguments. -/
theorem final (c : Dev nD) : (dats m 0 c).arrAt 18 cfg0.N = Gfin m c :=
  (dats m 0 c).arrAt_eq_of_cover 18 (Gfin m c) (fun t _ => flushed_eq m c t) cover

/-- The program's run at the extended reals: it terminates without a fault, its result array is the specified
    result of the arguments, and its argument arrays end as given. -/
theorem run : θ_run defs (onTc (τ := τ) (main (F := Ideal))) ⟨m, fun _ => 0, ρ⟩ (fun r => ∀ c : Dev nD,
      r.2.mem ((c.tc : Thread nD τ).loc main_v78) = Gfin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨((h c).1 18).trans (final m c), args_of_post m (dats m) (A_eq m) r h c⟩) (run_main m ρ)

end Cert.KernelIdeal.KValue

end
-- ==== Proof.RefValue.lean ====
/-
  The reference program's result at an index is the specification.

  The program is four blocks Linear → BatchNorm (inference form) → ReLU → Linear, each on a `[30000, 128]` array of row
  features, summed left to right: the first on the plain features (slab 0 of the stacked `[4, 30000, 128]` features),
  the other three on the aggregated features of the three hops, each with its own slab of the stacked parameters.
  On the extended reals every operation is exact, a matrix product is the plain sum over the contracted axis and a
  broadcast repeats a vector on every row, so entry `(r, j)` of a block depends on row `r` of its input only and is
  the specification's `mlpRow` of that row. The block is read at an index ONCE, as an operation on arbitrary arrays;
  each of the program's four blocks is that operation on its own operands, and a parameter slab read at an index
  is the stacked parameter at the slab's number.
-/
import proofs.«116947_j70188355551847_2_alg».proof.Proof.RefRead
import proofs.«116947_j70188355551847_2_alg».proof.Proof.Spec
import proofs.«116947_j70188355551847_2_alg».proof.Proof.SpecOut
import proofs.«116947_j70188355551847_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.GinSpec Cert.ReferenceIdeal.ReadP

/-! ## One block as an operation on whole arrays

The four blocks of the program are one and the same composition of array operations, applied to different
operands. It is named once, over arbitrary operands, and read at an index once. -/

/-- An array of extended reals of the given shape. -/
abbrev Arr (s : Shape) : Type := FVec Ideal s .f32

/-- A vector of 128 features repeated on every one of the 30000 rows: `[128] → [1, 128] → [30000, 128]`. -/
def rowB (y : Arr S128) : Arr S30000x128 :=
  broadcastInDim S30000x128 ![0, 1] bcast_S1x128_S30000x128_0_1 (broadcastInDim S1x128 ![1] bcast_S128_S1x128_1 y)

/-- Row `r`, column `j` of the repeated vector is its entry `j`. -/
theorem rowB_apply (y : Arr S128) (r : Fin 30000) (j : Fin 128) : rowB y (ix2 r j) = y (ix1 j) := by
  unfold rowB
  exact (broadcastInDim_apply _ bcast_S1x128_S30000x128_0_1 _ (ix2 r j) (ix2 (0 : Fin 1) j) (fun a => match a with
      | ⟨0, _⟩ => by show 0 = if (1 : Nat) = 1 then 0 else r.val; rw [if_pos rfl]
      | ⟨1, _⟩ => by show j.val = if (128 : Nat) = 1 then 0 else j.val; rw [if_neg (by decide)])).trans
    (broadcastInDim_apply _ bcast_S128_S1x128_1 y (ix2 (0 : Fin 1) j) (ix1 j) (fun a => match a with
      | ⟨0, _⟩ => by show j.val = if (128 : Nat) = 1 then 0 else j.val; rw [if_neg (by decide)]))

/-- The normalisation's ε on every hidden unit. -/
def epsV : Arr S128 := broadcastInDim S128 ![] bcast_S_S128 (constant (F := Ideal) S_ .f32 0x3727C5AC#32)

theorem epsV_apply (i : S128.Idx) : epsV i = bnEps :=
  broadcastInDim_apply _ bcast_S_S128 (constant (F := Ideal) S_ .f32 0x3727C5AC#32) i (fun a => a.elim0) (fun a => a.elim0)

/-- The zero the ReLU clamps at, on every entry. -/
def zeroM : Arr S30000x128 := broadcastInDim S30000x128 ![] bcast_S_S30000x128 (constant (F := Ideal) S_ .f32 0x00000000#32)

theorem zeroM_apply (i : S30000x128.Idx) : zeroM i = zeroW :=
  broadcastInDim_apply _ bcast_S_S30000x128 (constant (F := Ideal) S_ .f32 0x00000000#32) i (fun a => a.elim0) (fun a => a.elim0)

/-- The product of a `[30000, 128]` array with a `[128, 128]` matrix. -/
def dotM (z : Arr S30000x128) (W : Arr S128x128) : Arr S30000x128 :=
  Host.dotGeneral dot_S30000x128_S128x128_S30000x128_1_0_0_1_n_n none z W

/-- On the extended reals the product's entry `(r, j)` is `Σ_k z (r, k) · W (k, j)`. -/
theorem dotM_apply (z : Arr S30000x128) (W : Arr S128x128) (r : Fin 30000) (j : Fin 128) :
    dotM z W (ix2 r j) = ∑ k : Fin 128, z (ix2 r k) * W (ix2 k j) :=
  PlainDot.dotGeneral_apply none .single z W r j

/-- The hidden activations of a block, as the program computes them on whole arrays:
    `max ((((z · W₁ + b₁) − μ) · rsqrt (σ² + ε)) · γ + β) 0`, every vector repeated on the rows. -/
def hidden (z : Arr S30000x128) (W1 : Arr S128x128) (b1 g bt mu var : Arr S128) : Arr S30000x128 :=
  maximumf
    (addf (mulf (mulf (subf (addf (dotM z W1) (rowB b1)) (rowB mu)) (rowB (Host.rsqrt (addf var epsV)))) (rowB g)) (rowB bt))
    zeroM

/-- One block on whole arrays: the hidden activations times `W₂`, plus `b₂` on every row. -/
def block (z : Arr S30000x128) (W1 : Arr S128x128) (b1 g bt mu var : Arr S128) (W2 : Arr S128x128) (b2 : Arr S128) :
    Arr S30000x128 :=
  addf (dotM (hidden z W1 b1 g bt mu var) W2) (rowB b2)

/-- Entry `(r, k)` of the hidden activations is the specification's hidden unit `k` of row `r`. -/
theorem hidden_apply (z : Arr S30000x128) (W1 : Arr S128x128) (b1 g bt mu var : Arr S128) (r : Fin 30000) (k : Fin 128) :
    hidden z W1 b1 g bt mu var (ix2 r k)
      = hiddenRow (fun k1 => z (ix2 r k1)) (fun a b => W1 (ix2 a b)) (fun a => b1 (ix1 a)) (fun a => g (ix1 a))
          (fun a => bt (ix1 a)) (fun a => mu (ix1 a)) (fun a => var (ix1 a)) k := by
  unfold hidden hiddenRow
  rw [maximumf_apply, addf_apply, mulf_apply, mulf_apply, subf_apply, addf_apply, dotM_apply, rowB_apply, rowB_apply,
    rowB_apply, rowB_apply, rowB_apply, zeroM_apply]
  rfl

/-- Entry `(r, j)` of a block is the specification's block of row `r` at column `j`. -/
theorem block_apply (z : Arr S30000x128) (W1 : Arr S128x128) (b1 g bt mu var : Arr S128) (W2 : Arr S128x128) (b2 : Arr S128)
    (r : Fin 30000) (j : Fin 128) :
    block z W1 b1 g bt mu var W2 b2 (ix2 r j)
      = mlpRow (fun k1 => z (ix2 r k1)) (fun a b => W1 (ix2 a b)) (fun a => b1 (ix1 a)) (fun a => g (ix1 a))
          (fun a => bt (ix1 a)) (fun a => mu (ix1 a)) (fun a => var (ix1 a)) (fun a b => W2 (ix2 a b)) (fun a => b2 (ix1 a)) j := by
  unfold block mlpRow
  rw [addf_apply, dotM_apply, rowB_apply]
  simp only [hidden_apply]

/-! ## The four blocks of the program

The first block works on the plain features, slab `0` of the stacked feature array, with parameters of its own; the
block of hop `h` works on the hop's aggregated features with slab `h` of every stacked parameter. The aggregated
features (a gather and a scatter-add over the edges) are not opened: they stay the program's own arrays. -/

/-- Row `r`, feature `k` of the plain features is entry `(0, r, k)` of the stacked feature array (the row-major
    position `r · 128 + k` splits back into `r` and `k`). -/
theorem feat0_apply (x0 : (⟨S4x30000x128, .f32⟩ : BufTy).Contents (Elt Ideal)) (r : Fin 30000) (k : Fin 128) :
    val_main_v1 (F := Ideal) x0 (ix2 r k) = x0 (ix3 (0 : Fin 4) r k) := by
  rw [val_main_v1_apply, val_main_v0_apply]
  refine congrArg x0 (funext fun d => Fin.ext ?_)
  have hr := r.isLt
  have hk := k.isLt
  match d with
  | ⟨0, _⟩ => rfl
  | ⟨1, _⟩ => show (r.val * 128 + k.val) / 128 % 30000 = r.val; omega
  | ⟨2, _⟩ => show (r.val * 128 + k.val) % 128 = k.val; omega

/-- The first block is the block operation on the plain features, so its entry `(r, j)` is the specification's block
    of row `r` of the plain features. -/
theorem first_apply (x0 : (⟨S4x30000x128, .f32⟩ : BufTy).Contents (Elt Ideal))
    (x2 : (⟨S128x128, .f32⟩ : BufTy).Contents (Elt Ideal)) (x3 x4 x5 x6 x7 : (⟨S128, .f32⟩ : BufTy).Contents (Elt Ideal)) (x8 : (⟨S128x128, .f32⟩ : BufTy).Contents (Elt Ideal)) (x9 : (⟨S128, .f32⟩ : BufTy).Contents (Elt Ideal)) (r : Fin 30000) (j : Fin 128) :
    val_main_v25 (F := Ideal) x0 x2 x3 x4 x5 x6 x7 x8 x9 (ix2 r j)
      = mlpRow (fun k => x0 (ix3 (0 : Fin 4) r k)) (fun a b => x2 (ix2 a b)) (fun k => x3 (ix1 k)) (fun k => x4 (ix1 k))
          (fun k => x5 (ix1 k)) (fun k => x6 (ix1 k)) (fun k => x7 (ix1 k)) (fun a b => x8 (ix2 a b)) (fun k => x9 (ix1 k)) j := by
  rw [show val_main_v25 (F := Ideal) x0 x2 x3 x4 x5 x6 x7 x8 x9
      = block (val_main_v1 (F := Ideal) x0) x2 x3 x4 x5 x6 x7 x8 x9 from rfl, block_apply]
  simp only [feat0_apply]

/-- The first hop's `[128, 128]` matrix taken out of a `[3, 128, 128]` stack: entry `(a, b)` is the stack's `(0, a, b)`
    (the row-major position `a · 128 + b` splits back into `a` and `b`). -/
theorem mat0_apply (y : (⟨S3x128x128, .f32⟩ : BufTy).Contents (Elt Ideal)) (a b : Fin 128) :
    val_main_v49 (F := Ideal) y (ix2 a b) = y (ix3 (0 : Fin 3) a b) := by
  rw [val_main_v49_apply, val_main_v48_apply]
  refine congrArg y (funext fun d => Fin.ext ?_)
  have ha := a.isLt
  have hb := b.isLt
  match d with
  | ⟨0, _⟩ => rfl
  | ⟨1, _⟩ => show (a.val * 128 + b.val) / 128 % 128 = a.val; omega
  | ⟨2, _⟩ => show (a.val * 128 + b.val) % 128 = b.val; omega

/-- The first hop's vector of 128 entries taken out of a `[3, 128]` stack: entry `k` is the stack's `(0, k)`. -/
theorem vec0_apply (y : (⟨S3x128, .f32⟩ : BufTy).Contents (Elt Ideal)) (k : Fin 128) :
    val_main_v52 (F := Ideal) y (ix1 k) = y (ix2 (0 : Fin 3) k) := by
  rw [val_main_v52_apply, val_main_v51_apply]
  refine congrArg y (funext fun d => Fin.ext ?_)
  have hk := k.isLt
  match d with
  | ⟨0, _⟩ => rfl
  | ⟨1, _⟩ => show k.val % 128 = k.val; omega

/-- The first hop's block is the block operation on the hop's aggregated features and the hop's slabs of the stacked
    parameters (every `[3, 128]` stack is cut the same way, and so is every `[3, 128, 128]` one), so its entry
    `(r, j)` is the specification's block of row `r` of the aggregated features. -/
theorem hop0_apply (x0 : (⟨S4x30000x128, .f32⟩ : BufTy).Contents (Elt Ideal)) (x1 : (⟨S3x2x480000, .i32⟩ : BufTy).Contents (Elt Ideal)) (x10 : (⟨S3, .f32⟩ : BufTy).Contents (Elt Ideal))
    (x11 : (⟨S3x128x128, .f32⟩ : BufTy).Contents (Elt Ideal)) (x12 x13 x14 x15 x16 : (⟨S3x128, .f32⟩ : BufTy).Contents (Elt Ideal)) (x17 : (⟨S3x128x128, .f32⟩ : BufTy).Contents (Elt Ideal)) (x18 : (⟨S3x128, .f32⟩ : BufTy).Contents (Elt Ideal)) (r : Fin 30000) (j : Fin 128) :
    val_main_v87 (F := Ideal) x0 x1 x10 x11 x12 x13 x14 x15 x16 x17 x18 (ix2 r j)
      = mlpRow (fun k => val_main_v47 (F := Ideal) x0 x1 x10 (ix2 r k)) (fun a b => x11 (ix3 (0 : Fin 3) a b))
          (fun k => x12 (ix2 (0 : Fin 3) k)) (fun k => x13 (ix2 (0 : Fin 3) k)) (fun k => x14 (ix2 (0 : Fin 3) k))
          (fun k => x15 (ix2 (0 : Fin 3) k)) (fun k => x16 (ix2 (0 : Fin 3) k)) (fun a b => x17 (ix3 (0 : Fin 3) a b))
          (fun k => x18 (ix2 (0 : Fin 3) k)) j := by
  rw [show val_main_v87 (F := Ideal) x0 x1 x10 x11 x12 x13 x14 x15 x16 x17 x18
      = block (val_main_v47 (F := Ideal) x0 x1 x10) (val_main_v49 (F := Ideal) x11) (val_main_v52 (F := Ideal) x12) (val_main_v52 (F := Ideal) x13)
          (val_main_v52 (F := Ideal) x14) (val_main_v52 (F := Ideal) x15) (val_main_v52 (F := Ideal) x16) (val_main_v49 (F := Ideal) x17)
          (val_main_v52 (F := Ideal) x18) from rfl, block_apply]
  simp only [mat0_apply, vec0_apply]

/-- The second hop's `[128, 128]` matrix taken out of a `[3, 128, 128]` stack: entry `(a, b)` is the stack's `(1, a, b)`
    (the row-major position `a · 128 + b` splits back into `a` and `b`). -/
theorem mat1_apply (y : (⟨S3x128x128, .f32⟩ : BufTy).Contents (Elt Ideal)) (a b : Fin 128) :
    val_main_v112 (F := Ideal) y (ix2 a b) = y (ix3 (1 : Fin 3) a b) := by
  rw [val_main_v112_apply, val_main_v111_apply]
  refine congrArg y (funext fun d => Fin.ext ?_)
  have ha := a.isLt
  have hb := b.isLt
  match d with
  | ⟨0, _⟩ => rfl
  | ⟨1, _⟩ => show (a.val * 128 + b.val) / 128 % 128 = a.val; omega
  | ⟨2, _⟩ => show (a.val * 128 + b.val) % 128 = b.val; omega

/-- The second hop's vector of 128 entries taken out of a `[3, 128]` stack: entry `k` is the stack's `(1, k)`. -/
theorem vec1_apply (y : (⟨S3x128, .f32⟩ : BufTy).Contents (Elt Ideal)) (k : Fin 128) :
    val_main_v115 (F := Ideal) y (ix1 k) = y (ix2 (1 : Fin 3) k) := by
  rw [val_main_v115_apply, val_main_v114_apply]
  refine congrArg y (funext fun d => Fin.ext ?_)
  have hk := k.isLt
  match d with
  | ⟨0, _⟩ => rfl
  | ⟨1, _⟩ => show k.val % 128 = k.val; omega

/-- The second hop's block is the block operation on the hop's aggregated features and the hop's slabs of the stacked
    parameters (every `[3, 128]` stack is cut the same way, and so is every `[3, 128, 128]` one), so its entry
    `(r, j)` is the specification's block of row `r` of the aggregated features. -/
theorem hop1_apply (x0 : (⟨S4x30000x128, .f32⟩ : BufTy).Contents (Elt Ideal)) (x1 : (⟨S3x2x480000, .i32⟩ : BufTy).Contents (Elt Ideal)) (x10 : (⟨S3, .f32⟩ : BufTy).Contents (Elt Ideal))
    (x11 : (⟨S3x128x128, .f32⟩ : BufTy).Contents (Elt Ideal)) (x12 x13 x14 x15 x16 : (⟨S3x128, .f32⟩ : BufTy).Contents (Elt Ideal)) (x17 : (⟨S3x128x128, .f32⟩ : BufTy).Contents (Elt Ideal)) (x18 : (⟨S3x128, .f32⟩ : BufTy).Contents (Elt Ideal)) (r : Fin 30000) (j : Fin 128) :
    val_main_v150 (F := Ideal) x0 x1 x10 x11 x12 x13 x14 x15 x16 x17 x18 (ix2 r j)
      = mlpRow (fun k => val_main_v110 (F := Ideal) x0 x1 x10 (ix2 r k)) (fun a b => x11 (ix3 (1 : Fin 3) a b))
          (fun k => x12 (ix2 (1 : Fin 3) k)) (fun k => x13 (ix2 (1 : Fin 3) k)) (fun k => x14 (ix2 (1 : Fin 3) k))
          (fun k => x15 (ix2 (1 : Fin 3) k)) (fun k => x16 (ix2 (1 : Fin 3) k)) (fun a b => x17 (ix3 (1 : Fin 3) a b))
          (fun k => x18 (ix2 (1 : Fin 3) k)) j := by
  rw [show val_main_v150 (F := Ideal) x0 x1 x10 x11 x12 x13 x14 x15 x16 x17 x18
      = block (val_main_v110 (F := Ideal) x0 x1 x10) (val_main_v112 (F := Ideal) x11) (val_main_v115 (F := Ideal) x12) (val_main_v115 (F := Ideal) x13)
          (val_main_v115 (F := Ideal) x14) (val_main_v115 (F := Ideal) x15) (val_main_v115 (F := Ideal) x16) (val_main_v112 (F := Ideal) x17)
          (val_main_v115 (F := Ideal) x18) from rfl, block_apply]
  simp only [mat1_apply, vec1_apply]

/-- The third hop's `[128, 128]` matrix taken out of a `[3, 128, 128]` stack: entry `(a, b)` is the stack's `(2, a, b)`
    (the row-major position `a · 128 + b` splits back into `a` and `b`). -/
theorem mat2_apply (y : (⟨S3x128x128, .f32⟩ : BufTy).Contents (Elt Ideal)) (a b : Fin 128) :
    val_main_v175 (F := Ideal) y (ix2 a b) = y (ix3 (2 : Fin 3) a b) := by
  rw [val_main_v175_apply, val_main_v174_apply]
  refine congrArg y (funext fun d => Fin.ext ?_)
  have ha := a.isLt
  have hb := b.isLt
  match d with
  | ⟨0, _⟩ => rfl
  | ⟨1, _⟩ => show (a.val * 128 + b.val) / 128 % 128 = a.val; omega
  | ⟨2, _⟩ => show (a.val * 128 + b.val) % 128 = b.val; omega

/-- The third hop's vector of 128 entries taken out of a `[3, 128]` stack: entry `k` is the stack's `(2, k)`. -/
theorem vec2_apply (y : (⟨S3x128, .f32⟩ : BufTy).Contents (Elt Ideal)) (k : Fin 128) :
    val_main_v178 (F := Ideal) y (ix1 k) = y (ix2 (2 : Fin 3) k) := by
  rw [val_main_v178_apply, val_main_v177_apply]
  refine congrArg y (funext fun d => Fin.ext ?_)
  have hk := k.isLt
  match d with
  | ⟨0, _⟩ => rfl
  | ⟨1, _⟩ => show k.val % 128 = k.val; omega

/-- The third hop's block is the block operation on the hop's aggregated features and the hop's slabs of the stacked
    parameters (every `[3, 128]` stack is cut the same way, and so is every `[3, 128, 128]` one), so its entry
    `(r, j)` is the specification's block of row `r` of the aggregated features. -/
theorem hop2_apply (x0 : (⟨S4x30000x128, .f32⟩ : BufTy).Contents (Elt Ideal)) (x1 : (⟨S3x2x480000, .i32⟩ : BufTy).Contents (Elt Ideal)) (x10 : (⟨S3, .f32⟩ : BufTy).Contents (Elt Ideal))
    (x11 : (⟨S3x128x128, .f32⟩ : BufTy).Contents (Elt Ideal)) (x12 x13 x14 x15 x16 : (⟨S3x128, .f32⟩ : BufTy).Contents (Elt Ideal)) (x17 : (⟨S3x128x128, .f32⟩ : BufTy).Contents (Elt Ideal)) (x18 : (⟨S3x128, .f32⟩ : BufTy).Contents (Elt Ideal)) (r : Fin 30000) (j : Fin 128) :
    val_main_v213 (F := Ideal) x0 x1 x10 x11 x12 x13 x14 x15 x16 x17 x18 (ix2 r j)
      = mlpRow (fun k => val_main_v173 (F := Ideal) x0 x1 x10 (ix2 r k)) (fun a b => x11 (ix3 (2 : Fin 3) a b))
          (fun k => x12 (ix2 (2 : Fin 3) k)) (fun k => x13 (ix2 (2 : Fin 3) k)) (fun k => x14 (ix2 (2 : Fin 3) k))
          (fun k => x15 (ix2 (2 : Fin 3) k)) (fun k => x16 (ix2 (2 : Fin 3) k)) (fun a b => x17 (ix3 (2 : Fin 3) a b))
          (fun k => x18 (ix2 (2 : Fin 3) k)) j := by
  rw [show val_main_v213 (F := Ideal) x0 x1 x10 x11 x12 x13 x14 x15 x16 x17 x18
      = block (val_main_v173 (F := Ideal) x0 x1 x10) (val_main_v175 (F := Ideal) x11) (val_main_v178 (F := Ideal) x12) (val_main_v178 (F := Ideal) x13)
          (val_main_v178 (F := Ideal) x14) (val_main_v178 (F := Ideal) x15) (val_main_v178 (F := Ideal) x16) (val_main_v175 (F := Ideal) x17)
          (val_main_v178 (F := Ideal) x18) from rfl, block_apply]
  simp only [mat2_apply, vec2_apply]

/-! ## The result -/

/-- Entry `(r, j)` of the program's result is the first block of row `r` of the plain features plus, one after the
    other, the three hops' blocks of row `r` of their aggregated features. -/
theorem result_apply (x0 : (⟨S4x30000x128, .f32⟩ : BufTy).Contents (Elt Ideal)) (x1 : (⟨S3x2x480000, .i32⟩ : BufTy).Contents (Elt Ideal))
    (x2 : (⟨S128x128, .f32⟩ : BufTy).Contents (Elt Ideal)) (x3 x4 x5 x6 x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S3, .f32⟩ : BufTy).Contents (Elt Ideal))
    (x11 : (⟨S3x128x128, .f32⟩ : BufTy).Contents (Elt Ideal)) (x12 x13 x14 x15 x16 : (⟨S3x128, .f32⟩ : BufTy).Contents (Elt Ideal)) (x17 : (⟨S3x128x128, .f32⟩ : BufTy).Contents (Elt Ideal)) (x18 : (⟨S3x128, .f32⟩ : BufTy).Contents (Elt Ideal)) (r : Fin 30000) (j : Fin 128) :
    val_main_v214 (F := Ideal) x0 x1 x2 x3 x4 x5 x6 x7 x8 x9 x10 x11 x12 x13 x14 x15 x16 x17 x18 (ix2 r j)
      = ((mlpRow (fun k => x0 (ix3 (0 : Fin 4) r k)) (fun a b => x2 (ix2 a b)) (fun k => x3 (ix1 k)) (fun k => x4 (ix1 k))
          (fun k => x5 (ix1 k)) (fun k => x6 (ix1 k)) (fun k => x7 (ix1 k)) (fun a b => x8 (ix2 a b)) (fun k => x9 (ix1 k)) j
        + mlpRow (fun k => val_main_v47 (F := Ideal) x0 x1 x10 (ix2 r k)) (fun a b => x11 (ix3 (0 : Fin 3) a b))
          (fun k => x12 (ix2 (0 : Fin 3) k)) (fun k => x13 (ix2 (0 : Fin 3) k)) (fun k => x14 (ix2 (0 : Fin 3) k))
          (fun k => x15 (ix2 (0 : Fin 3) k)) (fun k => x16 (ix2 (0 : Fin 3) k)) (fun a b => x17 (ix3 (0 : Fin 3) a b))
          (fun k => x18 (ix2 (0 : Fin 3) k)) j)
        + mlpRow (fun k => val_main_v110 (F := Ideal) x0 x1 x10 (ix2 r k)) (fun a b => x11 (ix3 (1 : Fin 3) a b))
          (fun k => x12 (ix2 (1 : Fin 3) k)) (fun k => x13 (ix2 (1 : Fin 3) k)) (fun k => x14 (ix2 (1 : Fin 3) k))
          (fun k => x15 (ix2 (1 : Fin 3) k)) (fun k => x16 (ix2 (1 : Fin 3) k)) (fun a b => x17 (ix3 (1 : Fin 3) a b))
          (fun k => x18 (ix2 (1 : Fin 3) k)) j)
        + mlpRow (fun k => val_main_v173 (F := Ideal) x0 x1 x10 (ix2 r k)) (fun a b => x11 (ix3 (2 : Fin 3) a b))
          (fun k => x12 (ix2 (2 : Fin 3) k)) (fun k => x13 (ix2 (2 : Fin 3) k)) (fun k => x14 (ix2 (2 : Fin 3) k))
          (fun k => x15 (ix2 (2 : Fin 3) k)) (fun k => x16 (ix2 (2 : Fin 3) k)) (fun a b => x17 (ix3 (2 : Fin 3) a b))
          (fun k => x18 (ix2 (2 : Fin 3) k)) j := by
  rw [val_main_v214_apply, val_main_v151_apply, val_main_v88_apply, first_apply, hop0_apply, hop1_apply, hop2_apply]
  rfl

/-- The program's result IS the specification's whole-array function of the arguments and the three aggregated feature
    arrays: the two agree at every row and column. -/
theorem result_eq (x0 : (⟨S4x30000x128, .f32⟩ : BufTy).Contents (Elt Ideal)) (x1 : (⟨S3x2x480000, .i32⟩ : BufTy).Contents (Elt Ideal))
    (x2 : (⟨S128x128, .f32⟩ : BufTy).Contents (Elt Ideal)) (x3 x4 x5 x6 x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S3, .f32⟩ : BufTy).Contents (Elt Ideal))
    (x11 : (⟨S3x128x128, .f32⟩ : BufTy).Contents (Elt Ideal)) (x12 x13 x14 x15 x16 : (⟨S3x128, .f32⟩ : BufTy).Contents (Elt Ideal)) (x17 : (⟨S3x128x128, .f32⟩ : BufTy).Contents (Elt Ideal)) (x18 : (⟨S3x128, .f32⟩ : BufTy).Contents (Elt Ideal)) :
    val_main_v214 (F := Ideal) x0 x1 x2 x3 x4 x5 x6 x7 x8 x9 x10 x11 x12 x13 x14 x15 x16 x17 x18
      = Cert.GinSpec.out x0 (val_main_v47 (F := Ideal) x0 x1 x10) (val_main_v110 (F := Ideal) x0 x1 x10)
          (val_main_v173 (F := Ideal) x0 x1 x10) x2 x3 x4 x5 x6 x7 x8 x9 x11 x12 x13 x14 x15 x16 x17 x18 := by
  funext i
  obtain ⟨r, j, rfl⟩ : ∃ (r : Fin 30000) (j : Fin 128), i = ix2 r j := ⟨i 0, i 1, eq_ix2 i⟩
  rw [result_apply]
  rfl

end Cert.ReferenceIdeal.RefValue

end
-- ==== Proof.lean ====
/-
  The certificate of a graph-network layer computed by a tiled kernel against its plain reference.

  Both programs compute, for 30000 nodes with 128 features, `out[r, j] = B(x₀ row r)[j] + Σ_{h<3} B_h(z_h row r)[j]`,
  where `B` is Linear → BatchNorm (inference form) → ReLU → Linear on one row, `x₀` is slab 0 of the features and
  `z_h = (1 + ε_h) · x_{h+1} + (the rows of x_{h+1} gathered along hop h's edge sources, summed into the edge targets)`.
  The reference forms each `z_h` and applies its block on all 30000 rows at once, adding the blocks in order. The
  kernel forms the same three `z_h` by the same host operations, stacks them, and launches fifteen grid points, point
  `t` computing rows `2000 t … 2000 t + 1999` of the same sum from the tiles of `x₀` and of the stack.

  * The frames: each program runs to the end without a fault and leaves its nineteen argument arrays as given —
    the kernel's two instances by the launch's run over the grid (the body's reads and one store per point), the
    reference's by its run, one host operation after the other.
  * No operation of the kernel was rewritten when it was idealized, so there is nothing to preserve.
  * At the extended reals a change of number format is the identity, a product into a zero accumulator and the
    host's contraction are the plain sum over the contracted index, and every row's result depends on that row
    only; so the kernel's output array (point `t`'s block is block `t` of one function of the arguments, and the
    blocks cover the rows) and the reference's result are the same function `GinSpec.out` of the arguments, entry by
    entry, with the same aggregated arrays `z_h`, operation for operation. No law of arithmetic beyond re-indexing
    is used, so the inputs' finiteness is not needed.
-/
import proofs.«116947_j70188355551847_2_alg».proof.Defs
import proofs.«116947_j70188355551847_2_alg».proof.Proof.Gen.Kernel
import proofs.«116947_j70188355551847_2_alg».proof.Proof.Gen.KernelIdeal
import proofs.«116947_j70188355551847_2_alg».proof.Proof.Gen.ReferenceIdeal
import proofs.«116947_j70188355551847_2_alg».proof.Proof.Gen.Pre_finite_inputs
import proofs.«116947_j70188355551847_2_alg».proof.Proof.KernelFrameBody
import proofs.«116947_j70188355551847_2_alg».proof.Proof.KernelIdealFrameBody
import proofs.«116947_j70188355551847_2_alg».proof.Proof.KValue
import proofs.«116947_j70188355551847_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to the end and keeps its arguments. -/
theorem frame_k : Cert.frame_Kernel :=
  fun m ρ _ => Cert.Kernel.Frame.frame m ρ

/-- The idealized kernel runs to the end and keeps its arguments. -/
theorem frame_ki : Cert.frame_KernelIdeal :=
  fun m ρ _ => Cert.KernelIdeal.Frame.frame m ρ

/-- The idealized reference runs to the end and keeps its arguments: its run with the result dropped. -/
theorem frame_ri : Cert.frame_ReferenceIdeal :=
  fun m ρ _ => (θ_run Cert.ReferenceIdeal.defs _ _).mono (fun _ h c => (h c).2)
    (Cert.ReferenceIdeal.ValueP.run (F := Ideal) m ρ)

/-- The idealization rewrote no operation. -/
theorem preserves : Cert.preserves_Kernel_KernelIdeal := trivial

/-- The reference's result, of arguments that agree with the kernel's, is the kernel's specified result. -/
theorem ref_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.ValueP.res_main_v214 m' c = Cert.KernelIdeal.KReads.Gfin m c := by
  obtain ⟨h0, h1, h2, h3, h4, h5, h6, h7, h8, h9, h10, h11, h12, h13, h14, h15, h16, h17, h18⟩ := hagree
  refine (Cert.ReferenceIdeal.ReadP.val_main_v214_eq m' c).trans ?_
  refine (Cert.ReferenceIdeal.RefValue.result_eq _ _ _ _ _ _ _ _ _ _ _ _ _ _ _ _ _ _ _).trans ?_
  unfold Cert.KernelIdeal.KReads.Gfin
  rw [h0, h1, h2, h3, h4, h5, h6, h7, h8, h9, h10, h11, h12, h13, h14, h15, h16, h17, h18]

/-- At the extended reals, from memories agreeing on the arguments, both programs run and end with the same result:
    the specified result of the arguments. -/
theorem algebraic :
    Cert.algebraic_KernelIdeal_ReferenceIdeal := by
  intro m ρ m' ρ' _ hagree
  refine ⟨fun c => Cert.KernelIdeal.KReads.Gfin m c, Cert.KernelIdeal.KValue.run m ρ, ?_⟩
  exact (θ_run Cert.ReferenceIdeal.defs _ _).mono
    (fun _ h c => ⟨(h c).1.trans (ref_result m m' c (hagree c)), (h c).2⟩)
    (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
